-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x2000000 : Shape := ⟨2, ![2, 2000000]⟩
abbrev S8x32 : Shape := ⟨2, ![8, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x8 .f32) (main_arg1 : IVec S2x2000000 32) (main_arg2 : FVec F S8x32 .f32) (main_arg3 : FVec F S32 .f32) (main_arg4 : FVec F S32x32 .f32) (main_arg5 : FVec F S32 .f32) (main_arg6 : FVec F S32x1 .f32) (main_arg7 : FVec F S1 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S8x32 .f32 := Host.absf main_arg2
  let main_cst_0 : FVec F S_ .f32 := constant S_ .f32 0x7F800000#32
  let main_v5 : FVec F S8x32 .f32 := broadcastInDim S8x32 ![] bcast_S_S8x32 main_cst_0
  let main_v6 : IVec S8x32 1 := cmpf .olt main_v4 main_v5
  let main_c_1 : IVec S_ 1 := constantI S_ 1 1#1
  let main_v7 : IVec S_ 1 := (fun x v => Host.reduce IntOp.andi x v reducesTo_S8x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S100000x8 : Shape := ⟨2, ![100000, 8]⟩
abbrev S2x2000000 : Shape := ⟨2, ![2, 2000000]⟩
abbrev S8x32 : Shape := ⟨2, ![8, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x2000000 : Shape := ⟨2, ![1, 2000000]⟩
abbrev S2000000 : Shape := ⟨1, ![2000000]⟩
abbrev S_ : Shape := ⟨0, ![]⟩
abbrev S100000 : Shape := ⟨1, ![100000]⟩
abbrev S2000000x1 : Shape := ⟨2, ![2000000, 1]⟩
abbrev S100000x1 : Shape := ⟨2, ![100000, 1]⟩
abbrev S100000x32 : Shape := ⟨2, ![100000, 32]⟩
abbrev S4000x8 : Shape := ⟨2, ![4000, 8]⟩
abbrev S4000x1 : Shape := ⟨2, ![4000, 1]⟩
abbrev S4000x32 : Shape := ⟨2, ![4000, 32]⟩
abbrev S2000000x32 : Shape := ⟨2, ![2000000, 32]⟩
abbrev S1x32 : Shape := ⟨2, ![1, 32]⟩
abbrev S32x128 : Shape := ⟨2, ![32, 128]⟩
abbrev S1x1 : Shape := ⟨2, ![1, 1]⟩
abbrev S1x128 : Shape := ⟨2, ![1, 128]⟩
abbrev S100000x128 : Shape := ⟨2, ![100000, 128]⟩
abbrev S4000x128 : Shape := ⟨2, ![4000, 128]⟩

abbrev nBuf : Space → Nat
  | .hbm => 62
  | .vmem => 28
  | .smem => 0
  | _ => 0

abbrev bufTy : (tb : Table) → Fin (tcTables nBuf tb) → BufTy
  | .hbm, ⟨0, _⟩ => ⟨S100000x8, .f32⟩
  | .hbm, ⟨1, _⟩ => ⟨S2x2000000, .i32⟩
  | .hbm, ⟨2, _⟩ => ⟨S8x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1x2000000, .i32⟩
  | .hbm, ⟨9, _⟩ => ⟨S2000000, .i32⟩
  | .hbm, ⟨10, _⟩ => ⟨S1x2000000, .i32⟩
  | .hbm, ⟨11, _⟩ => ⟨S2000000, .i32⟩
  | .hbm, ⟨12, _⟩ => ⟨S_, .f32⟩
  | .hbm, ⟨13, _⟩ => ⟨S2000000, .f32⟩
  | .hbm, ⟨14, _⟩ => ⟨S_, .f32⟩
  | .hbm, ⟨15, _⟩ => ⟨S100000, .f32⟩
  | .hbm, ⟨16, _⟩ => ⟨S2000000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x32, .f32⟩
  | .hbm, ⟨24, _⟩ => ⟨S_, .i32⟩
  | .hbm, ⟨25, _⟩ => ⟨S2000000, .i32⟩
  | .hbm, ⟨26, _⟩ => ⟨S2000000, .i1⟩
  | .hbm, ⟨27, _⟩ => ⟨S_, .i32⟩
  | .hbm, ⟨28, _⟩ => ⟨S2000000, .i32⟩
  | .hbm, ⟨29, _⟩ => ⟨S2000000, .i32⟩
  | .hbm, ⟨30, _⟩ => ⟨S2000000, .i32⟩
  | .hbm, ⟨31, _⟩ => ⟨S2000000x1, .i32⟩
  | .hbm, ⟨32, _⟩ => ⟨S2000000x32, .f32⟩
  | .hbm, ⟨33, _⟩ => ⟨S_, .f32⟩
  | .hbm, ⟨34, _⟩ => ⟨S100000x32, .f32⟩
  | .hbm, ⟨35, _⟩ => ⟨S2000000x1, .i32⟩
  | .hbm, ⟨36, _⟩ => ⟨S100000x32, .f32⟩
  | .hbm, ⟨37, _⟩ => ⟨S1x32, .f32⟩
  | .hbm, ⟨38, _⟩ => ⟨S100000x32, .f32⟩
  | .hbm, ⟨39, _⟩ => ⟨S_, .i32⟩
  | .hbm, ⟨40, _⟩ => ⟨S2000000, .i32⟩
  | .hbm, ⟨41, _⟩ => ⟨S2000000, .i1⟩
  | .hbm, ⟨42, _⟩ => ⟨S_, .i32⟩
  | .hbm, ⟨43, _⟩ => ⟨S2000000, .i32⟩
  | .hbm, ⟨44, _⟩ => ⟨S2000000, .i32⟩
  | .hbm, ⟨45, _⟩ => ⟨S2000000, .i32⟩
  | .hbm, ⟨46, _⟩ => ⟨S2000000x1, .i32⟩
  | .hbm, ⟨47, _⟩ => ⟨S2000000x32, .f32⟩
  | .hbm, ⟨48, _⟩ => ⟨S_, .f32⟩
  | .hbm, ⟨49, _⟩ => ⟨S100000x32, .f32⟩
  | .hbm, ⟨50, _⟩ => ⟨S2000000x1, .i32⟩
  | .hbm, ⟨51, _⟩ => ⟨S100000x32, .f32⟩
  | .hbm, ⟨52, _⟩ => ⟨S_, .i32⟩
  | .hbm, ⟨53, _⟩ => ⟨S_, .f32⟩
  | .hbm, ⟨54, _⟩ => ⟨S32x128, .f32⟩
  | .hbm, ⟨55, _⟩ => ⟨S1x1, .f32⟩
  | .hbm, ⟨56, _⟩ => ⟨S_, .i32⟩
  | .hbm, ⟨57, _⟩ => ⟨S_, .f32⟩
  | .hbm, ⟨58, _⟩ => ⟨S1x128, .f32⟩
  | .hbm, ⟨59, _⟩ => ⟨S1x32, .f32⟩
  | .hbm, ⟨60, _⟩ => ⟨S100000x128, .f32⟩
  | .hbm, ⟨61, _⟩ => ⟨S100000x1, .f32⟩
  | .local _ .vmem, ⟨0, _⟩ => ⟨S4000x8, .f32⟩
  | .local _ .vmem, ⟨1, _⟩ => ⟨S4000x8, .f32⟩
  | .local _ .vmem, ⟨2, _⟩ => ⟨S8x32, .f32⟩
  | .local _ .vmem, ⟨3, _⟩ => ⟨S4000x1, .f32⟩
  | .local _ .vmem, ⟨4, _⟩ => ⟨S4000x1, .f32⟩
  | .local _ .vmem, ⟨5, _⟩ => ⟨S4000x32, .f32⟩
  | .local _ .vmem, ⟨6, _⟩ => ⟨S4000x32, .f32⟩
  | .local _ .vmem, ⟨7, _⟩ => ⟨S4000x32, .f32⟩
  | .local _ .vmem, ⟨8, _⟩ => ⟨S4000x32, .f32⟩
  | .local _ .vmem, ⟨9, _⟩ => ⟨S4000x32, .f32⟩
  | .local _ .vmem, ⟨10, _⟩ => ⟨S4000x32, .f32⟩
  | .local _ .vmem, ⟨11, _⟩ => ⟨S4000x1, .f32⟩
  | .local _ .vmem, ⟨12, _⟩ => ⟨S4000x1, .f32⟩
  | .local _ .vmem, ⟨13, _⟩ => ⟨S1x32, .f32⟩
  | .local _ .vmem, ⟨14, _⟩ => ⟨S32x32, .f32⟩
  | .local _ .vmem, ⟨15, _⟩ => ⟨S4000x32, .f32⟩
  | .local _ .vmem, ⟨16, _⟩ => ⟨S4000x32, .f32⟩
  | .local _ .vmem, ⟨17, _⟩ => ⟨S4000x32, .f32⟩
  | .local _ .vmem, ⟨18, _⟩ => ⟨S4000x32, .f32⟩
  | .local _ .vmem, ⟨19, _⟩ => ⟨S4000x32, .f32⟩
  | .local _ .vmem, ⟨20, _⟩ => ⟨S4000x32, .f32⟩
  | .local _ .vmem, ⟨21, _⟩ => ⟨S4000x1, .f32⟩
  | .local _ .vmem, ⟨22, _⟩ => ⟨S4000x1, .f32⟩
  | .local _ .vmem, ⟨23, _⟩ => ⟨S1x32, .f32⟩
  | .local _ .vmem, ⟨24, _⟩ => ⟨S32x128, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_call0_v0 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_call1_v0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S100000 : S_.BroadcastsInDim S100000 (![] : Fin 0 → Fin S100000.rank)
  bcast_S2000000_S2000000x1_0 : S2000000.BroadcastsInDim S2000000x1 (![0] : Fin 1 → Fin S2000000x1.rank)
  shapeCasts_S100000_S100000x1 : S100000.ShapeCasts S100000x1
  inb_S4000x8_S4000x8_0_0 : ∀ a, (![0, 0] : Fin 2 → Nat) a + S4000x8.size a ≤ S4000x8.size a
  h_S4000x8 : 0 < S4000x8.numel
  inb_S8x32_S8x32_0_0 : ∀ a, (![0, 0] : Fin 2 → Nat) a + S8x32.size a ≤ S8x32.size a
  h_S8x32 : 0 < S8x32.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x32 : S4000x1.Broadcasts S4000x32
  inb_S4000x32_S4000x32_0_0 : ∀ a, (![0, 0] : Fin 2 → Nat) a + S4000x32.size a ≤ S4000x32.size a
  h_S4000x32 : 0 < S4000x32.numel
  bcast_S_S100000x32 : S_.BroadcastsInDim S100000x32 (![] : Fin 0 → Fin S100000x32.rank)
  shapeCasts_S32_S1x32 : S32.ShapeCasts S1x32
  shapeCasts_S4000x32_S4000x32 : S4000x32.ShapeCasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x32_S32x32_0_0 : ∀ a, (![0, 0] : Fin 2 → Nat) a + S32x32.size a ≤ S32x32.size a
  h_S32x32 : 0 < S32x32.numel
  pads_S32x1_S32x128_000_01270 : S32x1.Pads (![0, 0] : Fin 2 → Nat) ![0, 127] ![0, 0] S32x128
  h_S_ : 0 < S_.numel
  shapeCasts_S1_S1x1 : S1.ShapeCasts S1x1
  pads_S1x1_S1x128_000_01270 : S1x1.Pads (![0, 0] : Fin 2 → Nat) ![0, 127] ![0, 0] S1x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  slices_S100000x128_S100000x1_0_0 : S100000x128.Slices ![0, 0] S100000x1
  scatter_S100000_S2000000x1_S2000000_n_0_0_1_wf : ScatterDims.WF S100000 S2000000x1 S2000000 [] [0] [0] 1
  dot_S4000x8_S8x32_S4000x32_1_0_0_1_n_n_wf : DotDims.WF S4000x8 S8x32 S4000x32 [1] [0] [0] [1] [] []
  gather_S100000x32_S2000000x1_S2000000x32_1_0_n_n_0_1_132_wf : GatherDims.WF S100000x32 S2000000x1 S2000000x32 [1] [0] [] [0] [] 1 ![1, 32]
  scatter_S100000x32_S2000000x1_S2000000x32_1_0_0_1_wf : ScatterDims.WF S100000x32 S2000000x1 S2000000x32 [1] [0] [0] 1
  dot_S4000x32_S32x32_S4000x32_1_0_0_1_n_n_wf : DotDims.WF S4000x32 S32x32 S4000x32 [1] [0] [0] [1] [] []
  dot_S4000x32_S32x128_S4000x128_1_0_0_1_n_n_wf : DotDims.WF S4000x32 S32x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x8.size a ≤ S100000x8.size a
  hwx0_0 : ∀ i : grid0.Coords, EltTy.bits .f32 = 32 ∨ (Rect.block (s := S100000x8) S4000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x32.size a ≤ S8x32.size a
  hwx0_1 : ∀ i : grid0.Coords, EltTy.bits .f32 = 32 ∨ (Rect.block (s := S8x32) S8x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x32.size a ≤ S100000x32.size a
  hwx0_3 : ∀ i : grid0.Coords, EltTy.bits .f32 = 32 ∨ (Rect.block (s := S100000x32) S4000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x32.size a ≤ S100000x32.size a
  hwx1_1 : ∀ i : grid1.Coords, EltTy.bits .f32 = 32 ∨ (Rect.block (s := S100000x32) S4000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x32.size a ≤ S100000x32.size a
  hwx1_5 : ∀ i : grid1.Coords, EltTy.bits .f32 = 32 ∨ (Rect.block (s := S100000x32) S4000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x32.size a ≤ S100000x32.size a
  hwx2_1 : ∀ i : grid2.Coords, EltTy.bits .f32 = 32 ∨ (Rect.block (s := S100000x32) S4000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x128.size a ≤ S32x128.size a
  hwx2_4 : ∀ i : grid2.Coords, EltTy.bits .f32 = 32 ∨ (Rect.block (s := S32x128) S32x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)

variable [Facts₀]

def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S4000x8_S8x32_S4000x32_1_0_0_1_n_n : DotDims S4000x8 S8x32 S4000x32 where
  lhsContracting := [1]
  rhsContracting := [0]
  lhsNonContracting := [0]
  rhsNonContracting := [1]
  lhsBatch := []
  rhsBatch := []
  wf := dot_S4000x8_S8x32_S4000x32_1_0_0_1_n_n_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def scatter_S100000x32_S2000000x1_S2000000x32_1_0_0_1 : ScatterDims S100000x32 S2000000x1 S2000000x32 where
  updateWindowDims := [1]
  insertedWindowDims := [0]
  scatterDimsToOperandDims := [0]
  indexVectorDim := 1
  wf := scatter_S100000x32_S2000000x1_S2000000x32_1_0_0_1_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf

abbrev win0_0 : Pipeline.Window sig grid0 :=
  Pipeline.Window.ofSpec (Memref.whole main_arg0) S4000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S4000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S4000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S32x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x8 : Shape := ⟨2, ![100000, 8]⟩
abbrev S2x2000000 : Shape := ⟨2, ![2, 2000000]⟩
abbrev S8x32 : Shape := ⟨2, ![8, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S100000 : Shape := ⟨1, ![100000]⟩
abbrev S1x2000000 : Shape := ⟨2, ![1, 2000000]⟩
abbrev S2000000 : Shape := ⟨1, ![2000000]⟩
abbrev S2100000 : Shape := ⟨1, ![2100000]⟩
abbrev S_ : Shape := ⟨0, ![]⟩
abbrev S2100000x1 : Shape := ⟨2, ![2100000, 1]⟩
abbrev S100000x32 : Shape := ⟨2, ![100000, 32]⟩
abbrev S2100000x32 : Shape := ⟨2, ![2100000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S2x2000000, .i32⟩
  | .hbm, ⟨2, _⟩ => ⟨S8x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S100000, .i32⟩
  | .hbm, ⟨9, _⟩ => ⟨S1x2000000, .i32⟩
  | .hbm, ⟨10, _⟩ => ⟨S2000000, .i32⟩
  | .hbm, ⟨11, _⟩ => ⟨S2100000, .i32⟩
  | .hbm, ⟨12, _⟩ => ⟨S1x2000000, .i32⟩
  | .hbm, ⟨13, _⟩ => ⟨S2000000, .i32⟩
  | .hbm, ⟨14, _⟩ => ⟨S2100000, .i32⟩
  | .hbm, ⟨15, _⟩ => ⟨S_, .f32⟩
  | .hbm, ⟨16, _⟩ => ⟨S2100000, .f32⟩
  | .hbm, ⟨17, _⟩ => ⟨S_, .f32⟩
  | .hbm, ⟨18, _⟩ => ⟨S100000, .f32⟩
  | .hbm, ⟨19, _⟩ => ⟨S2100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S2100000, .i32⟩
  | .hbm, ⟨34, _⟩ => ⟨S2100000, .i1⟩
  | .hbm, ⟨35, _⟩ => ⟨S_, .i32⟩
  | .hbm, ⟨36, _⟩ => ⟨S2100000, .i32⟩
  | .hbm, ⟨37, _⟩ => ⟨S2100000, .i32⟩
  | .hbm, ⟨38, _⟩ => ⟨S2100000, .i32⟩
  | .hbm, ⟨39, _⟩ => ⟨S2100000x1, .i32⟩
  | .hbm, ⟨40, _⟩ => ⟨S2100000, .f32⟩
  | .hbm, ⟨41, _⟩ => ⟨S_, .i32⟩
  | .hbm, ⟨42, _⟩ => ⟨S2100000, .i32⟩
  | .hbm, ⟨43, _⟩ => ⟨S2100000, .i1⟩
  | .hbm, ⟨44, _⟩ => ⟨S_, .i32⟩
  | .hbm, ⟨45, _⟩ => ⟨S2100000, .i32⟩
  | .hbm, ⟨46, _⟩ => ⟨S2100000, .i32⟩
  | .hbm, ⟨47, _⟩ => ⟨S2100000, .i32⟩
  | .hbm, ⟨48, _⟩ => ⟨S2100000x1, .i32⟩
  | .hbm, ⟨49, _⟩ => ⟨S2100000, .f32⟩
  | .hbm, ⟨50, _⟩ => ⟨S2100000, .f32⟩
  | .hbm, ⟨51, _⟩ => ⟨S100000x32, .f32⟩
  | .hbm, ⟨52, _⟩ => ⟨S_, .i32⟩
  | .hbm, ⟨53, _⟩ => ⟨S2100000, .i32⟩
  | .hbm, ⟨54, _⟩ => ⟨S2100000, .i1⟩
  | .hbm, ⟨55, _⟩ => ⟨S_, .i32⟩
  | .hbm, ⟨56, _⟩ => ⟨S2100000, .i32⟩
  | .hbm, ⟨57, _⟩ => ⟨S2100000, .i32⟩
  | .hbm, ⟨58, _⟩ => ⟨S2100000, .i32⟩
  | .hbm, ⟨59, _⟩ => ⟨S2100000x1, .i32⟩
  | .hbm, ⟨60, _⟩ => ⟨S2100000x32, .f32⟩
  | .hbm, ⟨61, _⟩ => ⟨S2100000x1, .f32⟩
  | .hbm, ⟨62, _⟩ => ⟨S2100000x32, .f32⟩
  | .hbm, ⟨63, _⟩ => ⟨S2100000x32, .f32⟩
  | .hbm, ⟨64, _⟩ => ⟨S_, .f32⟩
  | .hbm, ⟨65, _⟩ => ⟨S100000x32, .f32⟩
  | .hbm, ⟨66, _⟩ => ⟨S2100000x1, .i32⟩
  | .hbm, ⟨67, _⟩ => ⟨S100000x32, .f32⟩
  | .hbm, ⟨68, _⟩ => ⟨S1x32, .f32⟩
  | .hbm, ⟨69, _⟩ => ⟨S100000x32, .f32⟩
  | .hbm, ⟨70, _⟩ => ⟨S100000x32, .f32⟩
  | .hbm, ⟨71, _⟩ => ⟨S_, .f32⟩
  | .hbm, ⟨72, _⟩ => ⟨S100000x32, .f32⟩
  | .hbm, ⟨73, _⟩ => ⟨S100000x32, .f32⟩
  | .hbm, ⟨74, _⟩ => ⟨S100000x32, .f32⟩
  | .hbm, ⟨75, _⟩ => ⟨S_, .i32⟩
  | .hbm, ⟨76, _⟩ => ⟨S2100000, .i32⟩
  | .hbm, ⟨77, _⟩ => ⟨S2100000, .i1⟩
  | .hbm, ⟨78, _⟩ => ⟨S_, .i32⟩
  | .hbm, ⟨79, _⟩ => ⟨S2100000, .i32⟩
  | .hbm, ⟨80, _⟩ => ⟨S2100000, .i32⟩
  | .hbm, ⟨81, _⟩ => ⟨S2100000, .i32⟩
  | .hbm, ⟨82, _⟩ => ⟨S2100000x1, .i32⟩
  | .hbm, ⟨83, _⟩ => ⟨S2100000x32, .f32⟩
  | .hbm, ⟨84, _⟩ => ⟨S2100000x1, .f32⟩
  | .hbm, ⟨85, _⟩ => ⟨S2100000x32, .f32⟩
  | .hbm, ⟨86, _⟩ => ⟨S2100000x32, .f32⟩
  | .hbm, ⟨87, _⟩ => ⟨S_, .f32⟩
  | .hbm, ⟨88, _⟩ => ⟨S100000x32, .f32⟩
  | .hbm, ⟨89, _⟩ => ⟨S2100000x1, .i32⟩
  | .hbm, ⟨90, _⟩ => ⟨S100000x32, .f32⟩
  | .hbm, ⟨91, _⟩ => ⟨S1x32, .f32⟩
  | .hbm, ⟨92, _⟩ => ⟨S100000x32, .f32⟩
  | .hbm, ⟨93, _⟩ => ⟨S100000x32, .f32⟩
  | .hbm, ⟨94, _⟩ => ⟨S_, .f32⟩
  | .hbm, ⟨95, _⟩ => ⟨S100000x32, .f32⟩
  | .hbm, ⟨96, _⟩ => ⟨S100000x32, .f32⟩
  | .hbm, ⟨97, _⟩ => ⟨S100000x1, .f32⟩
  | .hbm, ⟨98, _⟩ => ⟨S1x1, .f32⟩
  | .hbm, ⟨99, _⟩ => ⟨S100000x1, .f32⟩
  | .hbm, ⟨100, _⟩ => ⟨S100000x1, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  concatenates_S2000000_S100000_S2100000_d0 : Shape.Concatenates [S2000000, S100000] S2100000 0
  slices_S2x2000000_S1x2000000_1_0 : S2x2000000.Slices ![1, 0] S1x2000000
  bcast_S_S2100000 : S_.BroadcastsInDim S2100000 (![] : Fin 0 → Fin S2100000.rank)
  bcast_S_S100000 : S_.BroadcastsInDim S100000 (![] : Fin 0 → Fin S100000.rank)
  bcast_S2100000_S2100000x1_0 : S2100000.BroadcastsInDim S2100000x1 (![0] : Fin 1 → Fin S2100000x1.rank)
  bcast_S2100000x1_S2100000x32_0_1 : S2100000x1.BroadcastsInDim S2100000x32 (![0, 1] : Fin 2 → Fin S2100000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S2100000x1_S2100000_n_0_0_1_wf : ScatterDims.WF S100000 S2100000x1 S2100000 [] [0] [0] 1
  gather_S100000_S2100000x1_S2100000_n_0_n_n_0_1_1_wf : GatherDims.WF S100000 S2100000x1 S2100000 [] [0] [] [0] [] 1 ![1]
  dot_S100000x8_S8x32_S100000x32_1_0_0_1_n_n_wf : DotDims.WF S100000x8 S8x32 S100000x32 [1] [0] [0] [1] [] []
  gather_S100000x32_S2100000x1_S2100000x32_1_0_n_n_0_1_132_wf : GatherDims.WF S100000x32 S2100000x1 S2100000x32 [1] [0] [] [0] [] 1 ![1, 32]
  scatter_S100000x32_S2100000x1_S2100000x32_1_0_0_1_wf : ScatterDims.WF S100000x32 S2100000x1 S2100000x32 [1] [0] [0] 1
  dot_S100000x32_S32x32_S100000x32_1_0_0_1_n_n_wf : DotDims.WF S100000x32 S32x32 S100000x32 [1] [0] [0] [1] [] []
  dot_S100000x32_S32x1_S100000x1_1_0_0_1_n_n_wf : DotDims.WF S100000x32 S32x1 S100000x1 [1] [0] [0] [1] [] []

variable [Facts₀]

def scatter_S100000_S2100000x1_S2100000_n_0_0_1 : ScatterDims S100000 S2100000x1 S2100000 where
  updateWindowDims := []
  insertedWindowDims := [0]
  scatterDimsToOperandDims := [0]
  indexVectorDim := 1
  wf := scatter_S100000_S2100000x1_S2100000_n_0_0_1_wf
def gather_S100000_S2100000x1_S2100000_n_0_n_n_0_1_1 : GatherDims S100000 S2100000x1 S2100000 where
  offsetDims := []
  collapsedSliceDims := [0]
  operandBatchingDims := []
  startIndicesBatchingDims := []
  startIndexMap := [0]
  indexVectorDim := 1
  sliceSizes := ![1]
  wf := gather_S100000_S2100000x1_S2100000_n_0_n_n_0_1_1_wf
def dot_S100000x8_S8x32_S100000x32_1_0_0_1_n_n : DotDims S100000x8 S8x32 S100000x32 where
  lhsContracting := [1]
  rhsContracting := [0]
  lhsNonContracting := [0]
  rhsNonContracting := [1]
  lhsBatch := []
  rhsBatch := []
  wf := dot_S100000x8_S8x32_S100000x32_1_0_0_1_n_n_wf
def gather_S100000x32_S2100000x1_S2100000x32_1_0_n_n_0_1_132 : GatherDims S100000x32 S2100000x1 S2100000x32 where
  offsetDims := [1]
  collapsedSliceDims := [0]
  operandBatchingDims := []
  startIndicesBatchingDims := []
  startIndexMap := [0]
  indexVectorDim := 1
  sliceSizes := ![1, 32]
  wf := gather_S100000x32_S2100000x1_S2100000x32_1_0_n_n_0_1_132_wf
def scatter_S100000x32_S2100000x1_S2100000x32_1_0_0_1 : ScatterDims S100000x32 S2100000x1 S2100000x32 where
  updateWindowDims := [1]
  insertedWindowDims := [0]
  scatterDimsToOperandDims := [0]
  indexVectorDim := 1
  wf := scatter_S100000x32_S2100000x1_S2100000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Spec.lean ====
/-
  Two spellings of a two-layer graph convolution with symmetric normalisation, over the reals.

  Nodes are `Fin N`, edges `Fin E`.  Edge `k` delivers to node `n` when `hit k n`; it reads the feature row `row k`.
  Every node also has a self loop.  With `cnt n` the number of edges delivering to `n`, the degree is `cnt n + 1` and the
  normalisation factor is `d n = 1 / sqrt (cnt n + 1)`.

  The aggregated spelling weighs the message of edge `k` by `d (row k) * d (drow k)`, where `drow k` is the row read for
  the edge's target (equal to `n` whenever the edge delivers to `n`), adds the self loop weighed by `d n * d n`, then
  the bias, then clamps at zero.

  The factored spelling scales the features by `d` first, sums the scaled rows of the delivering edges and the node's
  own scaled row, and multiplies the sum by `d n` afterwards.  The two agree by distributivity: the factor `d n` is
  constant over the edges delivering to `n`.
-/
import Mathlib.Analysis.Real.Sqrt
import Mathlib.Algebra.BigOperators.Ring.Finset
import Mathlib.Algebra.Order.Field.Basic

noncomputable section

namespace Cert.Gcn

open scoped BigOperators

variable {N E D H : ℕ}

/-- The number of edges that deliver to node `n`. -/
def cnt (hit : Fin E → Fin N → Prop) [∀ k n, Decidable (hit k n)] (n : Fin N) : ℕ :=
  (Finset.univ.filter fun k => hit k n).card

/-- The normalisation factor of node `n`: one over the square root of its degree, self loop included. -/
def dis (hit : Fin E → Fin N → Prop) [∀ k n, Decidable (hit k n)] (n : Fin N) : ℝ :=
  (Real.sqrt ((cnt hit n : ℝ) + 1))⁻¹

/-- A dense layer without bias: row `n` of `x` against column `c` of `w`. -/
def lin {A B : ℕ} (x : Fin N → Fin A → ℝ) (w : Fin A → Fin B → ℝ) (n : Fin N) (c : Fin B) : ℝ :=
  ∑ j, x n j * w j c

/-- One layer, factored: `ls` is the feature table already scaled by `d`; sum the rows of the delivering edges and the
    node's own row, scale by `d n`, add the bias, clamp at zero. -/
def layerK (d : Fin N → ℝ) (hit : Fin E → Fin N → Prop) [∀ k n, Decidable (hit k n)] (row : Fin E → Fin N)
    (ls : Fin N → Fin H → ℝ) (b : Fin H → ℝ) (n : Fin N) (c : Fin H) : ℝ :=
  max (d n * ((∑ k : Fin E, if hit k n then ls (row k) c else 0) + ls n c) + b c) 0

/-- One layer, aggregated: every message weighed by the product of the two factors of its edge. -/
def layerR (d : Fin N → ℝ) (hit : Fin E → Fin N → Prop) [∀ k n, Decidable (hit k n)] (row drow : Fin E → Fin N)
    (l : Fin N → Fin H → ℝ) (b : Fin H → ℝ) (n : Fin N) (c : Fin H) : ℝ :=
  max (((∑ k : Fin E, if hit k n then l (row k) c * (d (row k) * d (drow k)) else 0) + l n c * (d n * d n)) + b c) 0

/-- The layer law: scaling before and after the sum is weighing every message by both factors. -/
theorem layerK_eq_layerR (d : Fin N → ℝ) (hit : Fin E → Fin N → Prop) [∀ k n, Decidable (hit k n)] (row drow : Fin E → Fin N)
    (hdrow : ∀ k n, hit k n → drow k = n) (l : Fin N → Fin H → ℝ) (b : Fin H → ℝ) :
    layerK d hit row (fun n c => l n c * d n) b = layerR d hit row drow l b := by
  funext n c
  unfold layerK layerR
  congr 2
  rw [mul_add, Finset.mul_sum]
  congr 1
  · refine Finset.sum_congr rfl fun k _ => ?_
    by_cases h : hit k n
    · rw [if_pos h, if_pos h, hdrow k n h]; ring
    · rw [if_neg h, if_neg h, mul_zero]
  · ring

/-- The whole network, factored (the order of operations of the tiled program). -/
def outK (d : Fin N → ℝ) (hit : Fin E → Fin N → Prop) [∀ k n, Decidable (hit k n)] (row : Fin E → Fin N)
    (x : Fin N → Fin D → ℝ) (w1 : Fin D → Fin H → ℝ) (b1 : Fin H → ℝ) (w2 : Fin H → Fin H → ℝ) (b2 : Fin H → ℝ)
    (wf : Fin H → ℝ) (bf : ℝ) (n : Fin N) : ℝ :=
  (∑ j, layerK d hit row (fun n c => lin (layerK d hit row (fun n c => lin x w1 n c * d n) b1) w2 n c * d n) b2 n j * wf j) + bf

/-- The whole network, aggregated (the order of operations of the plain program). -/
def outR (d : Fin N → ℝ) (hit : Fin E → Fin N → Prop) [∀ k n, Decidable (hit k n)] (row drow : Fin E → Fin N)
    (x : Fin N → Fin D → ℝ) (w1 : Fin D → Fin H → ℝ) (b1 : Fin H → ℝ) (w2 : Fin H → Fin H → ℝ) (b2 : Fin H → ℝ)
    (wf : Fin H → ℝ) (bf : ℝ) (n : Fin N) : ℝ :=
  (∑ j, layerR d hit row drow (lin (layerR d hit row drow (lin x w1) b1) w2) b2 n j * wf j) + bf

/-- The two networks are one function. -/
theorem outK_eq_outR (d : Fin N → ℝ) (hit : Fin E → Fin N → Prop) [∀ k n, Decidable (hit k n)] (row drow : Fin E → Fin N)
    (hdrow : ∀ k n, hit k n → drow k = n)
    (x : Fin N → Fin D → ℝ) (w1 : Fin D → Fin H → ℝ) (b1 : Fin H → ℝ) (w2 : Fin H → Fin H → ℝ) (b2 : Fin H → ℝ)
    (wf : Fin H → ℝ) (bf : ℝ) :
    outK d hit row x w1 b1 w2 b2 wf bf = outR d hit row drow x w1 b1 w2 b2 wf bf := by
  funext n
  unfold outK outR
  rw [layerK_eq_layerR d hit row drow hdrow (lin x w1) b1,
    layerK_eq_layerR d hit row drow hdrow (lin (layerR d hit row drow (lin x w1) b1) w2) b2]

end Cert.Gcn

end
-- ==== Proof.Graph.lean ====
/-
  The graph as both programs read it off the edge array `ei : [2, 2000000]` of 32-bit words.

  Row 0 of `ei` holds the edges' sources, row 1 their targets.  A table lookup `t[v]` first wraps a negative word
  (`v + 100000`), then reads the word signed and clamps it into `0 … 99999`: `gRow (wrapW v)`.  An accumulating scatter
  reads the target word signed WITHOUT wrapping or clamping, and drops the update when it is out of range: edge `k`
  delivers to node `n` exactly when its target word reads `n` (`hitW`).  When an edge delivers to `n`, the row a lookup
  reads for its target word is `n` as well (`gRow_wrapW_of_hit`).
-/
import Idealize.ShloMosaic.PureOps.Ideal
import Idealize.ShloMosaic.Lib.ValueIdx
import proofs.«133357_j60670708023801_2_alg».proof.Proof.Spec

noncomputable section

namespace Cert.Gcn

open Idealize.ShloMosaic Idealize.ShloMosaic.ValueIdx

/-- The number of nodes. -/
abbrev NN : ℕ := 100000
/-- The number of edges. -/
abbrev EE : ℕ := 2000000

/-- A lookup's wrap of a negative index word into an axis of extent 100000. -/
def wrapW (v : BitVec 32) : BitVec 32 := Scalar.select (IntOp.cmpi .slt v 0#32) (IntOp.addi v 100000#32) v

/-- The row a lookup reads for a start word: read signed, clamped into `0 … 99999`. -/
def gRow (v : BitVec 32) : Fin NN := ⟨min v.toInt.toNat (NN - 1), by show min v.toInt.toNat 99999 < 100000; omega⟩

/-- The source word of edge `k`. -/
def srcW (ei : (⟨2, ![2, EE]⟩ : Shape).Idx → BitVec 32) (k : Fin EE) : BitVec 32 := ei (ix2 (0 : Fin 2) k)
/-- The target word of edge `k`. -/
def dstW (ei : (⟨2, ![2, EE]⟩ : Shape).Idx → BitVec 32) (k : Fin EE) : BitVec 32 := ei (ix2 (1 : Fin 2) k)

/-- Edge `k` delivers to node `n`: its target word, read signed, is `n`. -/
def hitW (ei : (⟨2, ![2, EE]⟩ : Shape).Idx → BitVec 32) (k : Fin EE) (n : Fin NN) : Prop := (dstW ei k).toInt = (n.val : ℤ)

instance (ei : (⟨2, ![2, EE]⟩ : Shape).Idx → BitVec 32) (k : Fin EE) (n : Fin NN) : Decidable (hitW ei k n) := by
  unfold hitW; infer_instance

/-- The feature row edge `k` reads. -/
def rowW (ei : (⟨2, ![2, EE]⟩ : Shape).Idx → BitVec 32) (k : Fin EE) : Fin NN := gRow (wrapW (srcW ei k))
/-- The row a lookup reads for edge `k`'s target. -/
def drowW (ei : (⟨2, ![2, EE]⟩ : Shape).Idx → BitVec 32) (k : Fin EE) : Fin NN := gRow (wrapW (dstW ei k))

/-- A word that reads a node number is not negative, so the wrap leaves it alone and the clamp returns that node. -/
theorem gRow_wrapW_of_toInt (v : BitVec 32) (n : Fin NN) (h : v.toInt = (n.val : ℤ)) : gRow (wrapW v) = n := by
  have hn : n.val < 100000 := n.isLt
  have hs : ¬ v.slt 0#32 = true := by
    rw [BitVec.slt_iff_toInt_lt]
    simp only [BitVec.toInt_zero]
    omega
  have hw : wrapW v = v := by
    unfold wrapW IntOp.cmpi
    simp only [hs]
    rfl
  rw [hw]
  refine Fin.ext ?_
  show min v.toInt.toNat 99999 = n.val
  omega

theorem drowW_of_hit (ei : (⟨2, ![2, EE]⟩ : Shape).Idx → BitVec 32) (k : Fin EE) (n : Fin NN) (h : hitW ei k n) :
    drowW ei k = n := gRow_wrapW_of_toInt _ n h

/-- A node number below 100000, written as a 32-bit word, reads back signed as itself. -/
theorem toInt_ofNat_node (i : Fin NN) : (BitVec.ofNat 32 i.val).toInt = (i.val : ℤ) := by
  have hi : i.val < 100000 := i.isLt
  have h1 : (BitVec.ofNat 32 i.val).toNat = i.val := by rw [BitVec.toNat_ofNat]; omega
  rw [BitVec.toInt_eq_toNat_cond, h1]
  split <;> omega

end Cert.Gcn

end
-- ==== Proof.Finite.lean ====
/-
  From the finiteness precondition to "every float input entry is a real number".

  The precondition is, for each of the seven float arguments `a`, `all (|a| < +∞)`, and-ed together into one `i1` word that
  is stated to be 1.  An `and` that is 1 has both operands 1; an `all` that is 1 has a 1 at every index; and at one entry,
  `max x (-x) < ⊤` in the extended reals says `x` is neither `⊤` nor `⊥`, so `x` is the real number `x.toReal`.
-/
import proofs.«133357_j60670708023801_2_alg».proof.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx
open Cert.Pre_finite_inputs

/-- The scalar shape has one index. -/
instance : Subsingleton S_.Idx := ⟨fun a b => funext fun d => d.elim0⟩

/-- The bit pattern of `+∞` denotes `⊤`. -/
theorem inf_eq_top : Ideal.ofBits .f32 0x7F800000#32 = (⊤ : EReal) := by simp [Ideal.ofBits, Ideal.ieee]

/-- An extended real whose absolute value is below `+∞` is a real number. -/
theorem real_of_abs_lt_inf (x : EReal)
    (h : Ideal.cmp .olt (max x (-x)) (Ideal.ofBits .f32 0x7F800000#32) = 1#1) : x = ((x.toReal : ℝ) : EReal) := by
  rw [inf_eq_top] at h
  unfold Ideal.cmp at h
  have hlt : max x (-x) < ⊤ := by
    by_contra hn
    simp [hn] at h
  rw [max_lt_iff] at hlt
  have hTop : x ≠ ⊤ := lt_top_iff_ne_top.mp hlt.1
  have hBot : x ≠ ⊥ := by
    intro hb
    rw [hb] at hlt
    simp at hlt
  exact (EReal.coe_toReal hTop hBot).symm

/-- One entry of an array: where `|a| < +∞` reads 1, the entry is a real number. -/
theorem entry_real {s : Shape} (a : FVec Ideal s .f32) (bc : S_.BroadcastsInDim s (![] : Fin 0 → Fin s.rank)) (i : s.Idx)
    (h : cmpf .olt (Host.absf a) (broadcastInDim s ![] bc (constant (F := Ideal) S_ .f32 0x7F800000#32)) i = 1#1) :
    a i = ((EReal.toReal (a i) : ℝ) : EReal) :=
  real_of_abs_lt_inf (a i) h

/-- A whole array: where `all (|a| < +∞)` reads 1, every entry is a real number. -/
theorem all_real {s : Shape} {axes : List (Fin s.rank)} (a : FVec Ideal s .f32)
    (bc : S_.BroadcastsInDim s (![] : Fin 0 → Fin s.rank)) (hr : s.ReducesTo axes S_) (hu : 0 < S_.numel)
    (h : Host.reduce IntOp.andi (cmpf .olt (Host.absf a)
        (broadcastInDim s ![] bc (constant (F := Ideal) S_ .f32 0x7F800000#32))) (constantI S_ 1 1#1) hr hu ix0 = 1#1) :
    ∀ i, a i = ((EReal.toReal (a i) : ℝ) : EReal) :=
  fun i => entry_real a bc i (Host.reduce_andi_all _ _ hr hu ix0 h i)

/-- An `and` of two scalar `i1` arrays that reads 1 has both reading 1. -/
theorem andi_ix0 (X Y : IVec S_ 1) (h : andi X Y ix0 = 1#1) : X ix0 = 1#1 ∧ Y ix0 = 1#1 := IntOp.andi_eq_one.1 h

/-- THE PRECONDITION MAKES EVERY FLOAT INPUT ENTRY A REAL NUMBER. -/
theorem reals_of_pre [Cert.Pre_finite_inputs.Facts]
    (a0 : FVec Ideal S100000x8 .f32) (a1 : IVec S2x2000000 32) (a2 : FVec Ideal S8x32 .f32) (a3 : FVec Ideal S32 .f32)
    (a4 : FVec Ideal S32x32 .f32) (a5 : FVec Ideal S32 .f32) (a6 : FVec Ideal S32x1 .f32) (a7 : FVec Ideal S1 .f32)
    (h : Cert.Pre_finite_inputs.fn (F := Ideal) a0 a1 a2 a3 a4 a5 a6 a7 = fun _ => 1#1) :
    (∀ i, a0 i = ((EReal.toReal (a0 i) : ℝ) : EReal)) ∧ (∀ i, a2 i = ((EReal.toReal (a2 i) : ℝ) : EReal)) ∧
    (∀ i, a3 i = ((EReal.toReal (a3 i) : ℝ) : EReal)) ∧ (∀ i, a4 i = ((EReal.toReal (a4 i) : ℝ) : EReal)) ∧
    (∀ i, a5 i = ((EReal.toReal (a5 i) : ℝ) : EReal)) ∧ (∀ i, a6 i = ((EReal.toReal (a6 i) : ℝ) : EReal)) ∧
    (∀ i, a7 i = ((EReal.toReal (a7 i) : ℝ) : EReal)) := by
  have e := congrFun h ix0
  dsimp only [Cert.Pre_finite_inputs.fn, Cert.Pre_finite_inputs.fn_part1] at e
  obtain ⟨e, h7⟩ := andi_ix0 _ _ e
  obtain ⟨e, h6⟩ := andi_ix0 _ _ e
  obtain ⟨e, h5⟩ := andi_ix0 _ _ e
  obtain ⟨e, h4⟩ := andi_ix0 _ _ e
  obtain ⟨e, h3⟩ := andi_ix0 _ _ e
  obtain ⟨h0, h2⟩ := andi_ix0 _ _ e
  exact ⟨all_real a0 _ _ _ h0, all_real a2 _ _ _ h2, all_real a3 _ _ _ h3, all_real a4 _ _ _ h4,
    all_real a5 _ _ _ h5, all_real a6 _ _ _ h6, all_real a7 _ _ _ h7⟩

end Cert.Finite

end
-- ==== Proof.KRun.lean ====
/-
  The idealized kernel's run with its result named.

  The program is three tiled regions among stretches of host operations.  The buffer contents at each boundary are a
  fold from the launch memory: a stretch applies its operations, a region leaves each of its arrays at what its grid
  points wrote back.  Every weakly fair execution ends with every buffer at the last boundary's contents; read at the
  result's buffer this names the result, read at an argument it is the argument as launched.
-/
import proofs.«133357_j60670708023801_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result's buffer at the last boundary's contents and the
    argument arrays as launched. -/
theorem run_value : θ_run defs (onTc (τ := τ) (main (F := F))) ⟨m, fun _ => 0, ρ⟩ (fun r => ∀ c : Dev nD,
      r.2.mem ((c.tc : Thread nD τ).loc main_v40) = W11 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v40 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.KRun

end
-- ==== Proof.RefIdx.lean ====
/-
  The index words of the plain program's 2100000 edges: the 2000000 edges of the edge array followed by one self loop
  per node.

  Position `k` of the concatenated source (target) column holds the source (target) word of edge `k` when
  `k < 2000000`, and the word `k - 2000000` (the node's own number) from there on.  A table lookup wraps a negative
  word first; the accumulating scatters read the target column as it is.
-/
import proofs.«133357_j60670708023801_2_alg».proof.Proof.RefReadP
import proofs.«133357_j60670708023801_2_alg».proof.Proof.Graph
import Idealize.ShloMosaic.Lib.Pipeline.Value

noncomputable section

namespace Cert.RefSide

open Cert.ReferenceIdeal Cert.ReferenceIdeal.Gen Cert.ReferenceIdeal.ReadP Idealize.ShloMosaic Idealize.ShloMosaic.ValueIdx Cert.Gcn
open scoped BigOperators

/-- The number of concatenated edges. -/
abbrev CC : ℕ := 2100000

/-- The concatenated column over a column `w` of edge words: `w` first, then the nodes' own numbers. -/
def catW (w : Fin EE → BitVec 32) (k : Fin CC) : BitVec 32 :=
  if h : k.val < 2000000 then w ⟨k.val, h⟩ else BitVec.ofNat 32 (k.val - 2000000)

theorem catW_edge (w : Fin EE → BitVec 32) (k : Fin EE) (h : k.val < CC) : catW w ⟨k.val, h⟩ = w k := by
  unfold catW
  rw [dif_pos (show (⟨k.val, h⟩ : Fin CC).val < 2000000 from k.isLt)]

theorem catW_loop (w : Fin EE → BitVec 32) (i : Fin NN) (h : 2000000 + i.val < CC) :
    catW w ⟨2000000 + i.val, h⟩ = BitVec.ofNat 32 i.val := by
  unfold catW
  rw [dif_neg (show ¬ (⟨2000000 + i.val, h⟩ : Fin CC).val < 2000000 from by show ¬ 2000000 + i.val < 2000000; omega)]
  show BitVec.ofNat 32 (2000000 + i.val - 2000000) = _
  rw [Nat.add_sub_cancel_left]

/-- A two-piece concatenation along the one axis of a vector, read at a position. -/
theorem cat_apply (a : S2000000.Idx → BitVec 32) (b : S100000.Idx → BitVec 32) (k : Fin CC) :
    concatenate S2100000 0 [⟨S2000000, a⟩, ⟨S100000, b⟩] concatenates_S2000000_S100000_S2100000_d0 (ix1 k)
      = if h : k.val < 2000000 then a (ix1 ⟨k.val, h⟩) else b (ix1 ⟨k.val - 2000000, by have hk : k.val < 2100000 := k.isLt; show k.val - 2000000 < 100000; omega⟩) := by
  by_cases h : k.val < 2000000
  · rw [dif_pos h]
    exact concatenate_pair_apply_left 0 a b concatenates_S2000000_S100000_S2100000_d0 (ix1 k) rfl (ix1 ⟨k.val, h⟩)
      (fun b => by match b with | ⟨0, _⟩ => rfl)
  · rw [dif_neg h]
    exact concatenate_pair_apply_right 0 a b concatenates_S2000000_S100000_S2100000_d0 (ix1 k) rfl rfl
      (ix1 ⟨k.val - 2000000, by have hk : k.val < 2100000 := k.isLt; show k.val - 2000000 < 100000; omega⟩)
      (fun b hb => by match b with | ⟨0, _⟩ => exact absurd rfl hb)
      (by show k.val - 2000000 + 2000000 = k.val; omega)

/-- The concatenated source column. -/
theorem val_main_v3_at (ei : S2x2000000.Idx → BitVec 32) (k : Fin CC) :
    val_main_v3 (F := Ideal) ei (ix1 k) = catW (srcW ei) k := by
  unfold val_main_v3
  rw [cat_apply]
  unfold catW
  by_cases h : k.val < 2000000
  · rw [dif_pos h, dif_pos h, val_main_v2_apply, val_main_v1_apply]
    unfold srcW
    congr 1
    funext a
    match a with
    | ⟨0, _⟩ => rfl
    | ⟨1, _⟩ => exact Fin.ext (Nat.mod_eq_of_lt h)
  · rw [dif_neg h, dif_neg h, val_main_v0_apply]

/-- The concatenated target column. -/
theorem val_main_v6_at (ei : S2x2000000.Idx → BitVec 32) (k : Fin CC) :
    val_main_v6 (F := Ideal) ei (ix1 k) = catW (dstW ei) k := by
  unfold val_main_v6
  rw [cat_apply]
  unfold catW
  by_cases h : k.val < 2000000
  · rw [dif_pos h, dif_pos h, val_main_v5_apply, val_main_v4_apply]
    unfold dstW
    congr 1
    funext a
    match a with
    | ⟨0, _⟩ => rfl
    | ⟨1, _⟩ => exact Fin.ext (Nat.mod_eq_of_lt h)
  · rw [dif_neg h, dif_neg h, val_main_v0_apply]

/-- The one column of an index array `[2100000, 1]` broadcast from a vector reads the vector. -/
theorem col_idx (k : Fin CC) : idx_main_v9 (ix2 k (0 : Fin 1)) = ix1 k := by
  funext a
  match a with
  | ⟨0, _⟩ => rfl

/-- The scatters' index column: the target words as they are. -/
theorem val_main_v9_at (ei : S2x2000000.Idx → BitVec 32) (k : Fin CC) :
    val_main_v9 (F := Ideal) ei (ix2 k (0 : Fin 1)) = catW (dstW ei) k := by
  rw [val_main_v9_apply, col_idx, val_main_v6_at]

theorem val_main_v44_at (ei : S2x2000000.Idx → BitVec 32) (k : Fin CC) :
    val_main_v44 (F := Ideal) ei (ix2 k (0 : Fin 1)) = catW (dstW ei) k := by
  rw [val_main_v44_apply, show idx_main_v44 (ix2 k (0 : Fin 1)) = ix1 k from col_idx k, val_main_v6_at]

theorem val_main_v62_at (ei : S2x2000000.Idx → BitVec 32) (k : Fin CC) :
    val_main_v62 (F := Ideal) ei (ix2 k (0 : Fin 1)) = catW (dstW ei) k := by
  rw [val_main_v62_apply, show idx_main_v62 (ix2 k (0 : Fin 1)) = ix1 k from col_idx k, val_main_v6_at]

/-- The lookups' index columns: the words wrapped. -/
theorem val_main_v22_at (ei : S2x2000000.Idx → BitVec 32) (k : Fin CC) :
    val_main_v22 (F := Ideal) ei (ix2 k (0 : Fin 1)) = wrapW (catW (srcW ei) k) := by
  rw [val_main_v22_apply, show idx_main_v22 (ix2 k (0 : Fin 1)) = ix1 k from col_idx k, val_main_v21_apply,
    val_main_v18_apply, val_main_v20_apply, val_main_v17_apply, val_main_v19_apply, val_main_v3_at]
  rfl

theorem val_main_v29_at (ei : S2x2000000.Idx → BitVec 32) (k : Fin CC) :
    val_main_v29 (F := Ideal) ei (ix2 k (0 : Fin 1)) = wrapW (catW (dstW ei) k) := by
  rw [val_main_v29_apply, show idx_main_v29 (ix2 k (0 : Fin 1)) = ix1 k from col_idx k, val_main_v28_apply,
    val_main_v25_apply, val_main_v27_apply, val_main_v24_apply, val_main_v26_apply, val_main_v6_at]
  rfl

theorem val_main_v38_at (ei : S2x2000000.Idx → BitVec 32) (k : Fin CC) :
    val_main_v38 (F := Ideal) ei (ix2 k (0 : Fin 1)) = wrapW (catW (srcW ei) k) := by
  rw [val_main_v38_apply, show idx_main_v38 (ix2 k (0 : Fin 1)) = ix1 k from col_idx k, val_main_v37_apply,
    val_main_v34_apply, val_main_v36_apply, val_main_v33_apply, val_main_v35_apply, val_main_v3_at]
  rfl

theorem val_main_v56_at (ei : S2x2000000.Idx → BitVec 32) (k : Fin CC) :
    val_main_v56 (F := Ideal) ei (ix2 k (0 : Fin 1)) = wrapW (catW (srcW ei) k) := by
  rw [val_main_v56_apply, show idx_main_v56 (ix2 k (0 : Fin 1)) = ix1 k from col_idx k, val_main_v55_apply,
    val_main_v52_apply, val_main_v54_apply, val_main_v51_apply, val_main_v53_apply, val_main_v3_at]
  rfl

/-- The row a lookup reads for the source of concatenated edge `k`. -/
def srcRow (ei : S2x2000000.Idx → BitVec 32) (k : Fin CC) : Fin NN := gRow (wrapW (catW (srcW ei) k))
/-- The row a lookup reads for the target of concatenated edge `k`. -/
def dstRow (ei : S2x2000000.Idx → BitVec 32) (k : Fin CC) : Fin NN := gRow (wrapW (catW (dstW ei) k))

theorem srcRow_edge (ei : S2x2000000.Idx → BitVec 32) (k : Fin EE) (h : k.val < CC) :
    srcRow ei ⟨k.val, h⟩ = rowW ei k := by
  unfold srcRow rowW
  rw [catW_edge]

theorem dstRow_edge (ei : S2x2000000.Idx → BitVec 32) (k : Fin EE) (h : k.val < CC) :
    dstRow ei ⟨k.val, h⟩ = drowW ei k := by
  unfold dstRow drowW
  rw [catW_edge]

theorem srcRow_loop (ei : S2x2000000.Idx → BitVec 32) (i : Fin NN) (h : 2000000 + i.val < CC) :
    srcRow ei ⟨2000000 + i.val, h⟩ = i := by
  unfold srcRow
  rw [catW_loop]
  exact gRow_wrapW_of_toInt _ i (toInt_ofNat_node i)

theorem dstRow_loop (ei : S2x2000000.Idx → BitVec 32) (i : Fin NN) (h : 2000000 + i.val < CC) :
    dstRow ei ⟨2000000 + i.val, h⟩ = i := by
  unfold dstRow
  rw [catW_loop]
  exact gRow_wrapW_of_toInt _ i (toInt_ofNat_node i)

end Cert.RefSide

end
-- ==== Proof.LibGraphOps.lean ====
/-
  Table lookups and accumulating scatters along one index column, read at an index.

  `E` index words sit in a column `idx : [E, 1]`.
  * A lookup of rows of a table `[N, C]` (or of entries of a vector `[N]`) at those words returns, at `(e, c)`, the
    table's row `min (idx[e,0] read signed, negatives to 0) (N - 1)`, column `c`.
  * An accumulating scatter of updates `[E, C]` (or `[E]`) into `[N, C]` (or `[N]`) adds, at `(n, c)`, the updates
    `(k, c)` of exactly those `k` whose word reads `n` signed; over the extended reals the result is the operand's
    element plus that sum, written here as a sum over all `k` of "the update if the word reads `n`, else zero".
  Stated for every `N`, `E` and `C`.
-/
import Idealize.ShloMosaic.PureOps.Ideal
import Idealize.ShloMosaic.PureOps.Contract
import Idealize.ShloMosaic.Lib.ValueIdx

noncomputable section

namespace Cert.Bridge.GraphOps

open Idealize.ShloMosaic Idealize.ShloMosaic.ValueIdx
open scoped BigOperators

variable {N E C : ℕ}

/-- The vector scatter's dimension numbers: no window axis, the one operand axis inserted and indexed. -/
abbrev scatFlat (wf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, wf⟩

/-- The row scatter's dimension numbers: the column axis a window axis, the row axis inserted and indexed. -/
abbrev scatRows (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

/-- The vector lookup's dimension numbers. -/
abbrev gathFlat (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ := ⟨[], [0], [], [], [0], 1, ![1], wf⟩

/-- The row lookup's dimension numbers: whole rows of width `C`. -/
abbrev gathRows (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ := ⟨[1], [0], [], [], [0], 1, ![1, C], wf⟩

/-! ## A rank-1 index is its one coordinate -/

/-- A rank-1 index is its coordinate. -/
def idxEquiv1 {n : ℕ} : (⟨1, ![n]⟩ : Shape).Idx ≃ Fin n where
  toFun j := j 0
  invFun e := ix1 e
  left_inv j := (eq_ix1 j).symm
  right_inv _ := rfl

/-- … so a sum over rank-1 indices is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## Where an update starts and which window coordinate it carries -/

theorem scatFlat_start (wf) {w : ℕ} (e : Fin E) (idx : IVec ⟨2, ![E, 1]⟩ w) (a : Fin 1) :
    (scatFlat (N := N) (E := E) wf).start (ix1 e) idx a = (idx (ix2 e (0 : Fin 1))).toInt := by
  match a with
  | ⟨0, h0⟩ =>
    unfold ScatterDims.start
    rw [dif_pos (show (⟨0, h0⟩ : Fin 1) ∈ (scatFlat (N := N) (E := E) wf).scatterDimsToOperandDims from
      List.mem_singleton.2 rfl)]
    refine congrArg (fun k => (idx k).toInt) (funext fun b => ?_)
    match b with
    | ⟨0, _⟩ => exact Fin.ext rfl
    | ⟨1, _⟩ => exact Fin.ext rfl

theorem scatFlat_window (wf) (e : Fin E) (a : Fin 1) :
    (scatFlat (N := N) (E := E) wf).window (ix1 e) a = 0 := by
  match a with
  | ⟨0, _⟩ => rfl

theorem scatRows_start_0 (wf) {w : ℕ} (e : Fin E) (z : Fin C) (idx : IVec ⟨2, ![E, 1]⟩ w) :
    (scatRows (N := N) (E := E) (C := C) wf).start (ix2 e z) idx (0 : Fin 2) = (idx (ix2 e (0 : Fin 1))).toInt := by
  unfold ScatterDims.start
  rw [dif_pos (show (0 : Fin 2) ∈ (scatRows (N := N) (E := E) (C := C) wf).scatterDimsToOperandDims from
    List.mem_singleton.2 rfl)]
  refine congrArg (fun k => (idx k).toInt) (funext fun b => ?_)
  match b with
  | ⟨0, _⟩ => exact Fin.ext rfl
  | ⟨1, _⟩ => exact Fin.ext rfl

theorem scatRows_start_1 (wf) {w : ℕ} (e : Fin E) (z : Fin C) (idx : IVec ⟨2, ![E, 1]⟩ w) :
    (scatRows (N := N) (E := E) (C := C) wf).start (ix2 e z) idx (1 : Fin 2) = 0 := by
  unfold ScatterDims.start
  rw [dif_neg (show ¬ (1 : Fin 2) ∈ (scatRows (N := N) (E := E) (C := C) wf).scatterDimsToOperandDims from by
    intro h; exact Nat.one_ne_zero (congrArg Fin.val (List.mem_singleton.1 h)))]

theorem scatRows_window_0 (wf) (e : Fin E) (z : Fin C) :
    (scatRows (N := N) (E := E) (C := C) wf).window (ix2 e z) (0 : Fin 2) = 0 := rfl
theorem scatRows_window_1 (wf) (e : Fin E) (z : Fin C) :
    (scatRows (N := N) (E := E) (C := C) wf).window (ix2 e z) (1 : Fin 2) = z.val := rfl

/-! ## Where an update lands -/

/-- The vector scatter lands update `e` on place `n` exactly when its index word reads `n`. -/
theorem scatFlat_lands (wf) {w : ℕ} (e : Fin E) (idx : IVec ⟨2, ![E, 1]⟩ w) (n : Fin N) :
    (scatFlat (N := N) (E := E) wf).resultIdx? (ix1 e) idx = some (ix1 n)
      ↔ (idx (ix2 e (0 : Fin 1))).toInt = (n.val : ℤ) := by
  unfold ScatterDims.resultIdx?
  constructor
  · intro h
    split at h
    · have hv := congrArg Fin.val (congrFun (Option.some.inj h) (0 : Fin 1))
      have hv' : ((scatFlat (N := N) (E := E) wf).start (ix1 e) idx 0
          + ((scatFlat (N := N) (E := E) wf).window (ix1 e) 0 : ℤ)).toNat = n.val := hv
      rename_i hc
      have h0 := (hc (0 : Fin 1)).1
      rw [scatFlat_start, scatFlat_window] at hv' h0
      omega
    · exact absurd h (by simp)
  · intro h
    have hc : ∀ a, 0 ≤ (scatFlat (N := N) (E := E) wf).start (ix1 e) idx a
          + ((scatFlat (N := N) (E := E) wf).window (ix1 e) a : ℤ) ∧
        (scatFlat (N := N) (E := E) wf).start (ix1 e) idx a
          + ((scatFlat (N := N) (E := E) wf).window (ix1 e) a : ℤ) < ((⟨1, ![N]⟩ : Shape).size a : ℤ) := by
      intro a
      rw [scatFlat_start, scatFlat_window, h]
      match a with
      | ⟨0, _⟩ =>
        have := n.isLt
        show (0 : ℤ) ≤ (n.val : ℤ) + ((0 : ℕ) : ℤ) ∧ (n.val : ℤ) + ((0 : ℕ) : ℤ) < (N : ℤ)
        omega
    rw [dif_pos hc]
    refine congrArg some (funext fun a => Fin.ext ?_)
    match a with
    | ⟨0, _⟩ =>
      show ((scatFlat (N := N) (E := E) wf).start (ix1 e) idx 0
        + ((scatFlat (N := N) (E := E) wf).window (ix1 e) 0 : ℤ)).toNat = n.val
      rw [scatFlat_start, scatFlat_window, h]
      omega

/-- The row scatter lands update `(e, z)` on place `(n, c)` exactly when the index word reads `n` and `z = c`. -/
theorem scatRows_lands (wf) {w : ℕ} (e : Fin E) (z : Fin C) (idx : IVec ⟨2, ![E, 1]⟩ w) (n : Fin N) (c : Fin C) :
    (scatRows (N := N) (E := E) (C := C) wf).resultIdx? (ix2 e z) idx = some (ix2 n c)
      ↔ (idx (ix2 e (0 : Fin 1))).toInt = (n.val : ℤ) ∧ z = c := by
  unfold ScatterDims.resultIdx?
  constructor
  · intro h
    split at h
    · have hv0 := congrArg Fin.val (congrFun (Option.some.inj h) (0 : Fin 2))
      have hv1 := congrArg Fin.val (congrFun (Option.some.inj h) (1 : Fin 2))
      have hv0' : ((scatRows (N := N) (E := E) (C := C) wf).start (ix2 e z) idx 0
          + ((scatRows (N := N) (E := E) (C := C) wf).window (ix2 e z) 0 : ℤ)).toNat = n.val := hv0
      have hv1' : ((scatRows (N := N) (E := E) (C := C) wf).start (ix2 e z) idx 1
          + ((scatRows (N := N) (E := E) (C := C) wf).window (ix2 e z) 1 : ℤ)).toNat = c.val := hv1
      rename_i hc
      have h0 := (hc (0 : Fin 2)).1
      rw [scatRows_start_0, scatRows_window_0] at hv0' h0
      rw [scatRows_start_1, scatRows_window_1] at hv1'
      refine ⟨by omega, Fin.ext (by omega)⟩
    · exact absurd h (by simp)
  · rintro ⟨h, rfl⟩
    have hc : ∀ a, 0 ≤ (scatRows (N := N) (E := E) (C := C) wf).start (ix2 e z) idx a
          + ((scatRows (N := N) (E := E) (C := C) wf).window (ix2 e z) a : ℤ) ∧
        (scatRows (N := N) (E := E) (C := C) wf).start (ix2 e z) idx a
          + ((scatRows (N := N) (E := E) (C := C) wf).window (ix2 e z) a : ℤ)
          < ((⟨2, ![N, C]⟩ : Shape).size a : ℤ) := by
      intro a
      match a with
      | ⟨0, _⟩ =>
        show 0 ≤ (scatRows (N := N) (E := E) (C := C) wf).start (ix2 e z) idx 0
            + ((scatRows (N := N) (E := E) (C := C) wf).window (ix2 e z) 0 : ℤ) ∧
          (scatRows (N := N) (E := E) (C := C) wf).start (ix2 e z) idx 0
            + ((scatRows (N := N) (E := E) (C := C) wf).window (ix2 e z) 0 : ℤ) < (N : ℤ)
        rw [scatRows_start_0, scatRows_window_0, h]
        have := n.isLt
        omega
      | ⟨1, _⟩ =>
        show 0 ≤ (scatRows (N := N) (E := E) (C := C) wf).start (ix2 e z) idx 1
            + ((scatRows (N := N) (E := E) (C := C) wf).window (ix2 e z) 1 : ℤ) ∧
          (scatRows (N := N) (E := E) (C := C) wf).start (ix2 e z) idx 1
            + ((scatRows (N := N) (E := E) (C := C) wf).window (ix2 e z) 1 : ℤ) < (C : ℤ)
        rw [scatRows_start_1, scatRows_window_1]
        have := z.isLt
        omega
    rw [dif_pos hc]
    refine congrArg some (funext fun a => Fin.ext ?_)
    match a with
    | ⟨0, _⟩ =>
      show ((scatRows (N := N) (E := E) (C := C) wf).start (ix2 e z) idx 0
        + ((scatRows (N := N) (E := E) (C := C) wf).window (ix2 e z) 0 : ℤ)).toNat = n.val
      rw [scatRows_start_0, scatRows_window_0, h]
      omega
    | ⟨1, _⟩ =>
      show ((scatRows (N := N) (E := E) (C := C) wf).start (ix2 e z) idx 1
        + ((scatRows (N := N) (E := E) (C := C) wf).window (ix2 e z) 1 : ℤ)).toNat = z.val
      rw [scatRows_start_1, scatRows_window_1]
      omega

/-! ## The scatters read at an index -/

/-- The vector scatter at `n`: the operand's entry plus the updates of the words that read `n`. -/
theorem scatterAdd_flat_apply (wf) {w : ℕ} (x : (⟨1, ![N]⟩ : Shape).Idx → EReal) (idx : IVec ⟨2, ![E, 1]⟩ w)
    (upd : (⟨1, ![E]⟩ : Shape).Idx → EReal) (n : Fin N) :
    Ideal.hostScatterAdd (scatFlat (N := N) (E := E) wf) x idx upd (ix1 n)
      = x (ix1 n) + ∑ k : Fin E, if (idx (ix2 k (0 : Fin 1))).toInt = (n.val : ℤ) then upd (ix1 k) else 0 := by
  unfold Ideal.hostScatterAdd
  rw [Finset.sum_filter, sum_idx1]
  refine congrArg (x (ix1 n) + ·) (Finset.sum_congr rfl fun k _ => ?_)
  exact if_congr (scatFlat_lands wf k idx n) rfl rfl

/-- The row scatter at `(n, c)`: the operand's entry plus the updates `(k, c)` of the words that read `n`. -/
theorem scatterAdd_rows_apply (wf) {w : ℕ} (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (scatRows (N := N) (E := E) (C := C) wf) x idx upd (ix2 n c)
      = x (ix2 n c) + ∑ k : Fin E, if (idx (ix2 k (0 : Fin 1))).toInt = (n.val : ℤ) then upd (ix2 k c) else 0 := by
  unfold Ideal.hostScatterAdd
  rw [Finset.sum_filter, sum_idx2]
  refine congrArg (x (ix2 n c) + ·) (Finset.sum_congr rfl fun k _ => ?_)
  by_cases hk : (idx (ix2 k (0 : Fin 1))).toInt = (n.val : ℤ)
  · rw [if_pos hk]
    have : ∀ z : Fin C, (if (scatRows (N := N) (E := E) (C := C) wf).resultIdx? (ix2 k z) idx = some (ix2 n c)
        then upd (ix2 k z) else 0) = if z = c then upd (ix2 k z) else 0 := fun z =>
      if_congr ((scatRows_lands wf k z idx n c).trans (and_iff_right hk)) rfl rfl
    rw [Finset.sum_congr rfl fun z _ => this z, Finset.sum_ite_eq' Finset.univ c, if_pos (Finset.mem_univ c)]
  · rw [if_neg hk]
    refine Finset.sum_eq_zero fun z _ => ?_
    exact if_neg fun h => hk ((scatRows_lands wf k z idx n c).1 h).1

/-! ## The lookups read at an index -/

/-- The vector lookup at `e`: the entry at the word read signed and clamped into `0 … N-1`. -/
theorem gather_flat_apply {α : Type} (hN : 0 < N) (wf) {w : ℕ} (x : (⟨1, ![N]⟩ : Shape).Idx → α)
    (idx : IVec ⟨2, ![E, 1]⟩ w) (e : Fin E) :
    Host.gather (gathFlat (N := N) (E := E) wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gathFlat (N := N) (E := E) wf).start (ix1 e) idx 0 + (gathFlat (N := N) (E := E) wf).batchCoord (ix1 e) 0
    + (gathFlat (N := N) (E := E) wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat (N := N) (E := E) wf).startIndexMap from List.mem_singleton.mpr rfl)]
  have hsi : (gathFlat (N := N) (E := E) wf).siIdx (ix1 e)
      ⟨List.idxOf (0 : Fin 1) (gathFlat (N := N) (E := E) wf).startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The row lookup at `(e, c)`: column `c` of the row at the word read signed and clamped into `0 … N-1`. -/
theorem gather_rows_apply {α : Type} (hN : 0 < N) (wf) {w : ℕ} (x : (⟨2, ![N, C]⟩ : Shape).Idx → α)
    (idx : IVec ⟨2, ![E, 1]⟩ w) (e : Fin E) (c : Fin C) :
    Host.gather (gathRows (N := N) (E := E) (C := C) wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (gathRows (N := N) (E := E) (C := C) wf).start (ix2 e c) idx 0
      + (gathRows (N := N) (E := E) (C := C) wf).batchCoord (ix2 e c) 0
      + (gathRows (N := N) (E := E) (C := C) wf).offCoord (ix2 e c) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows (N := N) (E := E) (C := C) wf).startIndexMap from
      List.mem_singleton.mpr rfl)]
    have hsi : (gathRows (N := N) (E := E) (C := C) wf).siIdx (ix2 e c)
        ⟨List.idxOf (0 : Fin 2) (gathRows (N := N) (E := E) (C := C) wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gathRows (N := N) (E := E) (C := C) wf).start (ix2 e c) idx 1
      + (gathRows (N := N) (E := E) (C := C) wf).batchCoord (ix2 e c) 1
      + (gathRows (N := N) (E := E) (C := C) wf).offCoord (ix2 e c) 1 = c.val
    rw [GatherDims.batchCoord_eq_zero _ _ _ List.not_mem_nil]
    have hs : (gathRows (N := N) (E := E) (C := C) wf).start (ix2 e c) idx 1 = 0 := by
      unfold GatherDims.start
      rw [dif_neg (show ¬ (1 : Fin 2) ∈ (gathRows (N := N) (E := E) (C := C) wf).startIndexMap from by
        intro h; exact Nat.one_ne_zero (congrArg Fin.val (List.mem_singleton.1 h)))]
    have ho : (gathRows (N := N) (E := E) (C := C) wf).offCoord (ix2 e c) 1 = c.val := rfl
    rw [hs, ho]
    omega

/-- A finite sum of reals, seen in the extended reals, is the sum of the terms seen there. -/
theorem coe_sum {ι : Type} (s : Finset ι) (f : ι → ℝ) : ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

end Cert.Bridge.GraphOps

end
-- ==== Proof.RefOps.lean ====
/-
  The plain program's two lookups and two accumulating scatters, at their literal shapes, read at an index.

  A lookup along the index column returns the table's entry (row) at the word read signed and clamped, `gRow` of
  the word.  An accumulating scatter into zeros returns the sum of the updates whose word reads the entry's number.
-/
import proofs.«133357_j60670708023801_2_alg».proof.Proof.RefIdx
import proofs.«133357_j60670708023801_2_alg».proof.Proof.LibGraphOps

noncomputable section

namespace Cert.RefSide

open Cert.ReferenceIdeal Cert.ReferenceIdeal.Gen Cert.ReferenceIdeal.ReadP Idealize.ShloMosaic Idealize.ShloMosaic.ValueIdx Cert.Gcn
open scoped BigOperators

open Cert.Bridge.GraphOps

/-- The vector lookup at concatenated edge `k`, given the word its index column holds there. -/
theorem gathFlat_at (x : S100000.Idx → EReal) (idx : S2100000x1.Idx → BitVec 32) (k : Fin CC) (v : BitVec 32)
    (h : idx (ix2 k (0 : Fin 1)) = v) :
    Host.gather gather_S100000_S2100000x1_S2100000_n_0_n_n_0_1_1 x idx (ix1 k) = x (ix1 (gRow v)) := by
  show Host.gather (gathFlat (N := 100000) (E := 2100000) Facts₀.gather_S100000_S2100000x1_S2100000_n_0_n_n_0_1_1_wf)
    x idx (ix1 k) = _
  rw [gather_flat_apply (by decide)]
  subst h
  rfl

/-- The row lookup at concatenated edge `k`, column `c`, given the word its index column holds there. -/
theorem gathRows_at (x : S100000x32.Idx → EReal) (idx : S2100000x1.Idx → BitVec 32) (k : Fin CC) (c : Fin 32)
    (v : BitVec 32) (h : idx (ix2 k (0 : Fin 1)) = v) :
    Host.gather gather_S100000x32_S2100000x1_S2100000x32_1_0_n_n_0_1_132 x idx (ix2 k c) = x (ix2 (gRow v) c) := by
  show Host.gather (gathRows (N := 100000) (E := 2100000) (C := 32)
    Facts₀.gather_S100000x32_S2100000x1_S2100000x32_1_0_n_n_0_1_132_wf) x idx (ix2 k c) = _
  rw [gather_rows_apply (by decide)]
  subst h
  rfl

/-- The vector scatter at node `n`. -/
theorem scatFlat_at (x : S100000.Idx → EReal) (idx : S2100000x1.Idx → BitVec 32) (upd : S2100000.Idx → EReal)
    (n : Fin NN) :
    Host.scatterAdd (F := Ideal) (φ := .f32) scatter_S100000_S2100000x1_S2100000_n_0_0_1 x idx upd (ix1 n)
      = x (ix1 n) + ∑ k : Fin CC, if (idx (ix2 k (0 : Fin 1))).toInt = (n.val : ℤ) then upd (ix1 k) else 0 := by
  show Ideal.hostScatterAdd (scatFlat (N := 100000) (E := 2100000) Facts₀.scatter_S100000_S2100000x1_S2100000_n_0_0_1_wf)
    x idx upd (ix1 n) = _
  rw [scatterAdd_flat_apply]

/-- The row scatter at node `n`, column `c`. -/
theorem scatRows_at (x : S100000x32.Idx → EReal) (idx : S2100000x1.Idx → BitVec 32) (upd : S2100000x32.Idx → EReal)
    (n : Fin NN) (c : Fin 32) :
    Host.scatterAdd (F := Ideal) (φ := .f32) scatter_S100000x32_S2100000x1_S2100000x32_1_0_0_1 x idx upd (ix2 n c)
      = x (ix2 n c) + ∑ k : Fin CC, if (idx (ix2 k (0 : Fin 1))).toInt = (n.val : ℤ) then upd (ix2 k c) else 0 := by
  show Ideal.hostScatterAdd (scatRows (N := 100000) (E := 2100000) (C := 32)
    Facts₀.scatter_S100000x32_S2100000x1_S2100000x32_1_0_0_1_wf) x idx upd (ix2 n c) = _
  rw [scatterAdd_rows_apply]

end Cert.RefSide

end
-- ==== Proof.RefSum.lean ====
/-
  Sums over the plain program's 2100000 concatenated edges.

  Such a sum is the sum over the 2000000 edges of the edge array plus the sum over the 100000 self loops.  When the
  summand is switched on by "the target word reads `n`", the first part keeps the edges that deliver to `n` and the
  second part is the single self loop of `n`, since the self loop of node `i` carries the word `i`.
-/
import proofs.«133357_j60670708023801_2_alg».proof.Proof.RefIdx
import proofs.«133357_j60670708023801_2_alg».proof.Proof.LibGraphOps
import Mathlib.Algebra.BigOperators.Fin

noncomputable section

namespace Cert.RefSide

open Cert.ReferenceIdeal Cert.ReferenceIdeal.Gen Cert.ReferenceIdeal.ReadP Idealize.ShloMosaic Idealize.ShloMosaic.ValueIdx Cert.Gcn
open scoped BigOperators

/-- A sum over the concatenated edges: the edges first, then the self loops. -/
theorem sum_cat {M : Type} [AddCommMonoid M] (f : Fin CC → M) :
    ∑ k : Fin CC, f k
      = (∑ k : Fin EE, f ⟨k.val, by have h : k.val < 2000000 := k.isLt; show k.val < 2100000; omega⟩)
        + ∑ i : Fin NN, f ⟨2000000 + i.val, by have h : i.val < 100000 := i.isLt; show 2000000 + i.val < 2100000; omega⟩ :=
  Fin.sum_univ_add (a := 2000000) (b := 100000) f

/-- The sum of the summands whose target word reads `n`: the edges delivering to `n`, and the self loop of `n`. -/
theorem sum_cat_hit (ei : S2x2000000.Idx → BitVec 32) (n : Fin NN) (f : Fin CC → EReal) :
    (∑ k : Fin CC, if (catW (dstW ei) k).toInt = (n.val : ℤ) then f k else 0)
      = (∑ k : Fin EE, if hitW ei k n then
            f ⟨k.val, by have h : k.val < 2000000 := k.isLt; show k.val < 2100000; omega⟩ else 0)
        + f ⟨2000000 + n.val, by have h : n.val < 100000 := n.isLt; show 2000000 + n.val < 2100000; omega⟩ := by
  rw [sum_cat]
  refine congrArg₂ (· + ·) ?_ ?_
  · refine Finset.sum_congr rfl fun k _ => ?_
    rw [catW_edge]
    by_cases h : hitW ei k n
    · rw [if_pos h, if_pos (show (dstW ei k).toInt = (n.val : ℤ) from h)]
    · rw [if_neg h, if_neg (show ¬ (dstW ei k).toInt = (n.val : ℤ) from h)]
  · have hterm : ∀ i : Fin NN,
        (if (catW (dstW ei) ⟨2000000 + i.val, by have h : i.val < 100000 := i.isLt; show 2000000 + i.val < 2100000; omega⟩).toInt
            = (n.val : ℤ) then
          f ⟨2000000 + i.val, by have h : i.val < 100000 := i.isLt; show 2000000 + i.val < 2100000; omega⟩ else 0)
        = if i = n then
          f ⟨2000000 + i.val, by have h : i.val < 100000 := i.isLt; show 2000000 + i.val < 2100000; omega⟩ else 0 := by
      intro i
      rw [catW_loop, toInt_ofNat_node]
      by_cases h : i = n
      · rw [if_pos h, if_pos (by rw [h])]
      · rw [if_neg h, if_neg (fun e => h (Fin.ext (by exact_mod_cast e)))]
    rw [Finset.sum_congr rfl (fun i _ => hterm i), Finset.sum_ite_eq', if_pos (Finset.mem_univ n)]

/-- Counting with ones: the sum of a one per edge delivering to `n` is the number of such edges. -/
theorem sum_hit_one (ei : S2x2000000.Idx → BitVec 32) (n : Fin NN) :
    (∑ k : Fin EE, if hitW ei k n then (1 : EReal) else 0) = ((cnt (hitW ei) n : ℝ) : EReal) := by
  have hterm : ∀ k : Fin EE, (if hitW ei k n then (1 : EReal) else 0) = (((if hitW ei k n then (1 : ℝ) else 0) : ℝ) : EReal) := by
    intro k
    by_cases h : hitW ei k n
    · rw [if_pos h, if_pos h, EReal.coe_one]
    · rw [if_neg h, if_neg h, EReal.coe_zero]
  rw [Finset.sum_congr rfl (fun k _ => hterm k), ← Cert.Bridge.GraphOps.coe_sum, Finset.sum_boole]
  rfl

end Cert.RefSide

end
-- ==== Proof.RefConsts.lean ====
/-
  The three float constants the plain program spells, as the extended reals their bit patterns denote:
  zero, one, and the small positive floor (about 1e-12) under the reciprocal square root.
-/
import Idealize.ShloMosaic.PureOps.Ideal

noncomputable section

namespace Cert.RefSide

open Idealize.ShloMosaic

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- The floor under the reciprocal square root: `9223372 · 2⁻⁶³`, about `1e-12`. -/
def eps : ℝ := (9223372 : ℝ) * (2 : ℝ) ^ (-63 : Int)

theorem ofBits_eps : Ideal.ofBits .f32 0x2B8CBCCC#32 = ((eps : ℝ) : EReal) := by
  unfold eps
  simp [Ideal.ofBits, Ideal.ieee, -EReal.coe_mul]

theorem eps_pos : 0 < eps := by
  unfold eps
  positivity

theorem eps_le_one : eps ≤ 1 := by
  unfold eps
  norm_num

end Cert.RefSide

end
-- ==== Proof.RefDeg.lean ====
/-
  The plain program's degree vector and normalisation factors.

  The degree of node `n` is the accumulated count of ones over the concatenated edges whose target word reads `n`:
  the number of edges delivering to `n`, plus one for the self loop.  It is at least one, so the comparison with zero
  holds, the floor under the reciprocal square root is inactive, and the factor is one over the square root of the
  degree.  The edge weight is the product of the factors looked up at the edge's two ends.
-/
import proofs.«133357_j60670708023801_2_alg».proof.Proof.RefOps
import proofs.«133357_j60670708023801_2_alg».proof.Proof.RefSum
import proofs.«133357_j60670708023801_2_alg».proof.Proof.RefConsts

noncomputable section

namespace Cert.RefSide

open Cert.ReferenceIdeal Cert.ReferenceIdeal.Gen Cert.ReferenceIdeal.ReadP Idealize.ShloMosaic Idealize.ShloMosaic.ValueIdx Cert.Gcn
open scoped BigOperators

/-- The degree of node `n`: its number of delivering edges plus one. -/
theorem val_main_v10_at (ei : S2x2000000.Idx → BitVec 32) (n : Fin NN) :
    val_main_v10 (F := Ideal) ei (ix1 n) = (((cnt (hitW ei) n : ℝ) + 1 : ℝ) : EReal) := by
  unfold val_main_v10
  rw [scatFlat_at]
  have h8 : val_main_v8 (F := Ideal) (ix1 n) = 0 := by
    rw [val_main_v8_apply, val_main_cst_0_apply]; exact ofBits_zero
  have hterm : ∀ k : Fin CC,
      (if (val_main_v9 (F := Ideal) ei (ix2 k (0 : Fin 1))).toInt = (n.val : ℤ) then val_main_v7 (F := Ideal) (ix1 k) else 0)
        = if (catW (dstW ei) k).toInt = (n.val : ℤ) then (fun _ : Fin CC => (1 : EReal)) k else 0 := by
    intro k
    rw [val_main_v9_at, val_main_v7_apply, val_main_cst_apply]
    show (if _ then Ideal.ofBits .f32 0x3F800000#32 else 0) = _
    rw [ofBits_one]
  rw [h8, zero_add, Finset.sum_congr rfl (fun k _ => hterm k), sum_cat_hit ei n (fun _ => 1), sum_hit_one,
    EReal.coe_add, EReal.coe_one]

/-- The normalisation factor of node `n`. -/
theorem val_main_v16_at (ei : S2x2000000.Idx → BitVec 32) (n : Fin NN) :
    val_main_v16 (F := Ideal) ei (ix1 n) = ((dis (hitW ei) n : ℝ) : EReal) := by
  rw [val_main_v16_apply, val_main_v12_apply, val_main_v15_apply, val_main_v14_apply, val_main_v10_at,
    val_main_v11_apply, val_main_cst_1_apply, val_main_v13_apply, val_main_cst_2_apply]
  rw [Ideal.cmpf_def, Ideal.hostUnary_rsqrt_def, Ideal.maximumf_def, Ideal.ofBits_def, Ideal.ofBits_def, ofBits_zero,
    ofBits_eps]
  have hpos : (0 : ℝ) < (cnt (hitW ei) n : ℝ) + 1 := by positivity
  have hge : eps ≤ (cnt (hitW ei) n : ℝ) + 1 :=
    le_trans eps_le_one (by have := Nat.cast_nonneg (α := ℝ) (cnt (hitW ei) n); linarith)
  have hcmp : Ideal.cmp .ogt ((((cnt (hitW ei) n : ℝ) + 1 : ℝ) : EReal)) 0 = 1#1 := by
    show BitVec.ofBool (decide ((0 : EReal) < (((cnt (hitW ei) n : ℝ) + 1 : ℝ) : EReal))) = 1#1
    rw [decide_eq_true (by exact_mod_cast hpos)]
    rfl
  rw [hcmp, select_one, max_eq_left (by exact_mod_cast hge), Ideal.rsqrt_coe, if_neg (not_lt.2 hpos.le),
    if_neg hpos.ne']
  rfl

/-- The factor looked up at the source of concatenated edge `k`. -/
theorem val_main_v23_at (ei : S2x2000000.Idx → BitVec 32) (k : Fin CC) :
    val_main_v23 (F := Ideal) ei (ix1 k) = ((dis (hitW ei) (srcRow ei k) : ℝ) : EReal) := by
  unfold val_main_v23
  rw [gathFlat_at _ _ k _ (val_main_v22_at ei k), val_main_v16_at]
  rfl

/-- The factor looked up at the target of concatenated edge `k`. -/
theorem val_main_v30_at (ei : S2x2000000.Idx → BitVec 32) (k : Fin CC) :
    val_main_v30 (F := Ideal) ei (ix1 k) = ((dis (hitW ei) (dstRow ei k) : ℝ) : EReal) := by
  unfold val_main_v30
  rw [gathFlat_at _ _ k _ (val_main_v29_at ei k), val_main_v16_at]
  rfl

/-- The weight of concatenated edge `k`: the product of the factors at its two ends. -/
theorem val_main_v31_at (ei : S2x2000000.Idx → BitVec 32) (k : Fin CC) :
    val_main_v31 (F := Ideal) ei (ix1 k)
      = ((dis (hitW ei) (srcRow ei k) * dis (hitW ei) (dstRow ei k) : ℝ) : EReal) := by
  rw [val_main_v31_apply, val_main_v23_at, val_main_v30_at]
  show ((_ : ℝ) : EReal) * ((_ : ℝ) : EReal) = _
  rw [← EReal.coe_mul]

end Cert.RefSide

end
-- ==== Proof.RefLayer.lean ====
/-
  One layer of the plain program, generic in its input table.

  The accumulating scatter adds, into zeros, the message of every concatenated edge whose target word reads `n`: the
  looked-up row of the edge's source times the edge weight.  Over the edges of the edge array these are the messages
  of the delivering edges; the self loop of `n` contributes the node's own row weighed by its factor squared.  With a
  real table and real factors every term is a real, so the sum, the added bias and the clamp at zero are reals too:
  the aggregated layer of the specification.
-/
import proofs.«133357_j60670708023801_2_alg».proof.Proof.RefDeg

noncomputable section

namespace Cert.RefSide

open Cert.ReferenceIdeal Cert.ReferenceIdeal.Gen Cert.ReferenceIdeal.ReadP Idealize.ShloMosaic Idealize.ShloMosaic.ValueIdx Cert.Gcn
open scoped BigOperators

open Cert.Bridge.GraphOps

/-- The larger of two reals, seen in the extended reals. -/
theorem coe_max (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- The weighted messages arriving at node `n`, column `c`, from a real table `l`: the delivering edges and the self loop. -/
def agg (ei : S2x2000000.Idx → BitVec 32) (l : Fin NN → Fin 32 → ℝ) (n : Fin NN) (c : Fin 32) : ℝ :=
  (∑ k : Fin EE, if hitW ei k n then
      l (rowW ei k) c * (dis (hitW ei) (rowW ei k) * dis (hitW ei) (drowW ei k)) else 0)
    + l n c * (dis (hitW ei) n * dis (hitW ei) n)

/-- The accumulating scatter of a layer, for any zero operand, any index column holding the target words and any
    update array holding the weighted source rows. -/
theorem agg_at (ei : S2x2000000.Idx → BitVec 32) (l : Fin NN → Fin 32 → ℝ)
    (zero : S100000x32.Idx → EReal) (hz : ∀ n c, zero (ix2 n c) = 0)
    (di : S2100000x1.Idx → BitVec 32) (hdi : ∀ k : Fin CC, di (ix2 k (0 : Fin 1)) = catW (dstW ei) k)
    (upd : S2100000x32.Idx → EReal)
    (hupd : ∀ (k : Fin CC) (c : Fin 32), upd (ix2 k c)
      = ((l (srcRow ei k) c * (dis (hitW ei) (srcRow ei k) * dis (hitW ei) (dstRow ei k)) : ℝ) : EReal))
    (n : Fin NN) (c : Fin 32) :
    Host.scatterAdd (F := Ideal) (φ := .f32) scatter_S100000x32_S2100000x1_S2100000x32_1_0_0_1 zero di upd (ix2 n c)
      = ((agg ei l n c : ℝ) : EReal) := by
  rw [scatRows_at, hz, zero_add]
  have hterm : ∀ k : Fin CC,
      (if (di (ix2 k (0 : Fin 1))).toInt = (n.val : ℤ) then upd (ix2 k c) else 0)
        = if (catW (dstW ei) k).toInt = (n.val : ℤ) then
            (fun k : Fin CC =>
              ((l (srcRow ei k) c * (dis (hitW ei) (srcRow ei k) * dis (hitW ei) (dstRow ei k)) : ℝ) : EReal)) k
          else 0 := by
    intro k
    rw [hdi, hupd]
  rw [Finset.sum_congr rfl (fun k _ => hterm k), sum_cat_hit]
  simp only [srcRow_edge, dstRow_edge, srcRow_loop, dstRow_loop]
  unfold agg
  rw [EReal.coe_add, coe_sum]
  refine congrArg₂ (· + ·) (Finset.sum_congr rfl fun k _ => ?_) rfl
  by_cases h : hitW ei k n
  · rw [if_pos h, if_pos h]
  · rw [if_neg h, if_neg h, EReal.coe_zero]

/-- Adding a real bias to real messages and clamping at zero. -/
theorem relu_bias (A B Z : EReal) (a b : ℝ) (hA : A = (a : EReal)) (hB : B = (b : EReal)) (hZ : Z = 0) :
    FloatOps.maximumf (F := Ideal) (φ := .f32) (FloatOps.addf (F := Ideal) (φ := .f32) A B) Z
      = ((max (a + b) 0 : ℝ) : EReal) := by
  show max (A + B) Z = _
  rw [hA, hB, hZ, ← EReal.coe_add, ← EReal.coe_zero, coe_max]

/-- The aggregated layer of the specification is the clamp of the messages plus the bias. -/
theorem layerR_eq (ei : S2x2000000.Idx → BitVec 32) (l : Fin NN → Fin 32 → ℝ) (b : Fin 32 → ℝ) (n : Fin NN) (c : Fin 32) :
    layerR (dis (hitW ei)) (hitW ei) (rowW ei) (drowW ei) l b n c = max (agg ei l n c + b c) 0 := rfl

/-- One whole layer at node `n`, column `c`: look up the source rows of a real table, weigh them, accumulate them at the
    targets into zeros, add the bias, clamp at zero.  Stated for any operands that read as the layer's parts. -/
theorem layer_at (ei : S2x2000000.Idx → BitVec 32)
    (T : S100000x32.Idx → EReal) (l : Fin NN → Fin 32 → ℝ) (hT : ∀ n c, T (ix2 n c) = ((l n c : ℝ) : EReal))
    (si : S2100000x1.Idx → BitVec 32) (hsi : ∀ k : Fin CC, si (ix2 k (0 : Fin 1)) = wrapW (catW (srcW ei) k))
    (W : S2100000x32.Idx → EReal) (hW : ∀ (k : Fin CC) (c : Fin 32), W (ix2 k c) = val_main_v31 (F := Ideal) ei (ix1 k))
    (zero : S100000x32.Idx → EReal) (hz : ∀ n c, zero (ix2 n c) = 0)
    (di : S2100000x1.Idx → BitVec 32) (hdi : ∀ k : Fin CC, di (ix2 k (0 : Fin 1)) = catW (dstW ei) k)
    (B : S100000x32.Idx → EReal) (b : Fin 32 → ℝ) (hB : ∀ n c, B (ix2 n c) = ((b c : ℝ) : EReal))
    (Z : S100000x32.Idx → EReal) (hZ : ∀ n c, Z (ix2 n c) = 0) (n : Fin NN) (c : Fin 32) :
    maximumf (F := Ideal) (s := S100000x32) (φ := .f32)
      (addf (F := Ideal) (s := S100000x32) (φ := .f32)
        (Host.scatterAdd (F := Ideal) (φ := .f32) scatter_S100000x32_S2100000x1_S2100000x32_1_0_0_1 zero di
          (mulf (F := Ideal) (s := S2100000x32) (φ := .f32)
            (Host.gather gather_S100000x32_S2100000x1_S2100000x32_1_0_n_n_0_1_132 T si) W)) B) Z (ix2 n c)
      = ((layerR (dis (hitW ei)) (hitW ei) (rowW ei) (drowW ei) l b n c : ℝ) : EReal) := by
  rw [layerR_eq]
  refine relu_bias _ _ _ (agg ei l n c) (b c) ?_ (hB n c) (hZ n c)
  refine agg_at ei l zero hz di hdi _ (fun k c => ?_) n c
  show Host.gather gather_S100000x32_S2100000x1_S2100000x32_1_0_n_n_0_1_132 T si (ix2 k c) * W (ix2 k c) = _
  rw [gathRows_at T si k c _ (hsi k), hT, hW, val_main_v31_at, ← EReal.coe_mul]
  rfl

/-- A dense product of a real table with real weights. -/
theorem lin_at {A : ℕ} (X : Fin A → EReal) (W : Fin A → EReal) (x w : Fin A → ℝ)
    (hX : ∀ j, X j = (x j : EReal)) (hW : ∀ j, W j = (w j : EReal)) :
    (∑ j : Fin A, X j * W j) = ((∑ j : Fin A, x j * w j : ℝ) : EReal) := by
  rw [coe_sum]
  refine Finset.sum_congr rfl fun j _ => ?_
  rw [hX, hW, EReal.coe_mul]

end Cert.RefSide

end
-- ==== Proof.RefValue.lean ====
/-
  The plain program's result, at every node, is the aggregated two-layer network of the specification.

  With every float input a real, the first dense product is a real table; the first layer turns it into the real
  table `layerR … (lin x w1) b1`; the second dense product and layer do the same once more; the head is a last dense
  product with one output column, plus the head's bias.
-/
import proofs.«133357_j60670708023801_2_alg».proof.Proof.RefLayer

noncomputable section

namespace Cert.RefSide

open Cert.ReferenceIdeal Cert.ReferenceIdeal.Gen Cert.ReferenceIdeal.ReadP Idealize.ShloMosaic Idealize.ShloMosaic.ValueIdx Cert.Gcn
open scoped BigOperators

/-- A rank-2 array of extended reals as a table of reals. -/
abbrev tab2 {a b : ℕ} (X : (⟨2, ![a, b]⟩ : Shape).Idx → EReal) : Fin a → Fin b → ℝ := fun i j => (X (ix2 i j)).toReal
/-- A vector of extended reals as a family of reals. -/
abbrev tab1 {a : ℕ} (X : (⟨1, ![a]⟩ : Shape).Idx → EReal) : Fin a → ℝ := fun i => (X (ix1 i)).toReal

section
variable (x : S100000x8.Idx → EReal) (ei : S2x2000000.Idx → BitVec 32) (W1 : S8x32.Idx → EReal)
  (b1 : S32.Idx → EReal) (W2 : S32x32.Idx → EReal) (b2 : S32.Idx → EReal) (Wf : S32x1.Idx → EReal)
  (bf : S1.Idx → EReal)

/-- The first layer's result as a real table. -/
def r1 : Fin NN → Fin 32 → ℝ :=
  layerR (dis (hitW ei)) (hitW ei) (rowW ei) (drowW ei) (lin (tab2 x) (tab2 W1)) (tab1 b1)
/-- The second layer's result as a real table. -/
def r2 : Fin NN → Fin 32 → ℝ :=
  layerR (dis (hitW ei)) (hitW ei) (rowW ei) (drowW ei) (lin (r1 x ei W1 b1) (tab2 W2)) (tab1 b2)

/-- The weight array broadcast over the 32 columns reads the edge weight. -/
theorem val_main_v41_at (k : Fin CC) (c : Fin 32) :
    val_main_v41 (F := Ideal) ei (ix2 k c) = val_main_v31 (F := Ideal) ei (ix1 k) := by
  rw [val_main_v41_apply, val_main_v40_apply]
  congr 1
  funext a
  match a with
  | ⟨0, _⟩ => rfl

theorem val_main_v59_at (k : Fin CC) (c : Fin 32) :
    val_main_v59 (F := Ideal) ei (ix2 k c) = val_main_v31 (F := Ideal) ei (ix1 k) := by
  rw [val_main_v59_apply, val_main_v58_apply]
  congr 1
  funext a
  match a with
  | ⟨0, _⟩ => rfl

/-- The zero operands and clamps read zero; the broadcast biases read the bias. -/
theorem val_main_v43_at (n : Fin NN) (c : Fin 32) : val_main_v43 (F := Ideal) (ix2 n c) = 0 := by
  rw [val_main_v43_apply, val_main_cst_9_apply]; exact ofBits_zero
theorem val_main_v61_at (n : Fin NN) (c : Fin 32) : val_main_v61 (F := Ideal) (ix2 n c) = 0 := by
  rw [val_main_v61_apply, val_main_cst_12_apply]; exact ofBits_zero
theorem val_main_call1_v0_at (n : Fin NN) (c : Fin 32) : val_main_call1_v0 (F := Ideal) (ix2 n c) = 0 := by
  rw [val_main_call1_v0_apply, val_main_call1_cst_apply]; exact ofBits_zero
theorem val_main_call2_v0_at (n : Fin NN) (c : Fin 32) : val_main_call2_v0 (F := Ideal) (ix2 n c) = 0 := by
  rw [val_main_call2_v0_apply, val_main_call2_cst_apply]; exact ofBits_zero

theorem val_main_v47_at (hb1 : ∀ i, b1 i = (((b1 i).toReal : ℝ) : EReal)) (n : Fin NN) (c : Fin 32) :
    val_main_v47 (F := Ideal) b1 (ix2 n c) = ((tab1 b1 c : ℝ) : EReal) := by
  rw [val_main_v47_apply, val_main_v46_apply]
  refine Eq.trans (congrArg b1 ?_) (hb1 (ix1 c))
  funext a
  match a with
  | ⟨0, _⟩ => rfl

theorem val_main_v65_at (hb2 : ∀ i, b2 i = (((b2 i).toReal : ℝ) : EReal)) (n : Fin NN) (c : Fin 32) :
    val_main_v65 (F := Ideal) b2 (ix2 n c) = ((tab1 b2 c : ℝ) : EReal) := by
  rw [val_main_v65_apply, val_main_v64_apply]
  refine Eq.trans (congrArg b2 ?_) (hb2 (ix1 c))
  funext a
  match a with
  | ⟨0, _⟩ => rfl

/-- The first dense product. -/
theorem val_main_v32_at (hx : ∀ i, x i = (((x i).toReal : ℝ) : EReal)) (hW1 : ∀ i, W1 i = (((W1 i).toReal : ℝ) : EReal))
    (n : Fin NN) (c : Fin 32) :
    val_main_v32 (F := Ideal) x W1 (ix2 n c) = ((lin (tab2 x) (tab2 W1) n c : ℝ) : EReal) := by
  rw [val_main_v32_apply]
  refine lin_at _ _ (fun j => tab2 x n j) (fun j => tab2 W1 j c) (fun j => ?_) (fun j => ?_)
  · refine Eq.trans (congrArg x ?_) (hx (ix2 n j))
    funext a
    match a with
    | ⟨0, _⟩ => rfl
    | ⟨1, _⟩ => rfl
  · refine Eq.trans (congrArg W1 ?_) (hW1 (ix2 j c))
    funext a
    match a with
    | ⟨0, _⟩ => rfl
    | ⟨1, _⟩ => rfl

/-- The first layer. -/
theorem val_main_v49_at (hx : ∀ i, x i = (((x i).toReal : ℝ) : EReal)) (hW1 : ∀ i, W1 i = (((W1 i).toReal : ℝ) : EReal))
    (hb1 : ∀ i, b1 i = (((b1 i).toReal : ℝ) : EReal)) (n : Fin NN) (c : Fin 32) :
    val_main_v49 (F := Ideal) x ei W1 b1 (ix2 n c) = ((r1 x ei W1 b1 n c : ℝ) : EReal) :=
  layer_at ei (val_main_v32 (F := Ideal) x W1) (lin (tab2 x) (tab2 W1)) (val_main_v32_at x W1 hx hW1)
    (val_main_v38 (F := Ideal) ei) (val_main_v38_at ei) (val_main_v41 (F := Ideal) ei) (val_main_v41_at ei)
    (val_main_v43 (F := Ideal)) val_main_v43_at (val_main_v44 (F := Ideal) ei) (val_main_v44_at ei)
    (val_main_v47 (F := Ideal) b1) (tab1 b1) (val_main_v47_at b1 hb1) (val_main_call1_v0 (F := Ideal))
    val_main_call1_v0_at n c

/-- The second dense product. -/
theorem val_main_v50_at (hx : ∀ i, x i = (((x i).toReal : ℝ) : EReal)) (hW1 : ∀ i, W1 i = (((W1 i).toReal : ℝ) : EReal))
    (hb1 : ∀ i, b1 i = (((b1 i).toReal : ℝ) : EReal)) (hW2 : ∀ i, W2 i = (((W2 i).toReal : ℝ) : EReal))
    (n : Fin NN) (c : Fin 32) :
    val_main_v50 (F := Ideal) x ei W1 b1 W2 (ix2 n c) = ((lin (r1 x ei W1 b1) (tab2 W2) n c : ℝ) : EReal) := by
  rw [val_main_v50_apply]
  refine lin_at _ _ (fun j => r1 x ei W1 b1 n j) (fun j => tab2 W2 j c) (fun j => ?_) (fun j => ?_)
  · refine Eq.trans (congrArg (val_main_v49 (F := Ideal) x ei W1 b1) ?_) (val_main_v49_at x ei W1 b1 hx hW1 hb1 n j)
    funext a
    match a with
    | ⟨0, _⟩ => rfl
    | ⟨1, _⟩ => rfl
  · refine Eq.trans (congrArg W2 ?_) (hW2 (ix2 j c))
    funext a
    match a with
    | ⟨0, _⟩ => rfl
    | ⟨1, _⟩ => rfl

/-- The second layer. -/
theorem val_main_v67_at (hx : ∀ i, x i = (((x i).toReal : ℝ) : EReal)) (hW1 : ∀ i, W1 i = (((W1 i).toReal : ℝ) : EReal))
    (hb1 : ∀ i, b1 i = (((b1 i).toReal : ℝ) : EReal)) (hW2 : ∀ i, W2 i = (((W2 i).toReal : ℝ) : EReal))
    (hb2 : ∀ i, b2 i = (((b2 i).toReal : ℝ) : EReal)) (n : Fin NN) (c : Fin 32) :
    val_main_v67 (F := Ideal) x ei W1 b1 W2 b2 (ix2 n c) = ((r2 x ei W1 b1 W2 b2 n c : ℝ) : EReal) :=
  layer_at ei (val_main_v50 (F := Ideal) x ei W1 b1 W2) (lin (r1 x ei W1 b1) (tab2 W2))
    (val_main_v50_at x ei W1 b1 W2 hx hW1 hb1 hW2)
    (val_main_v56 (F := Ideal) ei) (val_main_v56_at ei) (val_main_v59 (F := Ideal) ei) (val_main_v59_at ei)
    (val_main_v61 (F := Ideal)) val_main_v61_at (val_main_v62 (F := Ideal) ei) (val_main_v62_at ei)
    (val_main_v65 (F := Ideal) b2) (tab1 b2) (val_main_v65_at b2 hb2) (val_main_call2_v0 (F := Ideal))
    val_main_call2_v0_at n c

/-- The head: a dense product with one output column, plus the head's bias. -/
theorem val_main_v71_at (hx : ∀ i, x i = (((x i).toReal : ℝ) : EReal)) (hW1 : ∀ i, W1 i = (((W1 i).toReal : ℝ) : EReal))
    (hb1 : ∀ i, b1 i = (((b1 i).toReal : ℝ) : EReal)) (hW2 : ∀ i, W2 i = (((W2 i).toReal : ℝ) : EReal))
    (hb2 : ∀ i, b2 i = (((b2 i).toReal : ℝ) : EReal)) (hWf : ∀ i, Wf i = (((Wf i).toReal : ℝ) : EReal))
    (hbf : ∀ i, bf i = (((bf i).toReal : ℝ) : EReal)) (n : Fin NN) :
    val_main_v71 (F := Ideal) x ei W1 b1 W2 b2 Wf bf (ix2 n (0 : Fin 1))
      = (((∑ j : Fin 32, r2 x ei W1 b1 W2 b2 n j * (Wf (ix2 j (0 : Fin 1))).toReal) + (bf (ix1 (0 : Fin 1))).toReal : ℝ) : EReal) := by
  rw [val_main_v71_apply, val_main_v68_apply, val_main_v70_apply, val_main_v69_apply]
  show (∑ k : Fin 32, _ * _) + _ = _
  rw [EReal.coe_add]
  refine congrArg₂ (· + ·) ?_ ?_
  · refine lin_at _ _ (fun j => r2 x ei W1 b1 W2 b2 n j) (fun j => (Wf (ix2 j (0 : Fin 1))).toReal) (fun j => ?_) (fun j => ?_)
    · refine Eq.trans (congrArg (val_main_v67 (F := Ideal) x ei W1 b1 W2 b2) ?_)
        (val_main_v67_at x ei W1 b1 W2 b2 hx hW1 hb1 hW2 hb2 n j)
      funext a
      match a with
      | ⟨0, _⟩ => rfl
      | ⟨1, _⟩ => rfl
    · refine Eq.trans (congrArg Wf ?_) (hWf (ix2 j (0 : Fin 1)))
      funext a
      match a with
      | ⟨0, _⟩ => rfl
      | ⟨1, _⟩ => rfl
  · refine Eq.trans (congrArg bf ?_) (hbf (ix1 (0 : Fin 1)))
    funext a
    match a with
    | ⟨0, _⟩ => rfl

end

/-- The plain program's result at node `n` is the aggregated network of the specification on the inputs' reals. -/
theorem ref_value (x : S100000x8.Idx → EReal) (ei : S2x2000000.Idx → BitVec 32) (W1 : S8x32.Idx → EReal)
    (b1 : S32.Idx → EReal) (W2 : S32x32.Idx → EReal) (b2 : S32.Idx → EReal) (Wf : S32x1.Idx → EReal)
    (bf : S1.Idx → EReal)
    (hx : ∀ i, x i = (((x i).toReal : ℝ) : EReal)) (hW1 : ∀ i, W1 i = (((W1 i).toReal : ℝ) : EReal))
    (hb1 : ∀ i, b1 i = (((b1 i).toReal : ℝ) : EReal)) (hW2 : ∀ i, W2 i = (((W2 i).toReal : ℝ) : EReal))
    (hb2 : ∀ i, b2 i = (((b2 i).toReal : ℝ) : EReal)) (hWf : ∀ i, Wf i = (((Wf i).toReal : ℝ) : EReal))
    (hbf : ∀ i, bf i = (((bf i).toReal : ℝ) : EReal)) (n : Fin 100000) :
    Cert.ReferenceIdeal.ReadP.val_main_v71 (F := Ideal) x ei W1 b1 W2 b2 Wf bf (ix2 n (0 : Fin 1))
      = ((Cert.Gcn.outR (Cert.Gcn.dis (Cert.Gcn.hitW ei)) (Cert.Gcn.hitW ei) (Cert.Gcn.rowW ei) (Cert.Gcn.drowW ei)
            (fun n j => (x (ix2 n j)).toReal) (fun j c => (W1 (ix2 j c)).toReal) (fun c => (b1 (ix1 c)).toReal)
            (fun j c => (W2 (ix2 j c)).toReal) (fun c => (b2 (ix1 c)).toReal) (fun j => (Wf (ix2 j (0 : Fin 1))).toReal)
            ((bf (ix1 (0 : Fin 1))).toReal) n : ℝ) : EReal) :=
  val_main_v71_at x ei W1 b1 W2 b2 Wf bf hx hW1 hb1 hW2 hb2 hWf hbf n

end Cert.RefSide

end
-- ==== Proof.LibLayout.lean ====
/-
  Layout operations on a trailing unit axis, read at an index written by coordinates.

  A keep-dims value has a trailing axis of extent one.  Adding that axis by a shape cast, dropping it again, and
  broadcasting along it each read ONE element of the operand: the element with the same leading coordinates (and
  coordinate 0 on the unit axis).  Stated for any extents, at ranks 1–4, over indices built by coordinates.
-/
import Idealize.ShloMosaic.Lib.Pipeline.Value
import Idealize.ShloMosaic.Lib.ValueIdx
import Idealize.ShloMosaic.Lib.ValueLayout

namespace Cert.Bridge.Layout

open Idealize.ShloMosaic Idealize.ShloMosaic.ValueIdx

variable {α : Type}

/-- An `[a, b, 1]` array broadcast to `[a, b, n]` reads, at `(i, j, k)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c, 1]` array broadcast to `[a, b, c, n]` reads, at `(i, j, k, l)`, the operand at `(i, j, k, 0)`. -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (i : Fin a) (j : Fin b) (k : Fin c) (l : Fin n) :
    broadcastTo ⟨4, ![a, b, c, n]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1]` column broadcast to `[a, n]` reads, at `(i, j)`, the operand at `(i, 0)`. -/
theorem broadcastTo_a1_an_apply {a n : ℕ} (v : (⟨2, ![a, 1]⟩ : Shape).Idx → α)
    (h : (⟨2, ![a, 1]⟩ : Shape).Broadcasts ⟨2, ![a, n]⟩) (i : Fin a) (j : Fin n) :
    broadcastTo ⟨2, ![a, n]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge.Layout
-- ==== Proof.KWords.lean ====
/-
  The tiled program's index words, lookups and accumulating scatters at their literal shapes.

  The edge array's two rows, cut out and flattened, are the source and the target words; laid out as an index column a
  vector of words is read back at (k, 0).  A row lookup along the column returns the table's row at the word read
  signed and clamped; an accumulating scatter into a table returns the operand plus the sum of the updates whose word
  reads the entry's row.
-/
import proofs.«133357_j60670708023801_2_alg».proof.Proof.KRun
import proofs.«133357_j60670708023801_2_alg».proof.Proof.Graph
import proofs.«133357_j60670708023801_2_alg».proof.Proof.LibGraphOps
import proofs.«133357_j60670708023801_2_alg».proof.Proof.LibLayout
import proofs.«133357_j60670708023801_2_alg».proof.Proof.RefSum
import proofs.«133357_j60670708023801_2_alg».proof.Proof.RefConsts
import Idealize.ShloMosaic.Lib.StableHlo.Run
import Idealize.ShloMosaic.Lib.Pipeline.Value

set_option maxRecDepth 16384

noncomputable section

namespace Cert.KernelIdeal.KWords

open Cert.KernelIdeal Cert.KernelIdeal.Gen Cert.Gcn
open Idealize.ShloMosaic Idealize.ShloMosaic.TcCoe Idealize.ShloMosaic.ValueIdx Idealize.SL.Sem Idealize.ShloMosaic.StableHlo
open scoped BigOperators

/-! ## The index words -/

/-- Row 1 of the edge array, cut out and flattened, at `k`: the target word of edge `k`. -/
theorem row1_apply (ei : S2x2000000.Idx → BitVec 32) (k : Fin 2000000) :
    shapeCast S2000000 (extractStridedSlice S1x2000000 ![1, 0] ei slices_S2x2000000_S1x2000000_1_0) shapeCasts_S1x2000000_S2000000 (ix1 k)
      = dstW ei k := by
  rw [shapeCast_apply _ shapeCasts_S1x2000000_S2000000 (ix1 k) (ix2 (0 : Fin 1) k)
    (by rewrite [Shape.rowMajor_val_two, Shape.rowMajor_val_one]; show 0 * 2000000 + k.val = k.val; omega)]
  exact extractStridedSlice_apply ![1, 0] ei slices_S2x2000000_S1x2000000_1_0 (ix2 (0 : Fin 1) k) (ix2 (1 : Fin 2) k) (fun a => match a with
    | ⟨0, _⟩ => by show (1 : ℕ) = 1 + 0; omega
    | ⟨1, _⟩ => by show k.val = 0 + k.val; omega)

/-- Row 0 of the edge array, cut out and flattened, at `k`: the source word of edge `k`. -/
theorem row0_apply (ei : S2x2000000.Idx → BitVec 32) (k : Fin 2000000) :
    shapeCast S2000000 (extractStridedSlice S1x2000000 ![0, 0] ei slices_S2x2000000_S1x2000000_0_0) shapeCasts_S1x2000000_S2000000 (ix1 k)
      = srcW ei k := by
  rw [shapeCast_apply _ shapeCasts_S1x2000000_S2000000 (ix1 k) (ix2 (0 : Fin 1) k)
    (by rewrite [Shape.rowMajor_val_two, Shape.rowMajor_val_one]; show 0 * 2000000 + k.val = k.val; omega)]
  exact extractStridedSlice_apply ![0, 0] ei slices_S2x2000000_S1x2000000_0_0 (ix2 (0 : Fin 1) k) (ix2 (0 : Fin 2) k) (fun a => match a with
    | ⟨0, _⟩ => by show (0 : ℕ) = 0 + 0; omega
    | ⟨1, _⟩ => by show k.val = 0 + k.val; omega)

/-- A vector of words laid out as an index column, at `(k, 0)`: the word at `k`. -/
theorem col_apply {α : Type} (v : S2000000.Idx → α) (k : Fin 2000000) :
    broadcastInDim S2000000x1 ![0] bcast_S2000000_S2000000x1_0 v (ix2 k (0 : Fin 1)) = v (ix1 k) :=
  broadcastInDim_apply _ bcast_S2000000_S2000000x1_0 v (ix2 k (0 : Fin 1)) (ix1 k) (fun a => match a with
    | ⟨0, _⟩ => by show k.val = if (2000000 : Nat) = 1 then 0 else k.val; rw [if_neg (by decide)])

open Cert.Bridge.GraphOps

/-- The row lookup at edge `k`, column `c`, given the word its index column holds there. -/
theorem gathRows_at (x : S100000x32.Idx → EReal) (idx : S2000000x1.Idx → BitVec 32) (k : Fin 2000000) (c : Fin 32)
    (v : BitVec 32) (h : idx (ix2 k (0 : Fin 1)) = v) :
    Host.gather gather_S100000x32_S2000000x1_S2000000x32_1_0_n_n_0_1_132 x idx (ix2 k c) = x (ix2 (gRow v) c) := by
  show Host.gather (gathRows (N := 100000) (E := 2000000) (C := 32)
    Facts₀.gather_S100000x32_S2000000x1_S2000000x32_1_0_n_n_0_1_132_wf) x idx (ix2 k c) = _
  rw [gather_rows_apply (by decide)]
  subst h
  rfl

/-- The vector scatter at node `n`. -/
theorem scatFlat_at (x : S100000.Idx → EReal) (idx : S2000000x1.Idx → BitVec 32) (upd : S2000000.Idx → EReal)
    (n : Fin 100000) :
    Host.scatterAdd (F := Ideal) (φ := .f32) scatter_S100000_S2000000x1_S2000000_n_0_0_1 x idx upd (ix1 n)
      = x (ix1 n) + ∑ k : Fin 2000000, if (idx (ix2 k (0 : Fin 1))).toInt = (n.val : ℤ) then upd (ix1 k) else 0 := by
  show Ideal.hostScatterAdd (scatFlat (N := 100000) (E := 2000000) Facts₀.scatter_S100000_S2000000x1_S2000000_n_0_0_1_wf)
    x idx upd (ix1 n) = _
  rw [scatterAdd_flat_apply]

/-- The row scatter at node `n`, column `c`. -/
theorem scatRows_at (x : S100000x32.Idx → EReal) (idx : S2000000x1.Idx → BitVec 32) (upd : S2000000x32.Idx → EReal)
    (n : Fin 100000) (c : Fin 32) :
    Host.scatterAdd (F := Ideal) (φ := .f32) scatter_S100000x32_S2000000x1_S2000000x32_1_0_0_1 x idx upd (ix2 n c)
      = x (ix2 n c) + ∑ k : Fin 2000000, if (idx (ix2 k (0 : Fin 1))).toInt = (n.val : ℤ) then upd (ix2 k c) else 0 := by
  show Ideal.hostScatterAdd (scatRows (N := 100000) (E := 2000000) (C := 32)
    Facts₀.scatter_S100000x32_S2000000x1_S2000000x32_1_0_0_1_wf) x idx upd (ix2 n c) = _
  rw [scatterAdd_rows_apply]

end Cert.KernelIdeal.KWords

end
-- ==== Proof.KDeg.lean ====
/-
  The first stretch of host operations of the idealized kernel: the normalisation factor.

  The stretch cuts the two rows out of the edge array (sources, targets), counts for every node the edges whose target
  word reads that node (an accumulating scatter of ones into zeros), adds one for the self loop, and takes one over the
  square root: the column d : [100000, 1] that every region reads.  Read at (n, 0) it is the real number
  1 / sqrt (count n + 1).
-/
import proofs.«133357_j60670708023801_2_alg».proof.Proof.KWords
import proofs.«133357_j60670708023801_2_alg».proof.Proof.Graph
import proofs.«133357_j60670708023801_2_alg».proof.Proof.LibGraphOps
import proofs.«133357_j60670708023801_2_alg».proof.Proof.LibLayout
import proofs.«133357_j60670708023801_2_alg».proof.Proof.RefSum
import proofs.«133357_j60670708023801_2_alg».proof.Proof.RefConsts
import Idealize.ShloMosaic.Lib.StableHlo.Run
import Idealize.ShloMosaic.Lib.Pipeline.Value

set_option maxRecDepth 16384

noncomputable section

namespace Cert.KernelIdeal.KVal

open Cert.KernelIdeal Cert.KernelIdeal.Gen Cert.Gcn
open Idealize.ShloMosaic Idealize.ShloMosaic.TcCoe Idealize.ShloMosaic.ValueIdx Idealize.SL.Sem Idealize.ShloMosaic.StableHlo
open scoped BigOperators

open Cert.KernelIdeal.KWords

variable (m : (ℓ : Loc nD τ sig) → Buf (Elt Ideal) ℓ) (ρ : Dev nD → PrngReg)

/-- The edge array on core `c`, as launched. -/
def eiOf (c : Dev nD) : S2x2000000.Idx → BitVec 32 := m ((c : Thread nD τ).loc main_arg1)

/-- The column of target words the scatters are indexed by. -/
def dstCol (c : Dev nD) : S2000000x1.Idx → BitVec 32 :=
  broadcastInDim S2000000x1 ![0] bcast_S2000000_S2000000x1_0
    (shapeCast S2000000 (extractStridedSlice S1x2000000 ![1, 0] (eiOf m c) slices_S2x2000000_S1x2000000_1_0) shapeCasts_S1x2000000_S2000000)

theorem dstCol_apply (c : Dev nD) (k : Fin 2000000) : dstCol m c (ix2 k (0 : Fin 1)) = dstW (eiOf m c) k := by
  unfold dstCol; rw [col_apply, row1_apply]

/-! ## The factor column -/

/-- The factor column after the first stretch is one over the square root of the scattered count plus one. -/
theorem dis_term (c : Dev nD) :
    (id (W1 m ρ c (Proc.devRef .tc main_v11)) : S100000x1.Idx → EReal)
      = shapeCast S100000x1 (Host.rsqrt (F := Ideal) (addf
          (Host.scatterAdd scatter_S100000_S2000000x1_S2000000_n_0_0_1
            (broadcastInDim S100000 ![] bcast_S_S100000 (constant (F := Ideal) S_ .f32 0x00000000#32))
            (dstCol m c)
            (broadcastInDim S2000000 ![] bcast_S_S2000000 (constant (F := Ideal) S_ .f32 0x3F800000#32)))
          (broadcastInDim S100000 ![] bcast_S_S100000 (constant (F := Ideal) S_ .f32 0x3F800000#32)))) shapeCasts_S100000_S100000x1 := by
  show StableHlo.after hostOps0 (W0 m ρ c) (Proc.devRef .tc main_v11) = _
  after_results
  rfl

/-- A constant splat over the nodes, at any node, is the constant. -/
theorem splatN (w : BitVec 32) (i : S100000.Idx) :
    broadcastInDim S100000 ![] bcast_S_S100000 (constant (F := Ideal) S_ .f32 w) i = Ideal.ofBits .f32 w :=
  (broadcastInDim_apply _ bcast_S_S100000 (constant (F := Ideal) S_ .f32 w) i (fun a => a.elim0) (fun a => a.elim0)).trans rfl

/-- A constant splat over the edges, at any edge, is the constant. -/
theorem splatE (w : BitVec 32) (i : S2000000.Idx) :
    broadcastInDim S2000000 ![] bcast_S_S2000000 (constant (F := Ideal) S_ .f32 w) i = Ideal.ofBits .f32 w :=
  (broadcastInDim_apply _ bcast_S_S2000000 (constant (F := Ideal) S_ .f32 w) i (fun a => a.elim0) (fun a => a.elim0)).trans rfl

/-- The factor of node `n` is the real `1 / sqrt (count n + 1)`. -/
theorem dis_read (c : Dev nD) (n : Fin 100000) :
    (id (W1 m ρ c (Proc.devRef .tc main_v11)) : S100000x1.Idx → EReal) (ix2 n (0 : Fin 1))
      = ((dis (hitW (eiOf m c)) n : ℝ) : EReal) := by
  have hr : ∀ (v : FVec Ideal S100000 .f32) (i : S100000.Idx), Host.rsqrt (F := Ideal) (φ := .f32) v i = Ideal.rsqrt (v i) := fun _ _ => rfl
  rw [dis_term, Cert.Bridge.Layout.shapeCast_a_a1_apply, hr, addf_apply, scatFlat_at, splatN, splatN]
  have hterm : ∀ k : Fin 2000000,
      (if (dstCol m c (ix2 k (0 : Fin 1))).toInt = (n.val : ℤ) then
          broadcastInDim S2000000 ![] bcast_S_S2000000 (constant (F := Ideal) S_ .f32 0x3F800000#32) (ix1 k) else 0)
        = if hitW (eiOf m c) k n then (1 : EReal) else 0 := by
    intro k
    rw [dstCol_apply, splatE, Cert.RefSide.ofBits_one]
    rfl
  rw [Finset.sum_congr rfl (fun k _ => hterm k), Cert.RefSide.ofBits_zero, zero_add, Cert.RefSide.sum_hit_one,
    Cert.RefSide.ofBits_one, ← EReal.coe_one, ← EReal.coe_add]
  have hpos : (0 : ℝ) < (cnt (hitW (eiOf m c)) n : ℝ) + 1 := by positivity
  rw [Ideal.rsqrt_coe, if_neg (not_lt.2 hpos.le), if_neg hpos.ne']
  rfl

end Cert.KernelIdeal.KVal

end
-- ==== Proof.LibDense.lean ====
/-
  A dense layer read entry by entry, on the extended reals.

  The product of an M×K matrix X by a K×N matrix W has, at entry (r, c), the sum over k of X(r,k)·W(k,c). A tiled
  kernel computes it block of rows by block of rows, each block a product accumulated into a zero splat; a host
  program computes it with one product and no accumulator. Both are this one function, and since each output entry is
  a sum over the contracted coordinate only, a block of rows of the product is the product of that block of rows.
  A bias vector b added along the rows followed by max(·, 0) is read the same way: entry (r, k) is
  max(A(r,k) + b(k), 0). Nothing here cancels or distributes, so every statement holds at the infinities too.
  Stated for any extents.
-/
import Idealize.ShloMosaic.Lib.StackMember
import Idealize.ShloMosaic.Lib.KernelVsHost
import Idealize.ShloMosaic.Lib.ValueLayout
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx
open scoped BigOperators

variable {M K N : ℕ}

/-- The float zero word read at the ideal values. -/
abbrev zeroWord : EReal := Ideal.ofBits .f32 0x00000000#32

/-- The product of an M×K matrix by a K×N matrix: entry (r, c) is the sum over k of X(r,k)·W(k,c). -/
def matProd (X : (⟨2, ![M, K]⟩ : Shape).Idx → EReal) (W : (⟨2, ![K, N]⟩ : Shape).Idx → EReal) :
    (⟨2, ![M, N]⟩ : Shape).Idx → EReal :=
  fun i => ∑ k : Fin K, X (ix2 (i 0) k) * W (ix2 k (i 1))

theorem matProd_apply (X : (⟨2, ![M, K]⟩ : Shape).Idx → EReal) (W : (⟨2, ![K, N]⟩ : Shape).Idx → EReal)
    (r : Fin M) (c : Fin N) : matProd X W (ix2 r c) = ∑ k : Fin K, X (ix2 r k) * W (ix2 k c) := rfl

/-- A bias vector added along the rows of an M×K matrix, then the positive part: entry (r, k) is max(A(r,k) + b(k), 0). -/
def biasRelu (A : (⟨2, ![M, K]⟩ : Shape).Idx → EReal) (b : (⟨1, ![K]⟩ : Shape).Idx → EReal) :
    (⟨2, ![M, K]⟩ : Shape).Idx → EReal :=
  fun i => max (A i + b (ix1 (i 1))) zeroWord

theorem biasRelu_apply (A : (⟨2, ![M, K]⟩ : Shape).Idx → EReal) (b : (⟨1, ![K]⟩ : Shape).Idx → EReal)
    (r : Fin M) (k : Fin K) : biasRelu A b (ix2 r k) = max (A (ix2 r k) + b (ix1 k)) zeroWord := rfl

/-- The host's product of two matrices, with the plain contraction (rows of the left against columns of the right), is
    `matProd`. -/
theorem dotGeneral_eq_matProd (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = matProd X W := by
  subst hd
  funext i
  obtain ⟨r, c, rfl⟩ : ∃ (r : Fin M) (c : Fin N), i = ix2 r c := ⟨i 0, i 1, eq_ix2 i⟩
  rw [StackMember.dotGeneral_plain_apply, matProd_apply]

/-- A kernel's product accumulated into the zero splat, with the plain contraction, is `matProd`: the accumulator
    contributes 0 + s = s. -/
theorem matmul_zero_eq_matProd (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    matmul d none X W (constant ⟨2, ![M, N]⟩ .f32 0x00000000#32) = matProd X W := by
  rw [matmul_zero_eq_dotGeneral]
  exact dotGeneral_eq_matProd d hd X W

/-- The kernel's spelling of the bias step on a block — the bias held as a one-row matrix and broadcast down the rows,
    added, and compared with a zero splat — is `biasRelu` of the row read as a vector. -/
theorem blockBiasRelu_eq (A : FVec Ideal ⟨2, ![M, K]⟩ .f32) (B : FVec Ideal ⟨2, ![1, K]⟩ .f32)
    (hb : (⟨2, ![1, K]⟩ : Shape).Broadcasts ⟨2, ![M, K]⟩) :
    maximumf (addf A (broadcastTo ⟨2, ![M, K]⟩ B hb)) (broadcast ⟨2, ![M, K]⟩ (Scalar.ofBits (F := Ideal) .f32 0x00000000#32))
      = biasRelu A (fun j => B (ix2 (0 : Fin 1) (j 0))) := by
  funext i
  obtain ⟨r, k, rfl⟩ : ∃ (r : Fin M) (k : Fin K), i = ix2 r k := ⟨i 0, i 1, eq_ix2 i⟩
  rw [maximumf_apply, addf_apply, broadcastTo_1b_ab_apply, biasRelu_apply]
  rfl

end Cert.Dense

end
-- ==== Proof.Region0.lean ====
/-
  Region 0: the projection, scaled.

  The region walks 25 blocks of 4000 rows.  At block t it multiplies rows t·4000 … t·4000+3999 of X : [100000, 8] by
  the whole W : [8, 32] and scales row r of the product by d(r, 0), d : [100000, 1].  Each output entry depends on one
  row of X, so block t of the result is block t of the whole-array function
      (n, k) ↦ (∑ j, X(n, j) · W(j, k)) · d(n, 0),
  and the 25 blocks tile the 100000 rows: after the region the output array IS that function.
-/
import proofs.«133357_j60670708023801_2_alg».proof.Proof.Gen.KernelIdeal.Frame
import proofs.«133357_j60670708023801_2_alg».proof.Proof.LibDense
import proofs.«133357_j60670708023801_2_alg».proof.Proof.LibLayout
import Idealize.ShloMosaic.Lib.Pipeline.Value
import Idealize.ShloMosaic.Lib.ValueIdx

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-- The offsets of a whole-block access are all zero. -/
theorem hz : (![0, 0] : Fin 2 → Nat) = fun _ => 0 := funext fun a => by fin_cases a <;> rfl

/-- The region's result as one function of its three input arrays. -/
def G0 (X : S100000x8.Idx → EReal) (W : S8x32.Idx → EReal) (d : S100000x1.Idx → EReal) : S100000x32.Idx → EReal :=
  fun i => Cert.Dense.matProd X W i * d (ix2 (i 0) (0 : Fin 1))

/-- The body's arithmetic on one block, entry (p, q): row p of the block product, scaled by the block's d(p, 0). -/
theorem pay0 (x0 : Vec Ideal S4000x8 .f32) (x1 : Vec Ideal S8x32 .f32) (x2 : Vec Ideal S4000x1 .f32) (p : Fin 4000) (q : Fin 32) :
    k0_pay1 (F := Ideal) x0 x1 x2 (ix2 p q) = Cert.Dense.matProd x0 x1 (ix2 p q) * x2 (ix2 p (0 : Fin 1)) := by
  unfold k0_pay1
  rw [mulf_apply, Cert.Dense.matmul_zero_eq_matProd (M := 4000) (K := 8) (N := 32) dot_S4000x8_S8x32_S4000x32_1_0_0_1_n_n rfl x0 x1,
    Cert.Bridge.Layout.broadcastTo_a1_an_apply, shapeCast_self]

/-- The printed index maps over the grid: the row-blocked windows move with the grid point, the others stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point t writes back is block t of `G0` of the arrays as the region finds them. -/
theorem flushed_eq (c : Dev nD) (t : Fin cfg0.N) :
    (dat0 V c).flushed 3 t = ((cfg0.win 3).blk t).view.read (Elt Ideal) (G0 (V c main_arg0) (V c main_arg2) (V c main_v11)) := by
  show (cfg0.win 3).cut (grid0.coords t) ((dat0 V c).after 3 t) = _
  rw [after0_3]
  unfold out0_3
  rw [View.canon_unit_zero hz]
  simp only [View.ld_unit_zero (S := S4000x8) hz, View.ld_unit_zero (S := S8x32) hz, View.ld_unit_zero (S := S4000x1) hz]
  obtain ⟨e00, e01, e10, e11, e20, e21, e30, e31⟩ := idx_facts t
  funext j
  obtain ⟨p, q, rfl⟩ : ∃ (p : Fin 4000) (q : Fin 32), j = ix2 p q := ⟨j 0, j 1, eq_ix2 j⟩
  refine (pay0 (iblk0 V c 0 t) (iblk0 V c 1 t) (iblk0 V c 2 t) p q).trans ?_
  show (∑ k : Fin 8, (id (V c main_arg0) : S100000x8.Idx → EReal) (((cfg0.win 0).blk t).view.emb (ix2 p k)) * (id (V c main_arg2) : S8x32.Idx → EReal) (((cfg0.win 1).blk t).view.emb (ix2 k q)))
      * (id (V c main_v11) : S100000x1.Idx → EReal) (((cfg0.win 2).blk t).view.emb (ix2 p (0 : Fin 1)))
    = (∑ k : Fin 8, (id (V c main_arg0) : S100000x8.Idx → EReal) (ix2 ((((cfg0.win 3).blk t).view.emb (ix2 p q)) 0) k) * (id (V c main_arg2) : S8x32.Idx → EReal) (ix2 k ((((cfg0.win 3).blk t).view.emb (ix2 p q)) 1)))
      * (id (V c main_v11) : S100000x1.Idx → EReal) (ix2 ((((cfg0.win 3).blk t).view.emb (ix2 p q)) 0) (0 : Fin 1))
  have hp : p.val < 4000 := p.isLt
  have hq : q.val < 32 := q.isLt
  have h0 : ∀ k : Fin 8, ((cfg0.win 0).blk t).view.emb (ix2 p k) = ix2 ((((cfg0.win 3).blk t).view.emb (ix2 p q)) 0) k := by
    intro k; funext a; apply Fin.ext
    match a with
    | ⟨0, _⟩ => show win0_0.index t (0 : Fin 2) * 4000 + 1 * p.val = win0_3.index t (0 : Fin 2) * 4000 + 1 * p.val; omega
    | ⟨1, _⟩ => show win0_0.index t (1 : Fin 2) * 8 + 1 * k.val = k.val; omega
  have h1 : ∀ k : Fin 8, ((cfg0.win 1).blk t).view.emb (ix2 k q) = ix2 k ((((cfg0.win 3).blk t).view.emb (ix2 p q)) 1) := by
    intro k; funext a; apply Fin.ext
    match a with
    | ⟨0, _⟩ => show win0_1.index t (0 : Fin 2) * 8 + 1 * k.val = k.val; omega
    | ⟨1, _⟩ => show win0_1.index t (1 : Fin 2) * 32 + 1 * q.val = win0_3.index t (1 : Fin 2) * 32 + 1 * q.val; omega
  have h2 : ((cfg0.win 2).blk t).view.emb (ix2 p (0 : Fin 1)) = ix2 ((((cfg0.win 3).blk t).view.emb (ix2 p q)) 0) (0 : Fin 1) := by
    funext a; apply Fin.ext
    match a with
    | ⟨0, _⟩ => show win0_2.index t (0 : Fin 2) * 4000 + 1 * p.val = win0_3.index t (0 : Fin 2) * 4000 + 1 * p.val; omega
    | ⟨1, _⟩ => show win0_2.index t (1 : Fin 2) * 1 + 1 * 0 = 0; omega
  rw [h2]
  congr 1
  exact Finset.sum_congr rfl fun k _ => by rw [h0 k, h1 k]; rfl

/-- An index of the output array is in point t's block iff each coordinate is in the block's range on its axis. -/
theorem mem_blk (t : Fin cfg0.N) (i : S100000x32.Idx) :
    i ∈ ((cfg0.win 3).blk t).view.set ↔ ∀ a : Fin 2, win0_3.index t a * S4000x32.size a ≤ (i a).val ∧ (i a).val < win0_3.index t a * S4000x32.size a + S4000x32.size a := by
  show i ∈ ((View.whole main_v12).slice (win0_3.rect t)).set ↔ _
  rw [View.set_slice_whole, Rect.mem_set_unit]
  exact Iff.rfl

/-- Every block of rows is some point's. -/
theorem idx_onto : ∀ q0 : Fin 25, ∃ t : Fin cfg0.N, win0_3.index t = ![q0.val, 0] :=
  (by decide +kernel : ∀ q0 : Fin 25, ∃ t : Fin grid0.N, win0_3.index t = ![q0.val, 0])

/-- The 25 blocks cover the output array: row r is in block r / 4000. -/
theorem cover (i : S100000x32.Idx) : ∃ t : Fin cfg0.N, (cfg0.win 3).flush t = true ∧ i ∈ ((cfg0.win 3).blk t).view.set := by
  have hi0 : (i 0).val < 100000 := (i 0).isLt
  have hi1 : (i 1).val < 32 := (i 1).isLt
  obtain ⟨t, ht⟩ := idx_onto ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 32 ≤ (i 1).val ∧ (i 1).val < win0_3.index t (1 : Fin 2) * 32 + 32; omega

/-- After the region its output array is `G0` of its input arrays as it found them. -/
theorem final (c : Dev nD) :
    (dat0 V c).arrAt 3 cfg0.N = G0 (V c main_arg0) (V c main_arg2) (V c main_v11) :=
  (dat0 V c).arrAt_eq_of_cover 3 _ (fun t _ => flushed_eq V c t) cover

end Cert.KernelIdeal.Reg0

end
-- ==== Proof.LayerBlock.lean ====
/-
  The hidden layer of one graph-convolution step on a block of rows.

  For tables a, s : [M, K] (the aggregated neighbours and the node's own scaled row), a column d : [M, 1] and a bias row
  b : [1, K], the hidden activation at (r, k) is
      max (d(r,0) · (a(r,k) + s(r,k)) + b(0,k), 0).
  Each entry depends on row r of the tables only, so the activation of a block of rows is that block of the
  activation.  The tiled program spells it with broadcasts of the column along the rows and of the bias row down the
  rows, and a comparison with a zero splat; read entry by entry that spelling is this function.  Any M and K.
-/
import proofs.«133357_j60670708023801_2_alg».proof.Proof.LibDense
import proofs.«133357_j60670708023801_2_alg».proof.Proof.LibLayout

noncomputable section

namespace Cert.LayerBlock

open Idealize.ShloMosaic Idealize.ShloMosaic.ValueIdx

variable {M K : ℕ}

/-- The hidden activation, entry by entry. -/
def hid (a s : (⟨2, ![M, K]⟩ : Shape).Idx → EReal) (d : (⟨2, ![M, 1]⟩ : Shape).Idx → EReal)
    (b : (⟨2, ![1, K]⟩ : Shape).Idx → EReal) : (⟨2, ![M, K]⟩ : Shape).Idx → EReal :=
  fun i => max (d (ix2 (i 0) (0 : Fin 1)) * (a i + s i) + b (ix2 (0 : Fin 1) (i 1))) Cert.Dense.zeroWord

theorem hid_apply (a s : (⟨2, ![M, K]⟩ : Shape).Idx → EReal) (d : (⟨2, ![M, 1]⟩ : Shape).Idx → EReal)
    (b : (⟨2, ![1, K]⟩ : Shape).Idx → EReal) (r : Fin M) (k : Fin K) :
    hid a s d b (ix2 r k)
      = max (d (ix2 r (0 : Fin 1)) * (a (ix2 r k) + s (ix2 r k)) + b (ix2 (0 : Fin 1) k)) Cert.Dense.zeroWord := rfl

/-- The block spelling — column broadcast along the rows times the sum of the two tables, plus the bias row broadcast
    down the rows, compared with a zero splat — is `hid`. -/
theorem block_eq (a s : FVec Ideal ⟨2, ![M, K]⟩ .f32) (d : FVec Ideal ⟨2, ![M, 1]⟩ .f32) (b : FVec Ideal ⟨2, ![1, K]⟩ .f32)
    (hd : (⟨2, ![M, 1]⟩ : Shape).Broadcasts ⟨2, ![M, K]⟩) (hb : (⟨2, ![1, K]⟩ : Shape).Broadcasts ⟨2, ![M, K]⟩) :
    maximumf (addf (mulf (broadcastTo ⟨2, ![M, K]⟩ d hd) (addf a s)) (broadcastTo ⟨2, ![M, K]⟩ b hb))
        (broadcast ⟨2, ![M, K]⟩ (Scalar.ofBits (F := Ideal) .f32 0x00000000#32))
      = hid a s d b := by
  funext i
  obtain ⟨r, k, rfl⟩ : ∃ (r : Fin M) (k : Fin K), i = ix2 r k := ⟨i 0, i 1, eq_ix2 i⟩
  rw [maximumf_apply, addf_apply, mulf_apply, addf_apply, Cert.Bridge.Layout.broadcastTo_a1_an_apply,
    broadcastTo_1b_ab_apply, hid_apply]
  rfl

end Cert.LayerBlock

end
-- ==== Proof.Region1.lean ====
/-
  Region 1: the first graph-convolution layer's dense step, scaled.

  The region walks 25 blocks of 4000 rows.  At block t it forms, for rows t·4000 … t·4000+3999, the hidden activation
      h(r, k) = max (d(r,0) · (A(r,k) + S(r,k)) + b(0,k), 0)
  of the aggregated neighbours A and the node's own scaled rows S : [100000, 32], the factor column d : [100000, 1] and
  the bias row b : [1, 32]; multiplies it by the whole W : [32, 32]; and scales row r of the product by d(r, 0) again.
  Each output entry depends on one row of A, S and d, so block t of the result is block t of the whole-array function
      (n, c) ↦ (∑ k, h(n, k) · W(k, c)) · d(n, 0),
  and the 25 blocks tile the 100000 rows: after the region the output array IS that function.
-/
import proofs.«133357_j60670708023801_2_alg».proof.Proof.Gen.KernelIdeal.Frame
import proofs.«133357_j60670708023801_2_alg».proof.Proof.LibDense
import proofs.«133357_j60670708023801_2_alg».proof.Proof.LibLayout
import proofs.«133357_j60670708023801_2_alg».proof.Proof.LayerBlock
import Idealize.ShloMosaic.Lib.Pipeline.Value
import Idealize.ShloMosaic.Lib.ValueIdx
import Idealize.ShloMosaic.Lib.ValueLayout

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-- The offsets of a whole-block access are all zero. -/
theorem hz : (![0, 0] : Fin 2 → Nat) = fun _ => 0 := funext fun a => by fin_cases a <;> rfl

/-- The region's result as one function of its five input arrays. -/
def G1 (A S : S100000x32.Idx → EReal) (D : S100000x1.Idx → EReal) (B : S1x32.Idx → EReal) (W : S32x32.Idx → EReal) : S100000x32.Idx → EReal :=
  fun i => Cert.Dense.matProd (Cert.LayerBlock.hid A S D B) W i * D (ix2 (i 0) (0 : Fin 1))

/-- The body's arithmetic on one block, entry (p, q): row p of the hidden block times W, scaled by the block's d(p, 0).
    The body reads the factor column twice; both reads are the same block. -/
theorem pay1 (x0 x1 : Vec Ideal S4000x32 .f32) (x2 : Vec Ideal S4000x1 .f32) (x3 : Vec Ideal S1x32 .f32) (x4 : Vec Ideal S32x32 .f32) (p : Fin 4000) (q : Fin 32) :
    k1_pay1 (F := Ideal) x0 x1 x2 x3 x4 x2 (ix2 p q) = Cert.Dense.matProd (Cert.LayerBlock.hid x0 x1 x2 x3) x4 (ix2 p q) * x2 (ix2 p (0 : Fin 1)) := by
  unfold k1_pay1
  simp only [shapeCast_self]
  rw [mulf_apply, Cert.LayerBlock.block_eq (M := 4000) (K := 32) x0 x1 x2 x3,
    Cert.Dense.matmul_zero_eq_matProd (M := 4000) (K := 32) (N := 32) dot_S4000x32_S32x32_S4000x32_1_0_0_1_n_n rfl _ x4,
    Cert.Bridge.Layout.broadcastTo_a1_an_apply]

/-- The printed index maps over the grid: the row-blocked windows move with the grid point, the others stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- What point t writes back is block t of `G1` of the arrays as the region finds them. -/
theorem flushed_eq (c : Dev nD) (t : Fin cfg1.N) :
    (dat1 V c).flushed 5 t = ((cfg1.win 5).blk t).view.read (Elt Ideal)
      (G1 (V c main_v22) (V c main_v12) (V c main_v11) (V c main_v23) (V c main_arg4)) := by
  show (cfg1.win 5).cut (grid1.coords t) ((dat1 V c).after 5 t) = _
  rw [after1_5]
  unfold out1_5
  rw [View.canon_unit_zero hz]
  simp only [View.ld_unit_zero (S := S4000x32) hz, View.ld_unit_zero (S := S4000x1) hz, View.ld_unit_zero (S := S1x32) hz,
    View.ld_unit_zero (S := S32x32) hz]
  obtain ⟨e00, e01, e10, e11, e20, e21, e30, e31, e40, e41, e50, e51⟩ := idx_facts t
  funext j
  obtain ⟨p, q, rfl⟩ : ∃ (p : Fin 4000) (q : Fin 32), j = ix2 p q := ⟨j 0, j 1, eq_ix2 j⟩
  refine (pay1 (iblk1 V c 0 t) (iblk1 V c 1 t) (iblk1 V c 2 t) (iblk1 V c 3 t) (iblk1 V c 4 t) p q).trans ?_
  show (∑ k : Fin 32, max ((id (V c main_v11) : S100000x1.Idx → EReal) (((cfg1.win 2).blk t).view.emb (ix2 p (0 : Fin 1)))
            * ((id (V c main_v22) : S100000x32.Idx → EReal) (((cfg1.win 0).blk t).view.emb (ix2 p k)) + (id (V c main_v12) : S100000x32.Idx → EReal) (((cfg1.win 1).blk t).view.emb (ix2 p k)))
            + (id (V c main_v23) : S1x32.Idx → EReal) (((cfg1.win 3).blk t).view.emb (ix2 (0 : Fin 1) k))) Cert.Dense.zeroWord
          * (id (V c main_arg4) : S32x32.Idx → EReal) (((cfg1.win 4).blk t).view.emb (ix2 k q)))
      * (id (V c main_v11) : S100000x1.Idx → EReal) (((cfg1.win 2).blk t).view.emb (ix2 p (0 : Fin 1)))
    = (∑ k : Fin 32, max ((id (V c main_v11) : S100000x1.Idx → EReal) (ix2 ((((cfg1.win 5).blk t).view.emb (ix2 p q)) 0) (0 : Fin 1))
            * ((id (V c main_v22) : S100000x32.Idx → EReal) (ix2 ((((cfg1.win 5).blk t).view.emb (ix2 p q)) 0) k) + (id (V c main_v12) : S100000x32.Idx → EReal) (ix2 ((((cfg1.win 5).blk t).view.emb (ix2 p q)) 0) k))
            + (id (V c main_v23) : S1x32.Idx → EReal) (ix2 (0 : Fin 1) k)) Cert.Dense.zeroWord
          * (id (V c main_arg4) : S32x32.Idx → EReal) (ix2 k ((((cfg1.win 5).blk t).view.emb (ix2 p q)) 1)))
      * (id (V c main_v11) : S100000x1.Idx → EReal) (ix2 ((((cfg1.win 5).blk t).view.emb (ix2 p q)) 0) (0 : Fin 1))
  have hp : p.val < 4000 := p.isLt
  have hq : q.val < 32 := q.isLt
  have h0 : ∀ k : Fin 32, ((cfg1.win 0).blk t).view.emb (ix2 p k) = ix2 ((((cfg1.win 5).blk t).view.emb (ix2 p q)) 0) k := by
    intro k; funext a; apply Fin.ext
    match a with
    | ⟨0, _⟩ => show win1_0.index t (0 : Fin 2) * 4000 + 1 * p.val = win1_5.index t (0 : Fin 2) * 4000 + 1 * p.val; omega
    | ⟨1, _⟩ => show win1_0.index t (1 : Fin 2) * 32 + 1 * k.val = k.val; omega
  have h1 : ∀ k : Fin 32, ((cfg1.win 1).blk t).view.emb (ix2 p k) = ix2 ((((cfg1.win 5).blk t).view.emb (ix2 p q)) 0) k := by
    intro k; funext a; apply Fin.ext
    match a with
    | ⟨0, _⟩ => show win1_1.index t (0 : Fin 2) * 4000 + 1 * p.val = win1_5.index t (0 : Fin 2) * 4000 + 1 * p.val; omega
    | ⟨1, _⟩ => show win1_1.index t (1 : Fin 2) * 32 + 1 * k.val = k.val; omega
  have h2 : ((cfg1.win 2).blk t).view.emb (ix2 p (0 : Fin 1)) = ix2 ((((cfg1.win 5).blk t).view.emb (ix2 p q)) 0) (0 : Fin 1) := by
    funext a; apply Fin.ext
    match a with
    | ⟨0, _⟩ => show win1_2.index t (0 : Fin 2) * 4000 + 1 * p.val = win1_5.index t (0 : Fin 2) * 4000 + 1 * p.val; omega
    | ⟨1, _⟩ => show win1_2.index t (1 : Fin 2) * 1 + 1 * 0 = 0; omega
  have h3 : ∀ k : Fin 32, ((cfg1.win 3).blk t).view.emb (ix2 (0 : Fin 1) k) = ix2 (0 : Fin 1) k := by
    intro k; funext a; apply Fin.ext
    match a with
    | ⟨0, _⟩ => show win1_3.index t (0 : Fin 2) * 1 + 1 * 0 = 0; omega
    | ⟨1, _⟩ => show win1_3.index t (1 : Fin 2) * 32 + 1 * k.val = k.val; omega
  have h4 : ∀ k : Fin 32, ((cfg1.win 4).blk t).view.emb (ix2 k q) = ix2 k ((((cfg1.win 5).blk t).view.emb (ix2 p q)) 1) := by
    intro k; funext a; apply Fin.ext
    match a with
    | ⟨0, _⟩ => show win1_4.index t (0 : Fin 2) * 32 + 1 * k.val = k.val; omega
    | ⟨1, _⟩ => show win1_4.index t (1 : Fin 2) * 32 + 1 * q.val = win1_5.index t (1 : Fin 2) * 32 + 1 * q.val; omega
  rw [h2]
  congr 1
  exact Finset.sum_congr rfl fun k _ => by rw [h0 k, h1 k, h3 k, h4 k]; rfl

/-- An index of the output array is in point t's block iff each coordinate is in the block's range on its axis. -/
theorem mem_blk (t : Fin cfg1.N) (i : S100000x32.Idx) :
    i ∈ ((cfg1.win 5).blk t).view.set ↔ ∀ a : Fin 2, win1_5.index t a * S4000x32.size a ≤ (i a).val ∧ (i a).val < win1_5.index t a * S4000x32.size a + S4000x32.size a := by
  show i ∈ ((View.whole main_v24).slice (win1_5.rect t)).set ↔ _
  rw [View.set_slice_whole, Rect.mem_set_unit]
  exact Iff.rfl

/-- Every block of rows is some point's. -/
theorem idx_onto : ∀ q0 : Fin 25, ∃ t : Fin cfg1.N, win1_5.index t = ![q0.val, 0] :=
  (by decide +kernel : ∀ q0 : Fin 25, ∃ t : Fin grid1.N, win1_5.index t = ![q0.val, 0])

/-- The 25 blocks cover the output array: row r is in block r / 4000. -/
theorem cover (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, ht⟩ := idx_onto ⟨(i 0).val / 4000, by omega⟩
  have q0 : win1_5.index t (0 : Fin 2) = (i 0).val / 4000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 32 ≤ (i 1).val ∧ (i 1).val < win1_5.index t (1 : Fin 2) * 32 + 32; omega

/-- After the region its output array is `G1` of its input arrays as it found them. -/
theorem final (c : Dev nD) :
    (dat1 V c).arrAt 5 cfg1.N = G1 (V c main_v22) (V c main_v12) (V c main_v11) (V c main_v23) (V c main_arg4) :=
  (dat1 V c).arrAt_eq_of_cover 5 _ (fun t _ => flushed_eq V c t) cover

end Cert.KernelIdeal.Reg1

end
-- ==== Proof.Region2.lean ====
/-
  Region 2: the second graph-convolution layer's hidden step and the head.

  The region walks 25 blocks of 4000 rows.  At block t it forms, for rows t·4000 … t·4000+3999, the hidden activation
      h(r, k) = max (d(r,0) · (A(r,k) + S(r,k)) + b(0,k), 0)
  of the aggregated neighbours A and the node's own scaled rows S : [100000, 32], the factor column d : [100000, 1] and
  the bias row b : [1, 32]; multiplies it by the whole padded head matrix W : [32, 128]; and adds the padded head bias
  row bb : [1, 128] down the rows.  Each output entry depends on one row of A, S and d, so block t of the result is
  block t of the whole-array function
      (n, c) ↦ (∑ k, h(n, k) · W(k, c)) + bb(0, c),
  and the 25 blocks tile the 100000 rows: after the region the output array IS that function.
-/
import proofs.«133357_j60670708023801_2_alg».proof.Proof.Gen.KernelIdeal.Frame
import proofs.«133357_j60670708023801_2_alg».proof.Proof.LibDense
import proofs.«133357_j60670708023801_2_alg».proof.Proof.LibLayout
import proofs.«133357_j60670708023801_2_alg».proof.Proof.LayerBlock
import Idealize.ShloMosaic.Lib.Pipeline.Value
import Idealize.ShloMosaic.Lib.ValueIdx
import Idealize.ShloMosaic.Lib.ValueLayout

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-- The offsets of a whole-block access are all zero. -/
theorem hz : (![0, 0] : Fin 2 → Nat) = fun _ => 0 := funext fun a => by fin_cases a <;> rfl

/-- The region's result as one function of its six input arrays. -/
def G2 (A S : S100000x32.Idx → EReal) (D : S100000x1.Idx → EReal) (B : S1x32.Idx → EReal) (W : S32x128.Idx → EReal) (BB : S1x128.Idx → EReal) : S100000x128.Idx → EReal :=
  fun i => Cert.Dense.matProd (Cert.LayerBlock.hid A S D B) W i + BB (ix2 (0 : Fin 1) (i 1))

/-- The body's arithmetic on one block, entry (p, q): row p of the hidden block times W, plus the bias row at q. -/
theorem pay2 (x0 x1 : Vec Ideal S4000x32 .f32) (x2 : Vec Ideal S4000x1 .f32) (x3 : Vec Ideal S1x32 .f32) (x4 : Vec Ideal S32x128 .f32) (x5 : Vec Ideal S1x128 .f32) (p : Fin 4000) (q : Fin 128) :
    k2_pay1 (F := Ideal) x0 x1 x2 x3 x4 x5 (ix2 p q) = Cert.Dense.matProd (Cert.LayerBlock.hid x0 x1 x2 x3) x4 (ix2 p q) + x5 (ix2 (0 : Fin 1) q) := by
  unfold k2_pay1
  simp only [shapeCast_self]
  rw [addf_apply, Cert.LayerBlock.block_eq (M := 4000) (K := 32) x0 x1 x2 x3,
    Cert.Dense.matmul_zero_eq_matProd (M := 4000) (K := 32) (N := 128) dot_S4000x32_S32x128_S4000x128_1_0_0_1_n_n rfl _ x4,
    broadcastTo_1b_ab_apply]

/-- The printed index maps over the grid: the row-blocked windows move with the grid point, the others stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

set_option maxHeartbeats 1000000 in
/-- What point t writes back is block t of `G2` of the arrays as the region finds them. -/
theorem flushed_eq (c : Dev nD) (t : Fin cfg2.N) :
    (dat2 V c).flushed 6 t = ((cfg2.win 6).blk t).view.read (Elt Ideal)
      (G2 (V c main_v34) (V c main_v24) (V c main_v11) (V c main_v38) (V c main_v35) (V c main_v37)) := by
  show (cfg2.win 6).cut (grid2.coords t) ((dat2 V c).after 6 t) = _
  rw [after2_6]
  unfold out2_6
  rw [View.canon_unit_zero hz]
  simp only [View.ld_unit_zero (S := S4000x32) hz, View.ld_unit_zero (S := S4000x1) hz, View.ld_unit_zero (S := S1x32) hz,
    View.ld_unit_zero (S := S32x128) hz, View.ld_unit_zero (S := S1x128) hz]
  obtain ⟨e00, e01, e10, e11, e20, e21, e30, e31, e40, e41, e50, e51, e60, e61⟩ := idx_facts t
  funext j
  obtain ⟨p, q, rfl⟩ : ∃ (p : Fin 4000) (q : Fin 128), j = ix2 p q := ⟨j 0, j 1, eq_ix2 j⟩
  refine (pay2 (iblk2 V c 0 t) (iblk2 V c 1 t) (iblk2 V c 2 t) (iblk2 V c 3 t) (iblk2 V c 4 t) (iblk2 V c 5 t) p q).trans ?_
  show (∑ k : Fin 32, max ((id (V c main_v11) : S100000x1.Idx → EReal) (((cfg2.win 2).blk t).view.emb (ix2 p (0 : Fin 1)))
            * ((id (V c main_v34) : S100000x32.Idx → EReal) (((cfg2.win 0).blk t).view.emb (ix2 p k)) + (id (V c main_v24) : S100000x32.Idx → EReal) (((cfg2.win 1).blk t).view.emb (ix2 p k)))
            + (id (V c main_v38) : S1x32.Idx → EReal) (((cfg2.win 3).blk t).view.emb (ix2 (0 : Fin 1) k))) Cert.Dense.zeroWord
          * (id (V c main_v35) : S32x128.Idx → EReal) (((cfg2.win 4).blk t).view.emb (ix2 k q)))
      + (id (V c main_v37) : S1x128.Idx → EReal) (((cfg2.win 5).blk t).view.emb (ix2 (0 : Fin 1) q))
    = (∑ k : Fin 32, max ((id (V c main_v11) : S100000x1.Idx → EReal) (ix2 ((((cfg2.win 6).blk t).view.emb (ix2 p q)) 0) (0 : Fin 1))
            * ((id (V c main_v34) : S100000x32.Idx → EReal) (ix2 ((((cfg2.win 6).blk t).view.emb (ix2 p q)) 0) k) + (id (V c main_v24) : S100000x32.Idx → EReal) (ix2 ((((cfg2.win 6).blk t).view.emb (ix2 p q)) 0) k))
            + (id (V c main_v38) : S1x32.Idx → EReal) (ix2 (0 : Fin 1) k)) Cert.Dense.zeroWord
          * (id (V c main_v35) : S32x128.Idx → EReal) (ix2 k ((((cfg2.win 6).blk t).view.emb (ix2 p q)) 1)))
      + (id (V c main_v37) : S1x128.Idx → EReal) (ix2 (0 : Fin 1) ((((cfg2.win 6).blk t).view.emb (ix2 p q)) 1))
  have hp : p.val < 4000 := p.isLt
  have hq : q.val < 128 := q.isLt
  have h0 : ∀ k : Fin 32, ((cfg2.win 0).blk t).view.emb (ix2 p k) = ix2 ((((cfg2.win 6).blk t).view.emb (ix2 p q)) 0) k := by
    intro k; funext a; apply Fin.ext
    match a with
    | ⟨0, _⟩ => show win2_0.index t (0 : Fin 2) * 4000 + 1 * p.val = win2_6.index t (0 : Fin 2) * 4000 + 1 * p.val; omega
    | ⟨1, _⟩ => show win2_0.index t (1 : Fin 2) * 32 + 1 * k.val = k.val; omega
  have h1 : ∀ k : Fin 32, ((cfg2.win 1).blk t).view.emb (ix2 p k) = ix2 ((((cfg2.win 6).blk t).view.emb (ix2 p q)) 0) k := by
    intro k; funext a; apply Fin.ext
    match a with
    | ⟨0, _⟩ => show win2_1.index t (0 : Fin 2) * 4000 + 1 * p.val = win2_6.index t (0 : Fin 2) * 4000 + 1 * p.val; omega
    | ⟨1, _⟩ => show win2_1.index t (1 : Fin 2) * 32 + 1 * k.val = k.val; omega
  have h2 : ((cfg2.win 2).blk t).view.emb (ix2 p (0 : Fin 1)) = ix2 ((((cfg2.win 6).blk t).view.emb (ix2 p q)) 0) (0 : Fin 1) := by
    funext a; apply Fin.ext
    match a with
    | ⟨0, _⟩ => show win2_2.index t (0 : Fin 2) * 4000 + 1 * p.val = win2_6.index t (0 : Fin 2) * 4000 + 1 * p.val; omega
    | ⟨1, _⟩ => show win2_2.index t (1 : Fin 2) * 1 + 1 * 0 = 0; omega
  have h3 : ∀ k : Fin 32, ((cfg2.win 3).blk t).view.emb (ix2 (0 : Fin 1) k) = ix2 (0 : Fin 1) k := by
    intro k; funext a; apply Fin.ext
    match a with
    | ⟨0, _⟩ => show win2_3.index t (0 : Fin 2) * 1 + 1 * 0 = 0; omega
    | ⟨1, _⟩ => show win2_3.index t (1 : Fin 2) * 32 + 1 * k.val = k.val; omega
  have h4 : ∀ k : Fin 32, ((cfg2.win 4).blk t).view.emb (ix2 k q) = ix2 k ((((cfg2.win 6).blk t).view.emb (ix2 p q)) 1) := by
    intro k; funext a; apply Fin.ext
    match a with
    | ⟨0, _⟩ => show win2_4.index t (0 : Fin 2) * 32 + 1 * k.val = k.val; omega
    | ⟨1, _⟩ => show win2_4.index t (1 : Fin 2) * 128 + 1 * q.val = win2_6.index t (1 : Fin 2) * 128 + 1 * q.val; omega
  have h5 : ((cfg2.win 5).blk t).view.emb (ix2 (0 : Fin 1) q) = ix2 (0 : Fin 1) ((((cfg2.win 6).blk t).view.emb (ix2 p q)) 1) := by
    funext a; apply Fin.ext
    match a with
    | ⟨0, _⟩ => show win2_5.index t (0 : Fin 2) * 1 + 1 * 0 = 0; omega
    | ⟨1, _⟩ => show win2_5.index t (1 : Fin 2) * 128 + 1 * q.val = win2_6.index t (1 : Fin 2) * 128 + 1 * q.val; omega
  rw [h2, h5]
  congr 1
  exact Finset.sum_congr rfl fun k _ => by rw [h0 k, h1 k, h3 k, h4 k]; rfl

/-- An index of the output array is in point t's block iff each coordinate is in the block's range on its axis. -/
theorem mem_blk (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v39).slice (win2_6.rect t)).set ↔ _
  rw [View.set_slice_whole, Rect.mem_set_unit]
  exact Iff.rfl

/-- Every block of rows is some point's. -/
theorem idx_onto : ∀ q0 : Fin 25, ∃ t : Fin cfg2.N, win2_6.index t = ![q0.val, 0] :=
  (by decide +kernel : ∀ q0 : Fin 25, ∃ t : Fin grid2.N, win2_6.index t = ![q0.val, 0])

/-- The 25 blocks cover the output array: row r is in block r / 4000. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ := idx_onto ⟨(i 0).val / 4000, by omega⟩
  have q0 : win2_6.index t (0 : Fin 2) = (i 0).val / 4000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 128 ≤ (i 1).val ∧ (i 1).val < win2_6.index t (1 : Fin 2) * 128 + 128; omega

/-- After the region its output array is `G2` of its input arrays as it found them. -/
theorem final (c : Dev nD) :
    (dat2 V c).arrAt 6 cfg2.N = G2 (V c main_v34) (V c main_v24) (V c main_v11) (V c main_v38) (V c main_v35) (V c main_v37) :=
  (dat2 V c).arrAt_eq_of_cover 6 _ (fun t _ => flushed_eq V c t) cover

end Cert.KernelIdeal.Reg2

end
-- ==== Proof.KFold.lean ====
/-
  The idealized kernel's buffers, boundary by boundary.

  Between the launch and the return the program alternates stretches of host operations and tiled regions.  A stretch
  leaves each buffer it computes at its operation's value of the buffers it reads and every other buffer alone; a
  region leaves its output array at one whole-array function of its input arrays and every other buffer alone.
  Walking from the return back to the launch this names the result as a composition over the launch memory:
      result = column 0 of  G2 (agg (G1 (agg (G0 x W1 d)) (G0 x W1 d) d b1 W2)) (G1 …) d b2 Wf' bf'),
  with d the factor column of the first stretch, agg the lookup-and-accumulate of a table along the edges, and
  Wf', bf' the head's weights and bias padded with zero columns.
-/
import proofs.«133357_j60670708023801_2_alg».proof.Proof.KDeg
import proofs.«133357_j60670708023801_2_alg».proof.Proof.Region0
import proofs.«133357_j60670708023801_2_alg».proof.Proof.Region1
import proofs.«133357_j60670708023801_2_alg».proof.Proof.Region2

set_option maxRecDepth 16384

noncomputable section

namespace Cert.KernelIdeal.KVal

open Cert.KernelIdeal Cert.KernelIdeal.Gen Cert.Gcn Cert.KernelIdeal.KWords
open Idealize.ShloMosaic Idealize.ShloMosaic.TcCoe Idealize.ShloMosaic.ValueIdx Idealize.SL.Sem Idealize.ShloMosaic.StableHlo
open scoped BigOperators

/-- The source words of the edges, flattened. -/
def flat0 (ei : S2x2000000.Idx → BitVec 32) : S2000000.Idx → BitVec 32 :=
  shapeCast S2000000 (extractStridedSlice S1x2000000 ![0, 0] ei slices_S2x2000000_S1x2000000_0_0) shapeCasts_S1x2000000_S2000000
/-- The target words of the edges, flattened. -/
def flat1 (ei : S2x2000000.Idx → BitVec 32) : S2000000.Idx → BitVec 32 :=
  shapeCast S2000000 (extractStridedSlice S1x2000000 ![1, 0] ei slices_S2x2000000_S1x2000000_1_0) shapeCasts_S1x2000000_S2000000

/-- The source words as a lookup's index column: negative words wrapped. -/
def srcColOf (v1 : S2000000.Idx → BitVec 32) : S2000000x1.Idx → BitVec 32 :=
  broadcastInDim S2000000x1 ![0] bcast_S2000000_S2000000x1_0
    (select (cmpi .slt v1 (broadcastInDim S2000000 ![] bcast_S_S2000000 (constantI S_ 32 0#32)))
      (addi v1 (broadcastInDim S2000000 ![] bcast_S_S2000000 (constantI S_ 32 100000#32))) v1)
/-- The target words as a scatter's index column. -/
def dstColOf (v3 : S2000000.Idx → BitVec 32) : S2000000x1.Idx → BitVec 32 :=
  broadcastInDim S2000000x1 ![0] bcast_S2000000_S2000000x1_0 v3

/-- Lookup the rows of a table along the edges' sources and accumulate them at the edges' targets, into zeros. -/
def aggOf (T : S100000x32.Idx → EReal) (v1 v3 : S2000000.Idx → BitVec 32) : S100000x32.Idx → EReal :=
  Host.scatterAdd (F := Ideal) (φ := .f32) scatter_S100000x32_S2000000x1_S2000000x32_1_0_0_1
    (broadcastInDim S100000x32 ![] bcast_S_S100000x32 (constant (F := Ideal) S_ .f32 0x00000000#32)) (dstColOf v3)
    (Host.gather gather_S100000x32_S2000000x1_S2000000x32_1_0_n_n_0_1_132 T (srcColOf v1))

variable (m : (ℓ : Loc nD τ sig) → Buf (Elt Ideal) ℓ) (ρ : Dev nD → PrngReg)

/-- The float arguments on core `c`, as launched. -/
def xOf (c : Dev nD) : S100000x8.Idx → EReal := m ((c : Thread nD τ).loc main_arg0)
def w1Of (c : Dev nD) : S8x32.Idx → EReal := m ((c : Thread nD τ).loc main_arg2)
def b1Of (c : Dev nD) : S32.Idx → EReal := m ((c : Thread nD τ).loc main_arg3)
def w2Of (c : Dev nD) : S32x32.Idx → EReal := m ((c : Thread nD τ).loc main_arg4)
def b2Of (c : Dev nD) : S32.Idx → EReal := m ((c : Thread nD τ).loc main_arg5)
def wfOf (c : Dev nD) : S32x1.Idx → EReal := m ((c : Thread nD τ).loc main_arg6)
def bfOf (c : Dev nD) : S1.Idx → EReal := m ((c : Thread nD τ).loc main_arg7)

/-- The factor column (the first stretch's result). -/
def dOf (c : Dev nD) : S100000x1.Idx → EReal := id (W1 m ρ c (Proc.devRef .tc main_v11))

/-! ## After the first stretch (region 0's entry) -/

theorem W1_arg0 (c : Dev nD) : (id (W1 m ρ c (Proc.devRef .tc main_arg0)) : S100000x8.Idx → EReal) = xOf m c := by
  show StableHlo.after hostOps0 (W0 m ρ c) (Proc.devRef .tc main_arg0) = _
  after_results
  rfl
theorem W1_arg2 (c : Dev nD) : (id (W1 m ρ c (Proc.devRef .tc main_arg2)) : S8x32.Idx → EReal) = w1Of m c := by
  show StableHlo.after hostOps0 (W0 m ρ c) (Proc.devRef .tc main_arg2) = _
  after_results
  rfl
theorem W1_arg3 (c : Dev nD) : (id (W1 m ρ c (Proc.devRef .tc main_arg3)) : S32.Idx → EReal) = b1Of m c := by
  show StableHlo.after hostOps0 (W0 m ρ c) (Proc.devRef .tc main_arg3) = _
  after_results
  rfl
theorem W1_arg4 (c : Dev nD) : (id (W1 m ρ c (Proc.devRef .tc main_arg4)) : S32x32.Idx → EReal) = w2Of m c := by
  show StableHlo.after hostOps0 (W0 m ρ c) (Proc.devRef .tc main_arg4) = _
  after_results
  rfl
theorem W1_arg5 (c : Dev nD) : (id (W1 m ρ c (Proc.devRef .tc main_arg5)) : S32.Idx → EReal) = b2Of m c := by
  show StableHlo.after hostOps0 (W0 m ρ c) (Proc.devRef .tc main_arg5) = _
  after_results
  rfl
theorem W1_arg6 (c : Dev nD) : (id (W1 m ρ c (Proc.devRef .tc main_arg6)) : S32x1.Idx → EReal) = wfOf m c := by
  show StableHlo.after hostOps0 (W0 m ρ c) (Proc.devRef .tc main_arg6) = _
  after_results
  rfl
theorem W1_arg7 (c : Dev nD) : (id (W1 m ρ c (Proc.devRef .tc main_arg7)) : S1.Idx → EReal) = bfOf m c := by
  show StableHlo.after hostOps0 (W0 m ρ c) (Proc.devRef .tc main_arg7) = _
  after_results
  rfl
theorem W1_v1 (c : Dev nD) : (id (W1 m ρ c (Proc.devRef .tc main_v1)) : S2000000.Idx → BitVec 32) = flat0 (eiOf m c) := by
  show StableHlo.after hostOps0 (W0 m ρ c) (Proc.devRef .tc main_v1) = _
  after_results
  rfl
theorem W1_v3 (c : Dev nD) : (id (W1 m ρ c (Proc.devRef .tc main_v3)) : S2000000.Idx → BitVec 32) = flat1 (eiOf m c) := by
  show StableHlo.after hostOps0 (W0 m ρ c) (Proc.devRef .tc main_v3) = _
  after_results
  rfl

/-! ## Region 0 and the second stretch (region 1's entry) -/

/-- Region 0's output: the scaled projection. -/
def ls1Of (c : Dev nD) : S100000x32.Idx → EReal := Reg0.G0 (xOf m c) (w1Of m c) (dOf m ρ c)

theorem W2_v12 (c : Dev nD) : (id (W2 m ρ c (Proc.devRef .tc main_v12)) : S100000x32.Idx → EReal) = ls1Of m ρ c := by
  have h := (W2_arr m ρ c 3).trans (Reg0.final (V1 m ρ) c)
  refine h.trans ?_
  unfold ls1Of
  exact congrArg₂ (fun X W => Reg0.G0 X W (dOf m ρ c)) (W1_arg0 m ρ c) (W1_arg2 m ρ c)

/-- An input array of region 0 leaves the region as it entered. -/
theorem W2_v11 (c : Dev nD) : (id (W2 m ρ c (Proc.devRef .tc main_v11)) : S100000x1.Idx → EReal) = dOf m ρ c :=
  (W2_arr m ρ c 2).trans (((dat0 (V1 m ρ) c).arrAt_in 2 rfl _).trans (A_eq0 (V1 m ρ) c 2))

theorem W2_v1 (c : Dev nD) : (id (W2 m ρ c (Proc.devRef .tc main_v1)) : S2000000.Idx → BitVec 32) = flat0 (eiOf m c) :=
  (W2_of_ne m ρ c main_v1 (by decide)).trans (W1_v1 m ρ c)
theorem W2_v3 (c : Dev nD) : (id (W2 m ρ c (Proc.devRef .tc main_v3)) : S2000000.Idx → BitVec 32) = flat1 (eiOf m c) :=
  (W2_of_ne m ρ c main_v3 (by decide)).trans (W1_v3 m ρ c)
theorem W2_arg3 (c : Dev nD) : (id (W2 m ρ c (Proc.devRef .tc main_arg3)) : S32.Idx → EReal) = b1Of m c :=
  (W2_of_ne m ρ c main_arg3 (by decide)).trans (W1_arg3 m ρ c)
theorem W2_arg4 (c : Dev nD) : (id (W2 m ρ c (Proc.devRef .tc main_arg4)) : S32x32.Idx → EReal) = w2Of m c :=
  (W2_of_ne m ρ c main_arg4 (by decide)).trans (W1_arg4 m ρ c)
theorem W2_arg5 (c : Dev nD) : (id (W2 m ρ c (Proc.devRef .tc main_arg5)) : S32.Idx → EReal) = b2Of m c :=
  (W2_of_ne m ρ c main_arg5 (by decide)).trans (W1_arg5 m ρ c)
theorem W2_arg6 (c : Dev nD) : (id (W2 m ρ c (Proc.devRef .tc main_arg6)) : S32x1.Idx → EReal) = wfOf m c :=
  (W2_of_ne m ρ c main_arg6 (by decide)).trans (W1_arg6 m ρ c)
theorem W2_arg7 (c : Dev nD) : (id (W2 m ρ c (Proc.devRef .tc main_arg7)) : S1.Idx → EReal) = bfOf m c :=
  (W2_of_ne m ρ c main_arg7 (by decide)).trans (W1_arg7 m ρ c)

/-- The first aggregation. -/
def agg1Of (c : Dev nD) : S100000x32.Idx → EReal := aggOf (ls1Of m ρ c) (flat0 (eiOf m c)) (flat1 (eiOf m c))

theorem W3_v22 (c : Dev nD) : (id (W3 m ρ c (Proc.devRef .tc main_v22)) : S100000x32.Idx → EReal) = agg1Of m ρ c := by
  have e : (id (W3 m ρ c (Proc.devRef .tc main_v22)) : S100000x32.Idx → EReal)
      = aggOf (id (W2 m ρ c (Proc.devRef .tc main_v12))) (id (W2 m ρ c (Proc.devRef .tc main_v1))) (id (W2 m ρ c (Proc.devRef .tc main_v3))) := by
    show StableHlo.after hostOps1 (W2 m ρ c) (Proc.devRef .tc main_v22) = _
    after_results
    rfl
  rw [e, W2_v12, W2_v1, W2_v3]
  rfl
theorem W3_v12 (c : Dev nD) : (id (W3 m ρ c (Proc.devRef .tc main_v12)) : S100000x32.Idx → EReal) = ls1Of m ρ c := by
  refine Eq.trans ?_ (W2_v12 m ρ c)
  show StableHlo.after hostOps1 (W2 m ρ c) (Proc.devRef .tc main_v12) = _
  after_results
  rfl
theorem W3_v11 (c : Dev nD) : (id (W3 m ρ c (Proc.devRef .tc main_v11)) : S100000x1.Idx → EReal) = dOf m ρ c := by
  refine Eq.trans ?_ (W2_v11 m ρ c)
  show StableHlo.after hostOps1 (W2 m ρ c) (Proc.devRef .tc main_v11) = _
  after_results
  rfl
theorem W3_v23 (c : Dev nD) : (id (W3 m ρ c (Proc.devRef .tc main_v23)) : S1x32.Idx → EReal) = shapeCast S1x32 (b1Of m c) shapeCasts_S32_S1x32 := by
  have e : (id (W3 m ρ c (Proc.devRef .tc main_v23)) : S1x32.Idx → EReal)
      = shapeCast S1x32 (id (W2 m ρ c (Proc.devRef .tc main_arg3)) : S32.Idx → EReal) shapeCasts_S32_S1x32 := by
    show StableHlo.after hostOps1 (W2 m ρ c) (Proc.devRef .tc main_v23) = _
    after_results
    rfl
  rw [e, W2_arg3]
theorem W3_arg4 (c : Dev nD) : (id (W3 m ρ c (Proc.devRef .tc main_arg4)) : S32x32.Idx → EReal) = w2Of m c := by
  refine Eq.trans ?_ (W2_arg4 m ρ c)
  show StableHlo.after hostOps1 (W2 m ρ c) (Proc.devRef .tc main_arg4) = _
  after_results
  rfl
theorem W3_v1 (c : Dev nD) : (id (W3 m ρ c (Proc.devRef .tc main_v1)) : S2000000.Idx → BitVec 32) = flat0 (eiOf m c) := by
  refine Eq.trans ?_ (W2_v1 m ρ c)
  show StableHlo.after hostOps1 (W2 m ρ c) (Proc.devRef .tc main_v1) = _
  after_results
  rfl
theorem W3_v3 (c : Dev nD) : (id (W3 m ρ c (Proc.devRef .tc main_v3)) : S2000000.Idx → BitVec 32) = flat1 (eiOf m c) := by
  refine Eq.trans ?_ (W2_v3 m ρ c)
  show StableHlo.after hostOps1 (W2 m ρ c) (Proc.devRef .tc main_v3) = _
  after_results
  rfl
theorem W3_arg5 (c : Dev nD) : (id (W3 m ρ c (Proc.devRef .tc main_arg5)) : S32.Idx → EReal) = b2Of m c := by
  refine Eq.trans ?_ (W2_arg5 m ρ c)
  show StableHlo.after hostOps1 (W2 m ρ c) (Proc.devRef .tc main_arg5) = _
  after_results
  rfl
theorem W3_arg6 (c : Dev nD) : (id (W3 m ρ c (Proc.devRef .tc main_arg6)) : S32x1.Idx → EReal) = wfOf m c := by
  refine Eq.trans ?_ (W2_arg6 m ρ c)
  show StableHlo.after hostOps1 (W2 m ρ c) (Proc.devRef .tc main_arg6) = _
  after_results
  rfl
theorem W3_arg7 (c : Dev nD) : (id (W3 m ρ c (Proc.devRef .tc main_arg7)) : S1.Idx → EReal) = bfOf m c := by
  refine Eq.trans ?_ (W2_arg7 m ρ c)
  show StableHlo.after hostOps1 (W2 m ρ c) (Proc.devRef .tc main_arg7) = _
  after_results
  rfl

/-! ## Region 1 -/

/-- Region 1's output: the second layer's scaled projection of the first layer's activation. -/
def ls2Of (c : Dev nD) : S100000x32.Idx → EReal :=
  Reg1.G1 (agg1Of m ρ c) (ls1Of m ρ c) (dOf m ρ c) (shapeCast S1x32 (b1Of m c) shapeCasts_S32_S1x32) (w2Of m c)

theorem W4_v24 (c : Dev nD) : (id (W4 m ρ c (Proc.devRef .tc main_v24)) : S100000x32.Idx → EReal) = ls2Of m ρ c := by
  have h := (W4_arr m ρ c 5).trans (Reg1.final (V3 m ρ) c)
  refine h.trans ?_
  unfold ls2Of
  rw [← W3_v22 m ρ c, ← W3_v12 m ρ c, ← W3_v11 m ρ c, ← W3_v23 m ρ c, ← W3_arg4 m ρ c]
  rfl

/-! ## The third stretch (region 2's entry) -/

theorem W4_v11 (c : Dev nD) : (id (W4 m ρ c (Proc.devRef .tc main_v11)) : S100000x1.Idx → EReal) = dOf m ρ c :=
  ((W4_arr m ρ c 2).trans (((dat1 (V3 m ρ) c).arrAt_in 2 rfl _).trans (A_eq1 (V3 m ρ) c 2))).trans (W3_v11 m ρ c)
theorem W4_v1 (c : Dev nD) : (id (W4 m ρ c (Proc.devRef .tc main_v1)) : S2000000.Idx → BitVec 32) = flat0 (eiOf m c) :=
  (W4_of_ne m ρ c main_v1 (by decide)).trans (W3_v1 m ρ c)
theorem W4_v3 (c : Dev nD) : (id (W4 m ρ c (Proc.devRef .tc main_v3)) : S2000000.Idx → BitVec 32) = flat1 (eiOf m c) :=
  (W4_of_ne m ρ c main_v3 (by decide)).trans (W3_v3 m ρ c)
theorem W4_arg5 (c : Dev nD) : (id (W4 m ρ c (Proc.devRef .tc main_arg5)) : S32.Idx → EReal) = b2Of m c :=
  (W4_of_ne m ρ c main_arg5 (by decide)).trans (W3_arg5 m ρ c)
theorem W4_arg6 (c : Dev nD) : (id (W4 m ρ c (Proc.devRef .tc main_arg6)) : S32x1.Idx → EReal) = wfOf m c :=
  (W4_of_ne m ρ c main_arg6 (by decide)).trans (W3_arg6 m ρ c)
theorem W4_arg7 (c : Dev nD) : (id (W4 m ρ c (Proc.devRef .tc main_arg7)) : S1.Idx → EReal) = bfOf m c :=
  (W4_of_ne m ρ c main_arg7 (by decide)).trans (W3_arg7 m ρ c)

/-- The second aggregation. -/
def agg2Of (c : Dev nD) : S100000x32.Idx → EReal := aggOf (ls2Of m ρ c) (flat0 (eiOf m c)) (flat1 (eiOf m c))

/-- The head's weights, padded with 127 zero columns. -/
def wfPadOf (c : Dev nD) : S32x128.Idx → EReal :=
  pad S32x128 ![0, 0] ![0, 127] ![0, 0] (wfOf m c) (sitofp (F := Ideal) .f32 (constantI S_ 32 0#32)) pads_S32x1_S32x128_000_01270 h_S_
/-- The head's bias as a one-row matrix, padded with 127 zero columns. -/
def bfPadOf (c : Dev nD) : S1x128.Idx → EReal :=
  pad S1x128 ![0, 0] ![0, 127] ![0, 0] (shapeCast S1x1 (bfOf m c) shapeCasts_S1_S1x1) (sitofp (F := Ideal) .f32 (constantI S_ 32 0#32)) pads_S1x1_S1x128_000_01270 h_S_

theorem W9_v34 (c : Dev nD) : (id (W9 m ρ c (Proc.devRef .tc main_v34)) : S100000x32.Idx → EReal) = agg2Of m ρ c := by
  have e : (id (W9 m ρ c (Proc.devRef .tc main_v34)) : S100000x32.Idx → EReal)
      = aggOf (id (W4 m ρ c (Proc.devRef .tc main_v24))) (id (W4 m ρ c (Proc.devRef .tc main_v1))) (id (W4 m ρ c (Proc.devRef .tc main_v3))) := by
    show StableHlo.after hostOps2_4 (StableHlo.after hostOps2_3 (StableHlo.after hostOps2_2 (StableHlo.after hostOps2_1
      (StableHlo.after hostOps2 (W4 m ρ c))))) (Proc.devRef .tc main_v34) = _
    after_results
    rfl
  rw [e, W4_v24, W4_v1, W4_v3]
  rfl
theorem W9_v24 (c : Dev nD) : (id (W9 m ρ c (Proc.devRef .tc main_v24)) : S100000x32.Idx → EReal) = ls2Of m ρ c := by
  refine Eq.trans ?_ (W4_v24 m ρ c)
  show StableHlo.after hostOps2_4 (StableHlo.after hostOps2_3 (StableHlo.after hostOps2_2 (StableHlo.after hostOps2_1
    (StableHlo.after hostOps2 (W4 m ρ c))))) (Proc.devRef .tc main_v24) = _
  after_results
  rfl
theorem W9_v11 (c : Dev nD) : (id (W9 m ρ c (Proc.devRef .tc main_v11)) : S100000x1.Idx → EReal) = dOf m ρ c := by
  refine Eq.trans ?_ (W4_v11 m ρ c)
  show StableHlo.after hostOps2_4 (StableHlo.after hostOps2_3 (StableHlo.after hostOps2_2 (StableHlo.after hostOps2_1
    (StableHlo.after hostOps2 (W4 m ρ c))))) (Proc.devRef .tc main_v11) = _
  after_results
  rfl
theorem W9_v38 (c : Dev nD) : (id (W9 m ρ c (Proc.devRef .tc main_v38)) : S1x32.Idx → EReal) = shapeCast S1x32 (b2Of m c) shapeCasts_S32_S1x32 := by
  have e : (id (W9 m ρ c (Proc.devRef .tc main_v38)) : S1x32.Idx → EReal)
      = shapeCast S1x32 (id (W4 m ρ c (Proc.devRef .tc main_arg5)) : S32.Idx → EReal) shapeCasts_S32_S1x32 := by
    show StableHlo.after hostOps2_4 (StableHlo.after hostOps2_3 (StableHlo.after hostOps2_2 (StableHlo.after hostOps2_1
      (StableHlo.after hostOps2 (W4 m ρ c))))) (Proc.devRef .tc main_v38) = _
    after_results
    rfl
  rw [e, W4_arg5]
theorem W9_v35 (c : Dev nD) : (id (W9 m ρ c (Proc.devRef .tc main_v35)) : S32x128.Idx → EReal) = wfPadOf m c := by
  have e : (id (W9 m ρ c (Proc.devRef .tc main_v35)) : S32x128.Idx → EReal)
      = pad S32x128 ![0, 0] ![0, 127] ![0, 0] (id (W4 m ρ c (Proc.devRef .tc main_arg6)) : S32x1.Idx → EReal)
          (sitofp (F := Ideal) .f32 (constantI S_ 32 0#32)) pads_S32x1_S32x128_000_01270 h_S_ := by
    show StableHlo.after hostOps2_4 (StableHlo.after hostOps2_3 (StableHlo.after hostOps2_2 (StableHlo.after hostOps2_1
      (StableHlo.after hostOps2 (W4 m ρ c))))) (Proc.devRef .tc main_v35) = _
    after_results
    rfl
  rw [e, W4_arg6]
  rfl
theorem W9_v37 (c : Dev nD) : (id (W9 m ρ c (Proc.devRef .tc main_v37)) : S1x128.Idx → EReal) = bfPadOf m c := by
  have e : (id (W9 m ρ c (Proc.devRef .tc main_v37)) : S1x128.Idx → EReal)
      = pad S1x128 ![0, 0] ![0, 127] ![0, 0] (shapeCast S1x1 (id (W4 m ρ c (Proc.devRef .tc main_arg7)) : S1.Idx → EReal) shapeCasts_S1_S1x1)
          (sitofp (F := Ideal) .f32 (constantI S_ 32 0#32)) pads_S1x1_S1x128_000_01270 h_S_ := by
    show StableHlo.after hostOps2_4 (StableHlo.after hostOps2_3 (StableHlo.after hostOps2_2 (StableHlo.after hostOps2_1
      (StableHlo.after hostOps2 (W4 m ρ c))))) (Proc.devRef .tc main_v37) = _
    after_results
    rfl
  rw [e, W4_arg7]
  rfl

/-! ## Region 2 and the result -/

/-- Region 2's output: the head applied to the second layer's activation, 128 columns wide. -/
def outOf (c : Dev nD) : S100000x128.Idx → EReal :=
  Reg2.G2 (agg2Of m ρ c) (ls2Of m ρ c) (dOf m ρ c) (shapeCast S1x32 (b2Of m c) shapeCasts_S32_S1x32) (wfPadOf m c) (bfPadOf m c)

theorem W10_v39 (c : Dev nD) : (id (W10 m ρ c (Proc.devRef .tc main_v39)) : S100000x128.Idx → EReal) = outOf m ρ c := by
  have h := (W10_arr m ρ c 6).trans (Reg2.final (V9 m ρ) c)
  refine h.trans ?_
  unfold outOf
  rw [← W9_v34 m ρ c, ← W9_v24 m ρ c, ← W9_v11 m ρ c, ← W9_v38 m ρ c, ← W9_v35 m ρ c, ← W9_v37 m ρ c]
  rfl

/-- The result is column 0 of region 2's output. -/
theorem W11_v40 (c : Dev nD) : (id (W11 m ρ c (Proc.devRef .tc main_v40)) : S100000x1.Idx → EReal)
    = extractStridedSlice S100000x1 ![0, 0] (outOf m ρ c) slices_S100000x128_S100000x1_0_0 := by
  have e : (id (W11 m ρ c (Proc.devRef .tc main_v40)) : S100000x1.Idx → EReal)
      = extractStridedSlice S100000x1 ![0, 0] (id (W10 m ρ c (Proc.devRef .tc main_v39)) : S100000x128.Idx → EReal) slices_S100000x128_S100000x1_0_0 := by
    show StableHlo.after hostOps3 (W10 m ρ c) (Proc.devRef .tc main_v40) = _
    after_results
    rfl
  rw [e, W10_v39]

end Cert.KernelIdeal.KVal

end
-- ==== Proof.KAgg.lean ====
/-
  The tiled program's lookups and accumulations over the 2000000 edges, read at an index.

  An index column built from a vector of words by wrapping the negative ones holds, at (k, 0), the wrapped word.  An
  accumulating scatter into zeros of the looked-up source rows of a real table returns, at node `n` and column `c`,
  the sum over the edges delivering to `n` of the table's entry at the edge's source row: a real.
-/
import proofs.«133357_j60670708023801_2_alg».proof.Proof.KWords

set_option maxRecDepth 16384

noncomputable section

namespace Cert.KernelIdeal.KAgg

open Cert.KernelIdeal Cert.KernelIdeal.Gen Cert.Gcn
open Idealize.ShloMosaic Idealize.ShloMosaic.TcCoe Idealize.ShloMosaic.ValueIdx Idealize.SL.Sem Idealize.ShloMosaic.StableHlo
open scoped BigOperators

/-- The wrapped index column at `(k, 0)`: the word at `k`, plus 100000 when it is negative. -/
theorem wrapCol_apply (v : S2000000.Idx → BitVec 32) (k : Fin 2000000) :
    broadcastInDim S2000000x1 ![0] bcast_S2000000_S2000000x1_0
        (select (cmpi .slt v (broadcastInDim S2000000 ![] bcast_S_S2000000 (constantI S_ 32 0#32)))
                (addi v (broadcastInDim S2000000 ![] bcast_S_S2000000 (constantI S_ 32 100000#32))) v) (ix2 k (0 : Fin 1))
      = Cert.Gcn.wrapW (v (ix1 k)) := by
  rw [KWords.col_apply]
  show Scalar.select
      (IntOp.cmpi .slt (v (ix1 k)) (broadcastInDim S2000000 ![] bcast_S_S2000000 (constantI S_ 32 0#32) (ix1 k)))
      (IntOp.addi (v (ix1 k)) (broadcastInDim S2000000 ![] bcast_S_S2000000 (constantI S_ 32 100000#32) (ix1 k)))
      (v (ix1 k)) = _
  rw [broadcastInDim_apply _ bcast_S_S2000000 (constantI S_ 32 0#32) (ix1 k) (fun a => a.elim0) (fun a => a.elim0),
    broadcastInDim_apply _ bcast_S_S2000000 (constantI S_ 32 100000#32) (ix1 k) (fun a => a.elim0) (fun a => a.elim0)]
  rfl

/-- The accumulation of the looked-up source rows of a real table, at node `n`, column `c`. -/
theorem agg_real (T : S100000x32.Idx → EReal) (tR : Fin 100000 → Fin 32 → ℝ)
    (hT : ∀ n c, T (ix2 n c) = ((tR n c : ℝ) : EReal))
    (ei : S2x2000000.Idx → BitVec 32) (dcol scol : S2000000x1.Idx → BitVec 32)
    (hd : ∀ k : Fin 2000000, dcol (ix2 k (0 : Fin 1)) = Cert.Gcn.dstW ei k)
    (hs : ∀ k : Fin 2000000, scol (ix2 k (0 : Fin 1)) = Cert.Gcn.wrapW (Cert.Gcn.srcW ei k))
    (n : Fin 100000) (c : Fin 32) :
    Host.scatterAdd (F := Ideal) (φ := .f32) scatter_S100000x32_S2000000x1_S2000000x32_1_0_0_1
        (broadcastInDim S100000x32 ![] bcast_S_S100000x32 (constant (F := Ideal) S_ .f32 0x00000000#32)) dcol
        (Host.gather gather_S100000x32_S2000000x1_S2000000x32_1_0_n_n_0_1_132 T scol) (ix2 n c)
      = (((∑ k : Fin 2000000, if Cert.Gcn.hitW ei k n then tR (Cert.Gcn.rowW ei k) c else 0 : ℝ)) : EReal) := by
  rw [KWords.scatRows_at,
    broadcastInDim_apply _ bcast_S_S100000x32 (constant (F := Ideal) S_ .f32 0x00000000#32) (ix2 n c)
      (fun a => a.elim0) (fun a => a.elim0)]
  show Ideal.ofBits .f32 0x00000000#32 + _ = _
  rw [Cert.RefSide.ofBits_zero, zero_add, Cert.Bridge.GraphOps.coe_sum]
  refine Finset.sum_congr rfl fun k _ => ?_
  rw [hd k, KWords.gathRows_at T scol k c _ (hs k), hT]
  by_cases h : hitW ei k n
  · rw [if_pos h, if_pos (show (dstW ei k).toInt = (n.val : ℤ) from h)]
    rfl
  · rw [if_neg h, if_neg (show ¬ (dstW ei k).toInt = (n.val : ℤ) from h), EReal.coe_zero]

end Cert.KernelIdeal.KAgg

end
-- ==== Proof.KLayout.lean ====
/-
  The tiled program's small layout operations, read at an index.

  A bias vector reshaped to one row reads the vector; the first column of the 128-column head table, cut out, reads
  that column; a one-column weight table, and the one-entry head bias reshaped to `[1, 1]`, padded on the right to 128
  columns, read the operand in column 0.
-/
import proofs.«133357_j60670708023801_2_alg».proof.Proof.Gen.KernelIdeal
import Idealize.ShloMosaic.Lib.KernelVsHost
import Idealize.ShloMosaic.Lib.Pipeline.Value
import Idealize.ShloMosaic.Lib.ValueIdx

set_option maxRecDepth 16384

noncomputable section

namespace Cert.KernelIdeal.KLayout

open Cert.KernelIdeal Cert.KernelIdeal.Gen
open Idealize.ShloMosaic Idealize.ShloMosaic.ValueIdx

/-- A 32-vector reshaped to one row, at `(0, k)`. -/
theorem biasRow_apply (b : S32.Idx → EReal) (k : Fin 32) :
    shapeCast S1x32 b shapeCasts_S32_S1x32 (ix2 (0 : Fin 1) k) = b (ix1 k) :=
  shapeCast_apply b shapeCasts_S32_S1x32 (ix2 (0 : Fin 1) k) (ix1 k)
    (by rewrite [Shape.rowMajor_val_two, Shape.rowMajor_val_one]; show k.val = 0 * 32 + k.val; omega)

/-- The first column of a 128-column table, cut out, at `(n, 0)`. -/
theorem headSlice_apply (T : S100000x128.Idx → EReal) (n : Fin 100000) :
    extractStridedSlice S100000x1 ![0, 0] T slices_S100000x128_S100000x1_0_0 (ix2 n (0 : Fin 1))
      = T (ix2 n (0 : Fin 128)) :=
  extractStridedSlice_apply ![0, 0] T slices_S100000x128_S100000x1_0_0 (ix2 n (0 : Fin 1)) (ix2 n (0 : Fin 128))
    (fun a => match a with
      | ⟨0, _⟩ => by show n.val = 0 + n.val; omega
      | ⟨1, _⟩ => by show (0 : ℕ) = 0 + 0; omega)

/-- A one-column table padded on the right to 128 columns, at `(j, 0)`. -/
theorem padW_apply (Wf : S32x1.Idx → EReal) (v : S_.Idx → EReal) (j : Fin 32) :
    pad S32x128 ![0, 0] ![0, 127] ![0, 0] Wf v pads_S32x1_S32x128_000_01270 h_S_ (ix2 j (0 : Fin 128))
      = Wf (ix2 j (0 : Fin 1)) :=
  pad_apply_of_inside ![0, 0] ![0, 127] ![0, 0] Wf v pads_S32x1_S32x128_000_01270 h_S_ (ix2 j (0 : Fin 128))
    (ix2 j (0 : Fin 1))
    (fun a => match a with
      | ⟨0, _⟩ => by show j.val = 0 + j.val * (0 + 1); omega
      | ⟨1, _⟩ => by show (0 : ℕ) = 0 + 0 * (0 + 1); omega)

/-- The one-entry head bias, reshaped to `[1, 1]` and padded on the right to 128 columns, at `(0, 0)`. -/
theorem padB_apply (bf : S1.Idx → EReal) (v : S_.Idx → EReal) :
    pad S1x128 ![0, 0] ![0, 127] ![0, 0] (shapeCast S1x1 bf shapeCasts_S1_S1x1) v pads_S1x1_S1x128_000_01270 h_S_
        (ix2 (0 : Fin 1) (0 : Fin 128))
      = bf (ix1 (0 : Fin 1)) := by
  rw [pad_apply_of_inside ![0, 0] ![0, 127] ![0, 0] (shapeCast S1x1 bf shapeCasts_S1_S1x1) v
    pads_S1x1_S1x128_000_01270 h_S_ (ix2 (0 : Fin 1) (0 : Fin 128)) (ix2 (0 : Fin 1) (0 : Fin 1))
    (fun a => match a with
      | ⟨0, _⟩ => by show (0 : ℕ) = 0 + 0 * (0 + 1); omega
      | ⟨1, _⟩ => by show (0 : ℕ) = 0 + 0 * (0 + 1); omega)]
  exact shapeCast_apply bf shapeCasts_S1_S1x1 (ix2 (0 : Fin 1) (0 : Fin 1)) (ix1 (0 : Fin 1))
    (by rewrite [Shape.rowMajor_val_two, Shape.rowMajor_val_one]; show (0 : ℕ) = 0 * 1 + 0; omega)

end Cert.KernelIdeal.KLayout

end
-- ==== Proof.RealForms.lean ====
/-
  Tables of real numbers: the dense product and the hidden layer stay real.

  When every entry of the operands is (the image of) a real number, so is every entry of their product and of the
  hidden activation, and the value is the same expression computed in the reals: sums, products and maxima of
  finitely many reals commute with the embedding of the reals into the extended reals.
-/
import proofs.«133357_j60670708023801_2_alg».proof.Proof.LayerBlock
import proofs.«133357_j60670708023801_2_alg».proof.Proof.LibGraphOps
import proofs.«133357_j60670708023801_2_alg».proof.Proof.RefConsts
import proofs.«133357_j60670708023801_2_alg».proof.Proof.Spec

noncomputable section

namespace Cert.RealForms

open Idealize.ShloMosaic Idealize.ShloMosaic.ValueIdx Cert.Gcn
open scoped BigOperators

variable {M K N : ℕ}

/-- The larger of two reals, seen in the extended reals, is the larger of the two seen there. -/
theorem max_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- The product of two real-valued matrices, entry (r, c), is the real sum of products. -/
theorem matProd_real (X : (⟨2, ![M, K]⟩ : Shape).Idx → EReal) (W : (⟨2, ![K, N]⟩ : Shape).Idx → EReal)
    (xR : Fin M → Fin K → ℝ) (wR : Fin K → Fin N → ℝ)
    (hX : ∀ r k, X (ix2 r k) = ((xR r k : ℝ) : EReal)) (hW : ∀ k c, W (ix2 k c) = ((wR k c : ℝ) : EReal))
    (r : Fin M) (c : Fin N) :
    Cert.Dense.matProd X W (ix2 r c) = ((lin xR wR r c : ℝ) : EReal) := by
  rw [Cert.Dense.matProd_apply]
  unfold lin
  rw [Cert.Bridge.GraphOps.coe_sum]
  refine Finset.sum_congr rfl fun k _ => ?_
  rw [hX, hW, EReal.coe_mul]

/-- The hidden activation of real-valued tables, entry (r, k), is the real `max (d r · (a r k + s r k) + b k) 0`. -/
theorem hid_real (a s : (⟨2, ![M, K]⟩ : Shape).Idx → EReal) (d : (⟨2, ![M, 1]⟩ : Shape).Idx → EReal)
    (b : (⟨2, ![1, K]⟩ : Shape).Idx → EReal)
    (aR sR : Fin M → Fin K → ℝ) (dR : Fin M → ℝ) (bR : Fin K → ℝ)
    (ha : ∀ r k, a (ix2 r k) = ((aR r k : ℝ) : EReal)) (hs : ∀ r k, s (ix2 r k) = ((sR r k : ℝ) : EReal))
    (hd : ∀ r, d (ix2 r (0 : Fin 1)) = ((dR r : ℝ) : EReal)) (hb : ∀ k, b (ix2 (0 : Fin 1) k) = ((bR k : ℝ) : EReal))
    (r : Fin M) (k : Fin K) :
    Cert.LayerBlock.hid a s d b (ix2 r k) = ((max (dR r * (aR r k + sR r k) + bR k) 0 : ℝ) : EReal) := by
  rw [Cert.LayerBlock.hid_apply, ha, hs, hd, hb]
  show max _ (Ideal.ofBits .f32 0x00000000#32) = _
  rw [Cert.RefSide.ofBits_zero, ← EReal.coe_add, ← EReal.coe_mul, ← EReal.coe_add, ← EReal.coe_zero, max_coe]

end Cert.RealForms

end
-- ==== Proof.KValue.lean ====
/-
  The tiled program's result, at every node, is the factored two-layer network of the specification.

  With every float input a real: the factor column reads the real factor; the first region's output is the real
  projection scaled by the factor; an aggregation of a real table along the edges is the real sum over the delivering
  edges; the hidden activation of real tables is the real factored layer; the second region repeats the first on the
  first layer's activation; the head, read in column 0 of its 128 columns, is the last dense product plus the bias.
-/
import proofs.«133357_j60670708023801_2_alg».proof.Proof.KFold
import proofs.«133357_j60670708023801_2_alg».proof.Proof.KAgg
import proofs.«133357_j60670708023801_2_alg».proof.Proof.KLayout
import proofs.«133357_j60670708023801_2_alg».proof.Proof.RealForms

set_option maxRecDepth 16384

noncomputable section

namespace Cert.KernelIdeal.KVal

open Cert.KernelIdeal Cert.KernelIdeal.Gen Cert.Gcn Cert.KernelIdeal.KWords
open Idealize.ShloMosaic Idealize.ShloMosaic.TcCoe Idealize.ShloMosaic.ValueIdx Idealize.SL.Sem Idealize.ShloMosaic.StableHlo
open scoped BigOperators

/-! ## The index columns and one aggregation -/

theorem dstColOf_apply (ei : S2x2000000.Idx → BitVec 32) (e : Fin 2000000) :
    dstColOf (flat1 ei) (ix2 e (0 : Fin 1)) = dstW ei e := by
  unfold dstColOf flat1
  rw [col_apply, row1_apply]

theorem srcColOf_apply (ei : S2x2000000.Idx → BitVec 32) (e : Fin 2000000) :
    srcColOf (flat0 ei) (ix2 e (0 : Fin 1)) = wrapW (srcW ei e) := by
  unfold srcColOf
  rw [Cert.KernelIdeal.KAgg.wrapCol_apply]
  unfold flat0
  rw [row0_apply]

/-- The real sum an aggregation of a real table `t` returns at node `n`, column `k`. -/
def aggR (ei : S2x2000000.Idx → BitVec 32) (t : Fin 100000 → Fin 32 → ℝ) : Fin 100000 → Fin 32 → ℝ :=
  fun n k => ∑ e : Fin 2000000, if hitW ei e n then t (rowW ei e) k else 0

theorem aggOf_at (T : S100000x32.Idx → EReal) (tR : Fin 100000 → Fin 32 → ℝ)
    (hT : ∀ n k, T (ix2 n k) = ((tR n k : ℝ) : EReal)) (ei : S2x2000000.Idx → BitVec 32) (n : Fin 100000) (k : Fin 32) :
    aggOf T (flat0 ei) (flat1 ei) (ix2 n k) = ((aggR ei tR n k : ℝ) : EReal) := by
  unfold aggOf
  exact Cert.KernelIdeal.KAgg.agg_real T tR hT ei _ _ (dstColOf_apply ei) (srcColOf_apply ei) n k

variable (m : (ℓ : Loc nD τ sig) → Buf (Elt Ideal) ℓ) (ρ : Dev nD → PrngReg)

/-! ## The inputs as real tables -/

def xR (c : Dev nD) : Fin 100000 → Fin 8 → ℝ := fun n j => (xOf m c (ix2 n j)).toReal
def w1R (c : Dev nD) : Fin 8 → Fin 32 → ℝ := fun j k => (w1Of m c (ix2 j k)).toReal
def b1R (c : Dev nD) : Fin 32 → ℝ := fun k => (b1Of m c (ix1 k)).toReal
def w2R (c : Dev nD) : Fin 32 → Fin 32 → ℝ := fun j k => (w2Of m c (ix2 j k)).toReal
def b2R (c : Dev nD) : Fin 32 → ℝ := fun k => (b2Of m c (ix1 k)).toReal
def wfR (c : Dev nD) : Fin 32 → ℝ := fun j => (wfOf m c (ix2 j (0 : Fin 1))).toReal
def bfR (c : Dev nD) : ℝ := (bfOf m c (ix1 (0 : Fin 1))).toReal

/-- The factors. -/
def dR (c : Dev nD) : Fin 100000 → ℝ := dis (hitW (eiOf m c))
/-- The first scaled projection. -/
def ls1R (c : Dev nD) : Fin 100000 → Fin 32 → ℝ := fun n k => lin (xR m c) (w1R m c) n k * dR m c n
/-- The first layer's activation. -/
def h1R (c : Dev nD) : Fin 100000 → Fin 32 → ℝ :=
  layerK (dR m c) (hitW (eiOf m c)) (rowW (eiOf m c)) (ls1R m c) (b1R m c)
/-- The second scaled projection. -/
def ls2R (c : Dev nD) : Fin 100000 → Fin 32 → ℝ := fun n k => lin (h1R m c) (w2R m c) n k * dR m c n
/-- The second layer's activation. -/
def h2R (c : Dev nD) : Fin 100000 → Fin 32 → ℝ :=
  layerK (dR m c) (hitW (eiOf m c)) (rowW (eiOf m c)) (ls2R m c) (b2R m c)

/-! ## The stages -/

theorem dOf_at (c : Dev nD) (n : Fin 100000) : dOf m ρ c (ix2 n (0 : Fin 1)) = ((dR m c n : ℝ) : EReal) := by
  unfold dOf dR
  exact dis_read m ρ c n

theorem ls1Of_at (c : Dev nD) (hx : ∀ i, xOf m c i = (((xOf m c i).toReal : ℝ) : EReal))
    (hw1 : ∀ i, w1Of m c i = (((w1Of m c i).toReal : ℝ) : EReal)) (n : Fin 100000) (k : Fin 32) :
    ls1Of m ρ c (ix2 n k) = ((ls1R m c n k : ℝ) : EReal) := by
  unfold ls1Of
  show Cert.Dense.matProd (xOf m c) (w1Of m c) (ix2 n k) * dOf m ρ c (ix2 n (0 : Fin 1)) = _
  rw [Cert.RealForms.matProd_real (xOf m c) (w1Of m c) (xR m c) (w1R m c) (fun r j => hx _) (fun j k => hw1 _) n k,
    dOf_at, ← EReal.coe_mul]
  rfl

theorem b1Row_at (c : Dev nD) (hb1 : ∀ i, b1Of m c i = (((b1Of m c i).toReal : ℝ) : EReal)) (k : Fin 32) :
    shapeCast S1x32 (b1Of m c) shapeCasts_S32_S1x32 (ix2 (0 : Fin 1) k) = ((b1R m c k : ℝ) : EReal) :=
  (Cert.KernelIdeal.KLayout.biasRow_apply (b1Of m c) k).trans (hb1 _)

theorem b2Row_at (c : Dev nD) (hb2 : ∀ i, b2Of m c i = (((b2Of m c i).toReal : ℝ) : EReal)) (k : Fin 32) :
    shapeCast S1x32 (b2Of m c) shapeCasts_S32_S1x32 (ix2 (0 : Fin 1) k) = ((b2R m c k : ℝ) : EReal) :=
  (Cert.KernelIdeal.KLayout.biasRow_apply (b2Of m c) k).trans (hb2 _)

theorem hid1_at (c : Dev nD) (hx : ∀ i, xOf m c i = (((xOf m c i).toReal : ℝ) : EReal))
    (hw1 : ∀ i, w1Of m c i = (((w1Of m c i).toReal : ℝ) : EReal))
    (hb1 : ∀ i, b1Of m c i = (((b1Of m c i).toReal : ℝ) : EReal)) (n : Fin 100000) (k : Fin 32) :
    Cert.LayerBlock.hid (agg1Of m ρ c) (ls1Of m ρ c) (dOf m ρ c) (shapeCast S1x32 (b1Of m c) shapeCasts_S32_S1x32) (ix2 n k)
      = ((h1R m c n k : ℝ) : EReal) := by
  rw [Cert.RealForms.hid_real (agg1Of m ρ c) (ls1Of m ρ c) (dOf m ρ c) (shapeCast S1x32 (b1Of m c) shapeCasts_S32_S1x32)
    (aggR (eiOf m c) (ls1R m c)) (ls1R m c) (dR m c) (b1R m c)
    (fun r k => aggOf_at (ls1Of m ρ c) (ls1R m c) (ls1Of_at m ρ c hx hw1) (eiOf m c) r k)
    (ls1Of_at m ρ c hx hw1) (dOf_at m ρ c) (b1Row_at m c hb1) n k]
  rfl

theorem ls2Of_at (c : Dev nD) (hx : ∀ i, xOf m c i = (((xOf m c i).toReal : ℝ) : EReal))
    (hw1 : ∀ i, w1Of m c i = (((w1Of m c i).toReal : ℝ) : EReal))
    (hb1 : ∀ i, b1Of m c i = (((b1Of m c i).toReal : ℝ) : EReal))
    (hw2 : ∀ i, w2Of m c i = (((w2Of m c i).toReal : ℝ) : EReal)) (n : Fin 100000) (k : Fin 32) :
    ls2Of m ρ c (ix2 n k) = ((ls2R m c n k : ℝ) : EReal) := by
  unfold ls2Of
  show Cert.Dense.matProd (Cert.LayerBlock.hid (agg1Of m ρ c) (ls1Of m ρ c) (dOf m ρ c)
      (shapeCast S1x32 (b1Of m c) shapeCasts_S32_S1x32)) (w2Of m c) (ix2 n k) * dOf m ρ c (ix2 n (0 : Fin 1)) = _
  rw [Cert.RealForms.matProd_real _ (w2Of m c) (h1R m c) (w2R m c) (hid1_at m ρ c hx hw1 hb1) (fun j k => hw2 _) n k,
    dOf_at, ← EReal.coe_mul]
  rfl

theorem hid2_at (c : Dev nD) (hx : ∀ i, xOf m c i = (((xOf m c i).toReal : ℝ) : EReal))
    (hw1 : ∀ i, w1Of m c i = (((w1Of m c i).toReal : ℝ) : EReal))
    (hb1 : ∀ i, b1Of m c i = (((b1Of m c i).toReal : ℝ) : EReal))
    (hw2 : ∀ i, w2Of m c i = (((w2Of m c i).toReal : ℝ) : EReal))
    (hb2 : ∀ i, b2Of m c i = (((b2Of m c i).toReal : ℝ) : EReal)) (n : Fin 100000) (k : Fin 32) :
    Cert.LayerBlock.hid (agg2Of m ρ c) (ls2Of m ρ c) (dOf m ρ c) (shapeCast S1x32 (b2Of m c) shapeCasts_S32_S1x32) (ix2 n k)
      = ((h2R m c n k : ℝ) : EReal) := by
  rw [Cert.RealForms.hid_real (agg2Of m ρ c) (ls2Of m ρ c) (dOf m ρ c) (shapeCast S1x32 (b2Of m c) shapeCasts_S32_S1x32)
    (aggR (eiOf m c) (ls2R m c)) (ls2R m c) (dR m c) (b2R m c)
    (fun r k => aggOf_at (ls2Of m ρ c) (ls2R m c) (ls2Of_at m ρ c hx hw1 hb1 hw2) (eiOf m c) r k)
    (ls2Of_at m ρ c hx hw1 hb1 hw2) (dOf_at m ρ c) (b2Row_at m c hb2) n k]
  rfl

theorem wfPadOf_at (c : Dev nD) (hwf : ∀ i, wfOf m c i = (((wfOf m c i).toReal : ℝ) : EReal)) (j : Fin 32) :
    wfPadOf m c (ix2 j (0 : Fin 128)) = ((wfR m c j : ℝ) : EReal) := by
  unfold wfPadOf
  rw [Cert.KernelIdeal.KLayout.padW_apply]
  exact hwf _

theorem bfPadOf_at (c : Dev nD) (hbf : ∀ i, bfOf m c i = (((bfOf m c i).toReal : ℝ) : EReal)) :
    bfPadOf m c (ix2 (0 : Fin 1) (0 : Fin 128)) = ((bfR m c : ℝ) : EReal) := by
  unfold bfPadOf
  rw [Cert.KernelIdeal.KLayout.padB_apply]
  exact hbf _

theorem outOf_at (c : Dev nD) (hx : ∀ i, xOf m c i = (((xOf m c i).toReal : ℝ) : EReal))
    (hw1 : ∀ i, w1Of m c i = (((w1Of m c i).toReal : ℝ) : EReal))
    (hb1 : ∀ i, b1Of m c i = (((b1Of m c i).toReal : ℝ) : EReal))
    (hw2 : ∀ i, w2Of m c i = (((w2Of m c i).toReal : ℝ) : EReal))
    (hb2 : ∀ i, b2Of m c i = (((b2Of m c i).toReal : ℝ) : EReal))
    (hwf : ∀ i, wfOf m c i = (((wfOf m c i).toReal : ℝ) : EReal))
    (hbf : ∀ i, bfOf m c i = (((bfOf m c i).toReal : ℝ) : EReal)) (n : Fin 100000) :
    outOf m ρ c (ix2 n (0 : Fin 128)) = (((∑ j : Fin 32, h2R m c n j * wfR m c j) + bfR m c : ℝ) : EReal) := by
  unfold outOf
  show Cert.Dense.matProd (Cert.LayerBlock.hid (agg2Of m ρ c) (ls2Of m ρ c) (dOf m ρ c)
      (shapeCast S1x32 (b2Of m c) shapeCasts_S32_S1x32)) (wfPadOf m c) (ix2 n (0 : Fin 128))
    + bfPadOf m c (ix2 (0 : Fin 1) (0 : Fin 128)) = _
  rw [Cert.Dense.matProd_apply, bfPadOf_at m c hbf, EReal.coe_add, Cert.Bridge.GraphOps.coe_sum]
  refine congrArg₂ (· + ·) (Finset.sum_congr rfl fun j _ => ?_) rfl
  rw [hid2_at m ρ c hx hw1 hb1 hw2 hb2, wfPadOf_at m c hwf, EReal.coe_mul]

/-- The tiled program's result at node `n` is the factored network of the specification on the inputs' reals. -/
theorem kernel_value (c : Dev nD)
    (hx : ∀ i, xOf m c i = (((xOf m c i).toReal : ℝ) : EReal)) (hw1 : ∀ i, w1Of m c i = (((w1Of m c i).toReal : ℝ) : EReal))
    (hb1 : ∀ i, b1Of m c i = (((b1Of m c i).toReal : ℝ) : EReal)) (hw2 : ∀ i, w2Of m c i = (((w2Of m c i).toReal : ℝ) : EReal))
    (hb2 : ∀ i, b2Of m c i = (((b2Of m c i).toReal : ℝ) : EReal)) (hwf : ∀ i, wfOf m c i = (((wfOf m c i).toReal : ℝ) : EReal))
    (hbf : ∀ i, bfOf m c i = (((bfOf m c i).toReal : ℝ) : EReal)) (n : Fin 100000) :
    (id (W11 m ρ c (Proc.devRef .tc main_v40)) : S100000x1.Idx → EReal) (ix2 n (0 : Fin 1))
      = ((Cert.Gcn.outK (Cert.Gcn.dis (Cert.Gcn.hitW (eiOf m c))) (Cert.Gcn.hitW (eiOf m c)) (Cert.Gcn.rowW (eiOf m c))
            (fun n j => (xOf m c (ix2 n j)).toReal) (fun j k => (w1Of m c (ix2 j k)).toReal) (fun k => (b1Of m c (ix1 k)).toReal)
            (fun j k => (w2Of m c (ix2 j k)).toReal) (fun k => (b2Of m c (ix1 k)).toReal)
            (fun j => (wfOf m c (ix2 j (0 : Fin 1))).toReal) ((bfOf m c (ix1 (0 : Fin 1))).toReal) n : ℝ) : EReal) := by
  rw [W11_v40, Cert.KernelIdeal.KLayout.headSlice_apply, outOf_at m ρ c hx hw1 hb1 hw2 hb2 hwf hbf n]
  rfl

end Cert.KernelIdeal.KVal

end
-- ==== Proof.lean ====
/-
  A two-layer graph convolution with symmetric normalisation, followed by a linear head, computed two ways.

  Nodes carry feature rows; every edge delivers its source's row to its target, and every node also hears itself.
  With deg n the number of edges delivering to n plus one, the factor is d n = 1 / sqrt (deg n), and one layer is
      out(n, c) = max (∑ over messages into n of d(source) · d(n) · l(source, c) + b(c), 0),   l = features × weights.

  The tiled program scales the table by d BEFORE summing over the edges, adds the node's own scaled row in closed form
  (the self loop), and scales by d n AFTER the sum.  The plain program weighs every message by d(source) · d(target)
  and appends the self loops as edges of their own.  Both sums are finite sums of real numbers (the inputs are finite),
  the factor d n is constant over the messages into n, and multiplication distributes over the sum: the two programs
  compute one function.  Each program also leaves its arguments as it found them.
-/
import proofs.«133357_j60670708023801_2_alg».proof.Defs
import proofs.«133357_j60670708023801_2_alg».proof.Proof.Gen.Kernel
import proofs.«133357_j60670708023801_2_alg».proof.Proof.Gen.Kernel.Skeleton
import proofs.«133357_j60670708023801_2_alg».proof.Proof.Gen.Kernel.Launch
import proofs.«133357_j60670708023801_2_alg».proof.Proof.Gen.Kernel.Points
import proofs.«133357_j60670708023801_2_alg».proof.Proof.Gen.Kernel.Frame
import proofs.«133357_j60670708023801_2_alg».proof.Proof.Gen.KernelIdeal
import proofs.«133357_j60670708023801_2_alg».proof.Proof.Gen.KernelIdeal.Skeleton
import proofs.«133357_j60670708023801_2_alg».proof.Proof.Gen.KernelIdeal.Launch
import proofs.«133357_j60670708023801_2_alg».proof.Proof.Gen.KernelIdeal.Points
import proofs.«133357_j60670708023801_2_alg».proof.Proof.Gen.KernelIdeal.Frame
import proofs.«133357_j60670708023801_2_alg».proof.Proof.Gen.ReferenceIdeal
import proofs.«133357_j60670708023801_2_alg».proof.Proof.Gen.Pre_finite_inputs
import proofs.«133357_j60670708023801_2_alg».proof.Proof.Spec
import proofs.«133357_j60670708023801_2_alg».proof.Proof.Graph
import proofs.«133357_j60670708023801_2_alg».proof.Proof.Finite
import proofs.«133357_j60670708023801_2_alg».proof.Proof.KRun
import proofs.«133357_j60670708023801_2_alg».proof.Proof.RefValue
import proofs.«133357_j60670708023801_2_alg».proof.Proof.KValue
import Idealize.ShloMosaic.Adequacy
import Idealize.ShloMosaic.Init

noncomputable section

namespace Cert.Proof

open Idealize.ShloMosaic Idealize.SL.Sem Idealize.ShloMosaic.ValueIdx

/-! ## The two results are one function -/

section Bridge

open Cert.KernelIdeal Cert.KernelIdeal.Gen

variable (m : (ℓ : Loc nD τ sig) → Buf (Elt Ideal) ℓ) (ρ : Dev nD → PrngReg)

/-- The eight arguments as arrays: the features, the edge words, and the six parameter arrays. -/
abbrev aX (c : Dev nD) : S100000x8.Idx → EReal := m ((c.tc : Thread nD τ).loc main_arg0)
abbrev aEi (c : Dev nD) : S2x2000000.Idx → BitVec 32 := m ((c.tc : Thread nD τ).loc main_arg1)
abbrev aW1 (c : Dev nD) : S8x32.Idx → EReal := m ((c.tc : Thread nD τ).loc main_arg2)
abbrev aB1 (c : Dev nD) : S32.Idx → EReal := m ((c.tc : Thread nD τ).loc main_arg3)
abbrev aW2 (c : Dev nD) : S32x32.Idx → EReal := m ((c.tc : Thread nD τ).loc main_arg4)
abbrev aB2 (c : Dev nD) : S32.Idx → EReal := m ((c.tc : Thread nD τ).loc main_arg5)
abbrev aWf (c : Dev nD) : S32x1.Idx → EReal := m ((c.tc : Thread nD τ).loc main_arg6)
abbrev aBf (c : Dev nD) : S1.Idx → EReal := m ((c.tc : Thread nD τ).loc main_arg7)

/-- With finite inputs, and from memories that agree on the arguments, the plain program's result array is the tiled
    program's: at every node the first is the aggregated network, the second the factored one, of the same reals. -/
theorem result_eq (m' : (ℓ : Loc Cert.ReferenceIdeal.nD Cert.ReferenceIdeal.τ Cert.ReferenceIdeal.sig) → Buf (Elt Ideal) ℓ) (c : Dev nD)
    (hpre : Cert.Pre_finite_inputs.fn (F := Ideal) (aX m c) (aEi m c) (aW1 m c) (aB1 m c) (aW2 m c) (aB2 m c) (aWf m c) (aBf m c)
      = fun _ => 1#1)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)) :
    Cert.ReferenceIdeal.ValueP.res_main_v71 m' c = W11 m ρ c (Proc.devRef .tc main_v40) := by
  obtain ⟨g0, g1, g2, g3, g4, g5, g6, g7⟩ := hagree
  obtain ⟨hx, hw1, hb1, hw2, hb2, hwf, hbf⟩ := Cert.Finite.reals_of_pre _ _ _ _ _ _ _ _ hpre
  rw [Cert.ReferenceIdeal.ReadP.val_main_v71_eq m' c, g0, g1, g2, g3, g4, g5, g6, g7]
  show (Cert.ReferenceIdeal.ReadP.val_main_v71 (F := Ideal) (aX m c) (aEi m c) (aW1 m c) (aB1 m c) (aW2 m c) (aB2 m c) (aWf m c) (aBf m c)
      : S100000x1.Idx → EReal) = (id (W11 m ρ c (Proc.devRef .tc main_v40)) : S100000x1.Idx → EReal)
  funext i
  obtain ⟨n, rfl⟩ : ∃ n : Fin 100000, i = ix2 n (0 : Fin 1) :=
    ⟨i 0, funext fun a => match a with
      | ⟨0, _⟩ => rfl
      | ⟨1, _⟩ => Fin.ext (by have h1 : (i 1).val < 1 := (i 1).isLt; show (i 1).val = 0; omega)⟩
  refine (Cert.RefSide.ref_value (aX m c) (aEi m c) (aW1 m c) (aB1 m c) (aW2 m c) (aB2 m c) (aWf m c) (aBf m c)
    hx hw1 hb1 hw2 hb2 hwf hbf n).trans ?_
  refine Eq.trans ?_ (Cert.KernelIdeal.KVal.kernel_value m ρ c hx hw1 hb1 hw2 hb2 hwf hbf n).symm
  exact congrArg (fun r : ℝ => (r : EReal)) (congrFun (Cert.Gcn.outK_eq_outR (Cert.Gcn.dis (Cert.Gcn.hitW (aEi m c)))
    (Cert.Gcn.hitW (aEi m c)) (Cert.Gcn.rowW (aEi m c)) (Cert.Gcn.drowW (aEi m c))
    (fun k n h => Cert.Gcn.drowW_of_hit (aEi m c) k n h)
    (fun n j => (aX m c (ix2 n j)).toReal) (fun j k => (aW1 m c (ix2 j k)).toReal) (fun k => (aB1 m c (ix1 k)).toReal)
    (fun j k => (aW2 m c (ix2 j k)).toReal) (fun k => (aB2 m c (ix1 k)).toReal)
    (fun j => (aWf m c (ix2 j (0 : Fin 1))).toReal) ((aBf m c (ix1 (0 : Fin 1))).toReal)) n).symm

end Bridge

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation: nothing to preserve. -/
theorem preserves : Cert.preserves_Kernel_KernelIdeal := trivial

/-- At the ideal values the tiled program's result array ends at the last boundary's contents and the plain program's
    at its operations' composed term, of arguments that agree: one function (`result_eq`). -/
theorem algebraic : Cert.algebraic_KernelIdeal_ReferenceIdeal := by
  intro m ρ m' ρ' hpre hagree
  refine ⟨fun c => Cert.KernelIdeal.Gen.W11 m ρ c (Proc.devRef .tc Cert.KernelIdeal.main_v40),
    Cert.KernelIdeal.KRun.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  exact result_eq m ρ m' c (hpre c) (hagree c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
